-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S2x640000 : Shape := ⟨2, ![2, 640000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : FVec F S640000 .f32) (main_arg2 : FVec F S128x128 .f32) (main_arg3 : FVec F S128 .f32) (main_arg4 : FVec F S128x128 .f32) (main_arg5 : FVec F S128 .f32) (main_arg6 : FVec F S128 .f32) (main_arg7 : IVec S2x640000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S640000 .f32 := Host.absf main_arg1
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S2x640000 : Shape := ⟨2, ![2, 640000]⟩
abbrev S2000x128 : Shape := ⟨2, ![2000, 128]⟩
abbrev S1x640000 : Shape := ⟨2, ![1, 640000]⟩
abbrev S_ : Shape := ⟨0, ![]⟩
abbrev S640000x1 : Shape := ⟨2, ![640000, 1]⟩
abbrev S640000x128 : Shape := ⟨2, ![640000, 128]⟩
abbrev S100000x1 : Shape := ⟨2, ![100000, 1]⟩
abbrev S1x128 : Shape := ⟨2, ![1, 128]⟩
abbrev S2000x1 : Shape := ⟨2, ![2000, 1]⟩

abbrev nBuf : Space → Nat
  | .hbm => 49
  | .vmem => 29
  | .smem => 0
  | _ => 0

abbrev bufTy : (tb : Table) → Fin (tcTables nBuf tb) → BufTy
  | .hbm, ⟨0, _⟩ => ⟨S100000x128, .f32⟩
  | .hbm, ⟨1, _⟩ => ⟨S640000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S2x640000, .i32⟩
  | .hbm, ⟨8, _⟩ => ⟨S100000x128, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x128, .f32⟩
  | .hbm, ⟨22, _⟩ => ⟨S_, .f32⟩
  | .hbm, ⟨23, _⟩ => ⟨S100000x128, .f32⟩
  | .hbm, ⟨24, _⟩ => ⟨S640000x1, .i32⟩
  | .hbm, ⟨25, _⟩ => ⟨S100000x128, .f32⟩
  | .hbm, ⟨26, _⟩ => ⟨S_, .f32⟩
  | .hbm, ⟨27, _⟩ => ⟨S640000x1, .f32⟩
  | .hbm, ⟨28, _⟩ => ⟨S_, .f32⟩
  | .hbm, ⟨29, _⟩ => ⟨S100000x1, .f32⟩
  | .hbm, ⟨30, _⟩ => ⟨S640000x1, .i32⟩
  | .hbm, ⟨31, _⟩ => ⟨S100000x1, .f32⟩
  | .hbm, ⟨32, _⟩ => ⟨S128x128, .f32⟩
  | .hbm, ⟨33, _⟩ => ⟨S128x128, .f32⟩
  | .hbm, ⟨34, _⟩ => ⟨S1x128, .f32⟩
  | .hbm, ⟨35, _⟩ => ⟨S100000x128, .f32⟩
  | .hbm, ⟨36, _⟩ => ⟨S1x128, .f32⟩
  | .hbm, ⟨37, _⟩ => ⟨S1x128, .f32⟩
  | .hbm, ⟨38, _⟩ => ⟨S_, .f32⟩
  | .hbm, ⟨39, _⟩ => ⟨S1x128, .f32⟩
  | .hbm, ⟨40, _⟩ => ⟨S1x128, .f32⟩
  | .hbm, ⟨41, _⟩ => ⟨S_, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x1, .f32⟩
  | .local _ .vmem, ⟨7, _⟩ => ⟨S2000x1, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S2000x128, .f32⟩
  | .local _ .vmem, ⟨22, _⟩ => ⟨S2000x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S2000x128, .f32⟩
  | .local _ .vmem, ⟨28, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23_0 : Ref sig .tc := ⟨.hbm, 36, rfl⟩
abbrev main_v23_1 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_scratch0 : Ref sig .tc := ⟨.vmem, 19, rfl⟩
abbrev cc2_scratch1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg5_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem5_1 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v20 : BitVec 1 := Scalar.cmpi .eq arg0 c49_i32
  let v21 : BitVec 32 := Scalar.extui v20
  let c0_i32_11 : BitVec 32 := 0#32
  let v22 : BitVec 1 := Scalar.cmpi .ne v21 c0_i32_11
  v22

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  inb_S2000x128_S2000x128_0_0 : ∀ a, (![0, 0] : Fin 2 → Nat) a + S2000x128.size a ≤ S2000x128.size a
  h_S2000x128 : 0 < S2000x128.numel
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S640000x1 : S_.BroadcastsInDim S640000x1 (![] : Fin 0 → Fin S640000x1.rank)
  bcast_S_S100000x1 : S_.BroadcastsInDim S100000x1 (![] : Fin 0 → Fin S100000x1.rank)
  transposes_S128x128_S128x128_1_0 : S128x128.Transposes [1, 0] S128x128
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000x1_S640000x1_S640000x1_1_0_0_1_wf : ScatterDims.WF S100000x1 S640000x1 S640000x1 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S100000x128.size a
  hwx3_5 : ∀ i : grid3.Coords, EltTy.bits .f32 = 32 ∨ (Rect.block (s := S100000x128) S2000x128.size (cc3_transform_5 i) (hinb3_5 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000x1_S640000x1_S640000x1_1_0_0_1 : ScatterDims S100000x1 S640000x1 S640000x1 where
  updateWindowDims := [1]
  insertedWindowDims := [0]
  scatterDimsToOperandDims := [0]
  indexVectorDim := 1
  wf := scatter_S100000x1_S640000x1_S640000x1_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v14) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v22) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23_0) S1x128.size cc2_transform_1 reads2_1 true true 1 stage2_1 sem2_1
    hrank2 hreads2_1 hinb2_1 nbuf2_1 (Memref.isWhole_whole _) hwx2_1 hstage2_1

abbrev win2_2 : Pipeline.Window sig grid2 :=
  Pipeline.Window.ofSpec (Memref.whole main_v23_1) S1x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun i => !(k2_cond2 i == 1#1) | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v22) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v29) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v30) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v31) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v32) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S2x640000 : Shape := ⟨2, ![2, 640000]⟩
abbrev S_ : Shape := ⟨0, ![]⟩
abbrev S1x640000 : Shape := ⟨2, ![1, 640000]⟩
abbrev S640000x1 : Shape := ⟨2, ![640000, 1]⟩
abbrev S640000x128 : Shape := ⟨2, ![640000, 128]⟩
abbrev S100000x1 : Shape := ⟨2, ![100000, 1]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S640000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S2x640000, .i32⟩
  | .hbm, ⟨8, _⟩ => ⟨S_, .f32⟩
  | .hbm, ⟨9, _⟩ => ⟨S100000x128, .f32⟩
  | .hbm, ⟨10, _⟩ => ⟨S100000x128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S_, .f32⟩
  | .hbm, ⟨25, _⟩ => ⟨S100000x128, .f32⟩
  | .hbm, ⟨26, _⟩ => ⟨S640000x1, .i32⟩
  | .hbm, ⟨27, _⟩ => ⟨S100000x128, .f32⟩
  | .hbm, ⟨28, _⟩ => ⟨S_, .f32⟩
  | .hbm, ⟨29, _⟩ => ⟨S640000x1, .f32⟩
  | .hbm, ⟨30, _⟩ => ⟨S_, .f32⟩
  | .hbm, ⟨31, _⟩ => ⟨S100000x1, .f32⟩
  | .hbm, ⟨32, _⟩ => ⟨S640000x1, .i32⟩
  | .hbm, ⟨33, _⟩ => ⟨S100000x1, .f32⟩
  | .hbm, ⟨34, _⟩ => ⟨S_, .f32⟩
  | .hbm, ⟨35, _⟩ => ⟨S100000x1, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S128x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S128, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S1x128, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_cst : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000x1_S640000x1_S640000x1_1_0_0_1_wf : ScatterDims.WF S100000x1 S640000x1 S640000x1 [1] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000x1_S640000x1_S640000x1_1_0_0_1 : ScatterDims S100000x1 S640000x1 S640000x1 where
  updateWindowDims := [1]
  insertedWindowDims := [0]
  scatterDimsToOperandDims := [0]
  indexVectorDim := 1
  wf := scatter_S100000x1_S640000x1_S640000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.BFrameR0.lean ====
/-
  The four row-blocked passes of the program as pipeline regions: per region the blocks its windows read, what its body
  leaves in each output buffer, the body's triple and the data the pipeline rule takes. This file: the first pass.
-/
import proofs.«160515_j66726611911291_1_alg».proof.Proof.Gen.Kernel.Launch
import proofs.«160515_j66726611911291_1_alg».proof.Proof.Gen.Kernel.Skeleton
import proofs.«160515_j66726611911291_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered from, one valuation per core
variable (V : (c : Dev nD) → (b : Ref sig .tc) → Buf (Elt F) ((c : Thread nD τ).loc b))

/-! # Region 0: the rectified-linear pass over row blocks

Fifty grid points; point `t` reads rows `2000 t … 2000 t + 1999` of the input array and writes the same rows of the
output array with every entry replaced by its maximum with zero. Nothing is carried from one point to the next. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data whose array is the entry
    contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes: the whole 2000 × 128 block. -/
abbrev rect0 : Rect S2000x128 := Rect.unit (s := S2000x128) ![0, 0] S2000x128.size inb_S2000x128_S2000x128_0_0

/-- What the body leaves in the output window's buffer: its one store, of the rectified block. -/
def out0_1 (x0 : Vec F S2000x128 .f32) : Vec F S2000x128 .f32 :=
  View.canon [⟨rect0, k0_pay1 (View.ld x0 rect0)⟩]

/-- That store covers the buffer. -/
theorem cover0_1 (p0 : Vec F S2000x128 .f32) (y : S2000x128.Idx) :
    ∃ pc ∈ ([⟨rect0, p0⟩] : List (View.Piece (Elt F) S2000x128 .f32)), y ∈ pc.1.set :=
  View.cover_of_tiled [⟨rect0, p0⟩] S2000x128.size (by rfl) y

set_option maxHeartbeats 1000000 in
/-- The body on whole staging buffers, the input's at contents `x0` and the output's at anything, ends with the input's
    as it was and the output's at `out0_1 x0`. -/
theorem sound_kernel0 (c : Dev nD) (E : Set ℕ) (i : grid0.Coords) (arg0 : Memref sig .tc .vmem S2000x128 .f32) (harg0 : arg0.IsWhole) (arg1 : Memref sig .tc .vmem S2000x128 .f32) (harg1 : arg1.IsWhole)
    (x0 : Vec F S2000x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__relu_kernel i arg0 harg0 arg1 harg1) K := by
  simp only [cc0__relu_kernel_eq_skeleton]; unfold cc0__relu_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of region 0 on core `c`: the arrays as the region finds them; after the body at point `t` the input's
    buffer at its block and the output's at the rectified block; nothing carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BFrameR1.lean ====
/-
  The four row-blocked passes of the program as pipeline regions: per region the blocks its windows read, what its body
  leaves in each output buffer, the body's triple and the data the pipeline rule takes. This file: the second pass.
-/
import proofs.«160515_j66726611911291_1_alg».proof.Proof.Gen.Kernel.Launch
import proofs.«160515_j66726611911291_1_alg».proof.Proof.Gen.Kernel.Skeleton
import proofs.«160515_j66726611911291_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered from, one valuation per core
variable (V : (c : Dev nD) → (b : Ref sig .tc) → Buf (Elt F) ((c : Thread nD τ).loc b))

/-! # Region 1: mean aggregation and the two 128 × 128 products, over row blocks

Point `t` reads rows `2000 t …` of the summed messages, of the neighbour counts and of the rectified features, the two transposed
weight matrices and the bias row whole, and writes the same rows of the output: the messages divided by the count clamped
below at one, times the first matrix, plus the bias, plus the rectified features times the second matrix. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point (fetched there, or fetched earlier at an index that has
    not moved), for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point (fetched there, or fetched earlier at an index that has
    not moved), for any proof data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point (fetched there, or fetched earlier at an index that has
    not moved), for any proof data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point (fetched there, or fetched earlier at an index that has
    not moved), for any proof data whose array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point (fetched there, or fetched earlier at an index that has
    not moved), for any proof data whose array is the entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point (fetched there, or fetched earlier at an index that has
    not moved), for any proof data whose array is the entry contents and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes: each buffer whole. -/
abbrev rect1_S2000x128 : Rect S2000x128 := Rect.unit (s := S2000x128) ![0, 0] S2000x128.size inb_S2000x128_S2000x128_0_0
abbrev rect1_S2000x1 : Rect S2000x1 := Rect.unit (s := S2000x1) ![0, 0] S2000x1.size inb_S2000x1_S2000x1_0_0
abbrev rect1_S128x128 : Rect S128x128 := Rect.unit (s := S128x128) ![0, 0] S128x128.size inb_S128x128_S128x128_0_0
abbrev rect1_S1x128 : Rect S1x128 := Rect.unit (s := S1x128) ![0, 0] S1x128.size inb_S1x128_S1x128_0_0

/-- What the body leaves in the output window's buffer: its one store, of the payload of the blocks it loaded. -/
def out1_6 (x0 : Vec F S2000x128 .f32) (x1 : Vec F S2000x1 .f32) (x2 : Vec F S2000x128 .f32) (x3 : Vec F S128x128 .f32) (x4 : Vec F S1x128 .f32) (x5 : Vec F S128x128 .f32) : Vec F S2000x128 .f32 :=
  View.canon [⟨rect1_S2000x128, k1_pay1 (View.ld x0 rect1_S2000x128) (View.ld x1 rect1_S2000x1) (View.ld x2 rect1_S2000x128) (View.ld x3 rect1_S128x128) (View.ld x4 rect1_S1x128) (View.ld x5 rect1_S128x128)⟩]

/-- That store covers the buffer. -/
theorem cover1_6 (p0 : Vec F S2000x128 .f32) (y : S2000x128.Idx) :
    ∃ pc ∈ ([⟨rect1_S2000x128, p0⟩] : List (View.Piece (Elt F) S2000x128 .f32)), y ∈ pc.1.set :=
  View.cover_of_tiled [⟨rect1_S2000x128, p0⟩] S2000x128.size (by rfl) y

set_option maxHeartbeats 4000000 in
/-- The body on whole staging buffers, the inputs' at contents `x·` and the output's at anything, ends with the inputs'
    as they were and the output's at `out1_6` of them. -/
theorem sound_kernel1 (c : Dev nD) (E : Set ℕ) (i : grid1.Coords) (arg0 : Memref sig .tc .vmem S2000x128 .f32) (harg0 : arg0.IsWhole) (arg1 : Memref sig .tc .vmem S2000x1 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S2000x128 .f32) (harg6 : arg6.IsWhole)
    (x0 : Vec F S2000x128 .f32) (x1 : Vec F S2000x1 .f32) (x2 : Vec F S2000x128 .f32) (x3 : Vec F S128x128 .f32) (x4 : Vec F S1x128 .f32) (x5 : Vec F S128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out1_6 x0 x1 x2 x3 x4 x5)) -∗ K ⟨⟩))
      ⊢ wp frame (wpE (defs₀ (F := F)) Variants.none c none) E (cc1__combine_kernel i arg0 harg0 arg1 harg1 arg2 harg2 arg3 harg3 arg4 harg4 arg5 harg5 arg6 harg6) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of region 1 on core `c`: the arrays as the region finds them; after the body at point `t` each input's
    buffer at its block and the output's at the payload of the blocks; nothing carried, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BFrameR2s.lean ====
/-
  The third pass of the program as a pipeline region: running column totals kept in two scratch rows across the grid. This file: what the three control cases share.
-/
import proofs.«160515_j66726611911291_1_alg».proof.Proof.Gen.Kernel.Launch
import proofs.«160515_j66726611911291_1_alg».proof.Proof.Gen.Kernel.Skeleton
import proofs.«160515_j66726611911291_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered from, one valuation per core
variable (V : (c : Dev nD) → (b : Ref sig .tc) → Buf (Elt F) ((c : Thread nD τ).loc b))

/-! # Region 2: column sums and column sums of squares, accumulated over row blocks

Fifty grid points in order. Two 1 × 128 scratch rows carry the running totals: the first point clears them, every point adds
its block's column sums (of the entries, and of their squares) to them, and the last point copies them into the two
1 × 128 outputs, whose windows are idle — neither stored into nor written back — at every other point. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The body's first branch (clear the totals) is taken when the grid coordinate is zero, -/
abbrev cond2_0 (i : grid2.Coords) : Prop := (Scalar.cmpi .ne (Scalar.extui (Scalar.cmpi .eq (BitVec.ofNat 32 (i 0).val) 0#32)) 0#32) = 1#1
/-- that is, at the first point only; -/
theorem hcond2_0 : ∀ t : Fin cfg2.N, cond2_0 (grid2.coords t) ↔ t.val = 0 :=
  (by decide +kernel : ∀ t : Fin grid2.N, cond2_0 (grid2.coords t) ↔ t.val = 0)
/-- its second branch (copy the totals out) when the coordinate is the last, -/
abbrev cond2_1 (i : grid2.Coords) : Prop := k2_cond2 i = 1#1
/-- that is, at point 49 only. -/
theorem hcond2_1 : ∀ t : Fin cfg2.N, cond2_1 (grid2.coords t) ↔ t.val = 49 :=
  (by decide +kernel : ∀ t : Fin grid2.N, cond2_1 (grid2.coords t) ↔ t.val = 49)

/-- The input window is never idle; the two outputs are idle, and not written back, exactly where the second branch is not taken. -/
theorem liveAt2_0 : ∀ t : Fin cfg2.N, cfg2.idle 0 (grid2.coords t) = false := by decide +kernel
theorem idleAt2_1 : ∀ t : Fin cfg2.N, ¬cond2_1 (grid2.coords t) → cfg2.idle 1 (grid2.coords t) = true := by decide +kernel
theorem idleAt2_2 : ∀ t : Fin cfg2.N, ¬cond2_1 (grid2.coords t) → cfg2.idle 2 (grid2.coords t) = true := by decide +kernel
theorem noFlush2_1 : ∀ t : Fin cfg2.N, ¬cond2_1 (grid2.coords t) → (cfg2.win 1).flush t = false := by decide +kernel
theorem noFlush2_2 : ∀ t : Fin cfg2.N, ¬cond2_1 (grid2.coords t) → (cfg2.win 2).flush t = false := by decide +kernel
theorem liveAt2_1 : ∀ t : Fin cfg2.N, cond2_1 (grid2.coords t) → cfg2.idle 1 (grid2.coords t) = false := by decide +kernel
theorem liveAt2_2 : ∀ t : Fin cfg2.N, cond2_1 (grid2.coords t) → cfg2.idle 2 (grid2.coords t) = false := by decide +kernel

/-- One staging buffer of each output window, and each scratch row, as views through which contents are stated. -/
abbrev VO2_1 : View sig .tc .vmem S1x128 .f32 := (Memref.whole cc2_stg1_0 : Memref sig .tc .vmem S1x128 .f32).view
abbrev VO2_2 : View sig .tc .vmem S1x128 .f32 := (Memref.whole cc2_stg2_0 : Memref sig .tc .vmem S1x128 .f32).view
abbrev ms2_0 (t : Fin cfg2.N) : Memref sig .tc .vmem S2000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev scM2_0 : Memref sig .tc .vmem S1x128 .f32 := Memref.whole cc2_scratch0
abbrev scM2_1 : Memref sig .tc .vmem S1x128 .f32 := Memref.whole cc2_scratch1
abbrev VS2_0 : View sig .tc .vmem S1x128 .f32 := scM2_0.view
abbrev VS2_1 : View sig .tc .vmem S1x128 .f32 := scM2_1.view

/-- The scoped buffers that are neither a staging buffer of this region nor one of its two scratch rows. -/
abbrev rest2 (c : Dev nD) : sProp 𝕄 :=
  Pipeline.scopedRestBut (Ix := Unit) (Name := ℕ) (U := UR sig nD τ) (Lvl := ℕ) (Val := Elt F) spec2 c [cc2_scratch0, cc2_scratch1]

/-- The region's entry invariant with the two scratch rows opened: each owned at some contents, beside the rest and the
    generator register. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c) ∗ (∃ r, prngReg c r)) := by
  unfold Pipeline.ΦA; rw [scopedRest2_split]; simp only [scM2_0, scM2_1, owns_whole]; try rfl

end Cert.Kernel.Hand

end
-- ==== Proof.BFrameR2A.lean ====
/-
  The third pass of the program as a pipeline region: running column totals kept in two scratch rows across the grid. This file: the body's run at the first point.
-/
import proofs.«160515_j66726611911291_1_alg».proof.Proof.Gen.Kernel.Launch
import proofs.«160515_j66726611911291_1_alg».proof.Proof.Gen.Kernel.Skeleton
import proofs.«160515_j66726611911291_1_alg».proof.Proof.Gen.Kernel.Points
import proofs.«160515_j66726611911291_1_alg».proof.Proof.BFrameR2s
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered from, one valuation per core
variable (V : (c : Dev nD) → (b : Ref sig .tc) → Buf (Elt F) ((c : Thread nD τ).loc b))

set_option maxHeartbeats 4000000 in
/-- THE FIRST POINT. On whole buffers — the input's at its block, the two outputs' at contents handed back untouched, the two
    scratch rows at anything — the body runs to the continuation holding the input and the outputs as they were and each
    scratch row with the pieces its stores wrote: the clearing store, then the accumulating one. -/
noncomputable def kernelRun2_A (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond2_0 i) (hc1 : ¬cond2_1 i)
    (x0 : Vec F S2000x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc2__stats_kernel i arg1 harg1 arg2 harg2 arg3 harg3 arg4 harg4 arg5 harg5) K } := by
  refine ⟨?_, ?_, fun xi1 xi2 E K => ?run⟩
  case run =>
    simp only [cc2__stats_kernel_eq_skeleton]; unfold cc2__stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.Kernel.Hand

end
-- ==== Proof.BFrameR2B.lean ====
/-
  The third pass of the program as a pipeline region: running column totals kept in two scratch rows across the grid. This file: the body's run at a middle point.
-/
import proofs.«160515_j66726611911291_1_alg».proof.Proof.Gen.Kernel.Launch
import proofs.«160515_j66726611911291_1_alg».proof.Proof.Gen.Kernel.Skeleton
import proofs.«160515_j66726611911291_1_alg».proof.Proof.Gen.Kernel.Points
import proofs.«160515_j66726611911291_1_alg».proof.Proof.BFrameR2A
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered from, one valuation per core
variable (V : (c : Dev nD) → (b : Ref sig .tc) → Buf (Elt F) ((c : Thread nD τ).loc b))

set_option maxHeartbeats 4000000 in
/-- A MIDDLE POINT. As at the first point, but the scratch rows enter at the totals `xs0`, `xs1` the point before left and
    receive the accumulating store only. -/
noncomputable def kernelRun2_B (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : ¬cond2_1 i)
    (x0 : Vec F S2000x128 .f32) (xs0 xs1 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc2__stats_kernel i arg1 harg1 arg2 harg2 arg3 harg3 arg4 harg4 arg5 harg5) K } := by
  refine ⟨?_, ?_, fun xi1 xi2 E K => ?run⟩
  case run =>
    simp only [cc2__stats_kernel_eq_skeleton]; unfold cc2__stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.Kernel.Hand

end
-- ==== Proof.BFrameR2C.lean ====
/-
  The third pass of the program as a pipeline region: running column totals kept in two scratch rows across the grid. This file: the body's run at the last point.
-/
import proofs.«160515_j66726611911291_1_alg».proof.Proof.Gen.Kernel.Launch
import proofs.«160515_j66726611911291_1_alg».proof.Proof.Gen.Kernel.Skeleton
import proofs.«160515_j66726611911291_1_alg».proof.Proof.Gen.Kernel.Points
import proofs.«160515_j66726611911291_1_alg».proof.Proof.BFrameR2B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered from, one valuation per core
variable (V : (c : Dev nD) → (b : Ref sig .tc) → Buf (Elt F) ((c : Thread nD τ).loc b))

set_option maxHeartbeats 4000000 in
/-- THE LAST POINT. The scratch rows enter at the totals the point before left, receive the accumulating store, and are then
    copied into the two outputs, which enter at anything and leave with the pieces `L1`, `L2` of those copies. -/
noncomputable def kernelRun2_C (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i)
    (x0 : Vec F S2000x128 .f32) (xs0 xs1 : Vec F S1x128 .f32) :
    Σ' (L1 : List (View.Piece (Elt F) S1x128 .f32)) (L2 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc2__stats_kernel i arg1 harg1 arg2 harg2 arg3 harg3 arg4 harg4 arg5 harg5) K } := by
  refine ⟨?_, ?_, ?_, ?_, fun E K => ?run⟩
  case run =>
    simp only [cc2__stats_kernel_eq_skeleton]; unfold cc2__stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.Kernel.Hand

end
-- ==== Proof.BFrameR2.lean ====
/-
  The third pass of the program as a pipeline region: running column totals kept in two scratch rows across the grid. This file: the accumulation, the invariant, the proof data and the body obligation.
-/
import proofs.«160515_j66726611911291_1_alg».proof.Proof.Gen.Kernel.Launch
import proofs.«160515_j66726611911291_1_alg».proof.Proof.Gen.Kernel.Skeleton
import proofs.«160515_j66726611911291_1_alg».proof.Proof.Gen.Kernel.Points
import proofs.«160515_j66726611911291_1_alg».proof.Proof.BFrameR2C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered from, one valuation per core
variable (V : (c : Dev nD) → (b : Ref sig .tc) → Buf (Elt F) ((c : Thread nD τ).loc b))

/-! ## What each case leaves in the scratch rows and the outputs: its pieces cover the row, and are read back -/

/-- The first point's pieces for the first scratch row (cleared, then the block's column sums added) cover it; read back, they are what the row holds after the point. -/
theorem scover2_A_0 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond2_0 i) (hc1 : ¬cond2_1 i)
    (x0 : Vec F S2000x128 .f32) (y : S1x128.Idx) :
    ∃ pc ∈ (kernelRun2_A c i arg1 harg1 arg2 harg2 arg3 harg3 arg4 harg4 arg5 harg5 hc0 hc1 x0).1, y ∈ pc.1.set :=
  View.cover_of_tiledL (kernelRun2_A c i arg1 harg1 arg2 harg2 arg3 harg3 arg4 harg4 arg5 harg5 hc0 hc1 x0).1 S1x128.size (by sl_kernel_rfl) y
def sout2_A_0 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond2_0 i) (hc1 : ¬cond2_1 i)
    (x0 : Vec F S2000x128 .f32) : Vec F S1x128 .f32 :=
  VS2_0.read (Elt F) (VS2_0.writes (Elt F) VS2_0.junk (kernelRun2_A c i arg1 harg1 arg2 harg2 arg3 harg3 arg4 harg4 arg5 harg5 hc0 hc1 x0).1)

/-- The same for the second scratch row (the column sums of squares). -/
theorem scover2_A_1 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond2_0 i) (hc1 : ¬cond2_1 i)
    (x0 : Vec F S2000x128 .f32) (y : S1x128.Idx) :
    ∃ pc ∈ (kernelRun2_A c i arg1 harg1 arg2 harg2 arg3 harg3 arg4 harg4 arg5 harg5 hc0 hc1 x0).2.1, y ∈ pc.1.set :=
  View.cover_of_tiledL (kernelRun2_A c i arg1 harg1 arg2 harg2 arg3 harg3 arg4 harg4 arg5 harg5 hc0 hc1 x0).2.1 S1x128.size (by sl_kernel_rfl) y
def sout2_A_1 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond2_0 i) (hc1 : ¬cond2_1 i)
    (x0 : Vec F S2000x128 .f32) : Vec F S1x128 .f32 :=
  VS2_1.read (Elt F) (VS2_1.writes (Elt F) VS2_1.junk (kernelRun2_A c i arg1 harg1 arg2 harg2 arg3 harg3 arg4 harg4 arg5 harg5 hc0 hc1 x0).2.1)

/-- A middle point's piece for the first scratch row (the running total plus the block's column sums). -/
theorem scover2_B_0 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : ¬cond2_1 i)
    (x0 : Vec F S2000x128 .f32) (xs0 xs1 : Vec F S1x128 .f32) (y : S1x128.Idx) :
    ∃ pc ∈ (kernelRun2_B c i arg1 harg1 arg2 harg2 arg3 harg3 arg4 harg4 arg5 harg5 hc0 hc1 x0 xs0 xs1).1, y ∈ pc.1.set :=
  View.cover_of_tiledL (kernelRun2_B c i arg1 harg1 arg2 harg2 arg3 harg3 arg4 harg4 arg5 harg5 hc0 hc1 x0 xs0 xs1).1 S1x128.size (by sl_kernel_rfl) y
def sout2_B_0 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : ¬cond2_1 i)
    (x0 : Vec F S2000x128 .f32) (xs0 xs1 : Vec F S1x128 .f32) : Vec F S1x128 .f32 :=
  VS2_0.read (Elt F) (VS2_0.writes (Elt F) VS2_0.junk (kernelRun2_B c i arg1 harg1 arg2 harg2 arg3 harg3 arg4 harg4 arg5 harg5 hc0 hc1 x0 xs0 xs1).1)

/-- A middle point's piece for the second scratch row. -/
theorem scover2_B_1 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : ¬cond2_1 i)
    (x0 : Vec F S2000x128 .f32) (xs0 xs1 : Vec F S1x128 .f32) (y : S1x128.Idx) :
    ∃ pc ∈ (kernelRun2_B c i arg1 harg1 arg2 harg2 arg3 harg3 arg4 harg4 arg5 harg5 hc0 hc1 x0 xs0 xs1).2.1, y ∈ pc.1.set :=
  View.cover_of_tiledL (kernelRun2_B c i arg1 harg1 arg2 harg2 arg3 harg3 arg4 harg4 arg5 harg5 hc0 hc1 x0 xs0 xs1).2.1 S1x128.size (by sl_kernel_rfl) y
def sout2_B_1 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : ¬cond2_1 i)
    (x0 : Vec F S2000x128 .f32) (xs0 xs1 : Vec F S1x128 .f32) : Vec F S1x128 .f32 :=
  VS2_1.read (Elt F) (VS2_1.writes (Elt F) VS2_1.junk (kernelRun2_B c i arg1 harg1 arg2 harg2 arg3 harg3 arg4 harg4 arg5 harg5 hc0 hc1 x0 xs0 xs1).2.1)

/-- The last point's piece for the first output: the copy of the first total. -/
theorem cover2_C_1 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i)
    (x0 : Vec F S2000x128 .f32) (xs0 xs1 : Vec F S1x128 .f32) (y : S1x128.Idx) :
    ∃ pc ∈ (kernelRun2_C c i arg1 harg1 arg2 harg2 arg3 harg3 arg4 harg4 arg5 harg5 hc0 hc1 x0 xs0 xs1).1, y ∈ pc.1.set :=
  View.cover_of_tiledL (kernelRun2_C c i arg1 harg1 arg2 harg2 arg3 harg3 arg4 harg4 arg5 harg5 hc0 hc1 x0 xs0 xs1).1 S1x128.size (by sl_kernel_rfl) y
def out2_C_1 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i)
    (x0 : Vec F S2000x128 .f32) (xs0 xs1 : Vec F S1x128 .f32) : Vec F S1x128 .f32 :=
  VO2_1.read (Elt F) (VO2_1.writes (Elt F) VO2_1.junk (kernelRun2_C c i arg1 harg1 arg2 harg2 arg3 harg3 arg4 harg4 arg5 harg5 hc0 hc1 x0 xs0 xs1).1)

/-- The last point's piece for the second output: the copy of the second total. -/
theorem cover2_C_2 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i)
    (x0 : Vec F S2000x128 .f32) (xs0 xs1 : Vec F S1x128 .f32) (y : S1x128.Idx) :
    ∃ pc ∈ (kernelRun2_C c i arg1 harg1 arg2 harg2 arg3 harg3 arg4 harg4 arg5 harg5 hc0 hc1 x0 xs0 xs1).2.1, y ∈ pc.1.set :=
  View.cover_of_tiledL (kernelRun2_C c i arg1 harg1 arg2 harg2 arg3 harg3 arg4 harg4 arg5 harg5 hc0 hc1 x0 xs0 xs1).2.1 S1x128.size (by sl_kernel_rfl) y
def out2_C_2 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i)
    (x0 : Vec F S2000x128 .f32) (xs0 xs1 : Vec F S1x128 .f32) : Vec F S1x128 .f32 :=
  VO2_2.read (Elt F) (VO2_2.writes (Elt F) VO2_2.junk (kernelRun2_C c i arg1 harg1 arg2 harg2 arg3 harg3 arg4 harg4 arg5 harg5 hc0 hc1 x0 xs0 xs1).2.1)

/-- The last point's piece for the first scratch row. -/
theorem scover2_C_0 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i)
    (x0 : Vec F S2000x128 .f32) (xs0 xs1 : Vec F S1x128 .f32) (y : S1x128.Idx) :
    ∃ pc ∈ (kernelRun2_C c i arg1 harg1 arg2 harg2 arg3 harg3 arg4 harg4 arg5 harg5 hc0 hc1 x0 xs0 xs1).2.2.1, y ∈ pc.1.set :=
  View.cover_of_tiledL (kernelRun2_C c i arg1 harg1 arg2 harg2 arg3 harg3 arg4 harg4 arg5 harg5 hc0 hc1 x0 xs0 xs1).2.2.1 S1x128.size (by sl_kernel_rfl) y
def sout2_C_0 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i)
    (x0 : Vec F S2000x128 .f32) (xs0 xs1 : Vec F S1x128 .f32) : Vec F S1x128 .f32 :=
  VS2_0.read (Elt F) (VS2_0.writes (Elt F) VS2_0.junk (kernelRun2_C c i arg1 harg1 arg2 harg2 arg3 harg3 arg4 harg4 arg5 harg5 hc0 hc1 x0 xs0 xs1).2.2.1)

/-- The last point's piece for the second scratch row. -/
theorem scover2_C_1 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i)
    (x0 : Vec F S2000x128 .f32) (xs0 xs1 : Vec F S1x128 .f32) (y : S1x128.Idx) :
    ∃ pc ∈ (kernelRun2_C c i arg1 harg1 arg2 harg2 arg3 harg3 arg4 harg4 arg5 harg5 hc0 hc1 x0 xs0 xs1).2.2.2.1, y ∈ pc.1.set :=
  View.cover_of_tiledL (kernelRun2_C c i arg1 harg1 arg2 harg2 arg3 harg3 arg4 harg4 arg5 harg5 hc0 hc1 x0 xs0 xs1).2.2.2.1 S1x128.size (by sl_kernel_rfl) y
def sout2_C_1 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i)
    (x0 : Vec F S2000x128 .f32) (xs0 xs1 : Vec F S1x128 .f32) : Vec F S1x128 .f32 :=
  VS2_1.read (Elt F) (VS2_1.writes (Elt F) VS2_1.junk (kernelRun2_C c i arg1 harg1 arg2 harg2 arg3 harg3 arg4 harg4 arg5 harg5 hc0 hc1 x0 xs0 xs1).2.2.2.1)

/-! ## The accumulation -/

/-- An idle output's named contents: a placeholder nothing consults (at such a point the window is neither written back nor
    read at the next point). -/
def idleOut2 : Vec F S1x128 .f32 := VO2_1.read (Elt F) VO2_1.junk

/-- What the two outputs' staging buffers and the two scratch rows hold after the body at position `n`: the first point's
    case at 0, the last point's at 49, a middle point's elsewhere, each over the totals the point before left. -/
def outsAt2 (c : Dev nD) : (n : ℕ) → n < cfg2.N → Vec F S1x128 .f32 × Vec F S1x128 .f32 × Vec F S1x128 .f32 × Vec F S1x128 .f32
  | 0, hn => (idleOut2, idleOut2,
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) scM2_1 (Memref.isWhole_whole _) ((hcond2_0 ⟨0, hn⟩).mpr rfl) (fun h => absurd ((hcond2_1 ⟨0, hn⟩).mp h) (by show ¬((0 : ℕ) = 49); omega)) (iblk2 V c 0 ⟨0, hn⟩),
      sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) scM2_1 (Memref.isWhole_whole _) ((hcond2_0 ⟨0, hn⟩).mpr rfl) (fun h => absurd ((hcond2_1 ⟨0, hn⟩).mp h) (by show ¬((0 : ℕ) = 49); omega)) (iblk2 V c 0 ⟨0, hn⟩))
  | n + 1, hn =>
    if h1 : n + 1 = 49 then
      (out2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (outsAt2 c n (Nat.lt_of_succ_lt hn)).2.2.1 (outsAt2 c n (Nat.lt_of_succ_lt hn)).2.2.2,
       out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (outsAt2 c n (Nat.lt_of_succ_lt hn)).2.2.1 (outsAt2 c n (Nat.lt_of_succ_lt hn)).2.2.2,
       sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (outsAt2 c n (Nat.lt_of_succ_lt hn)).2.2.1 (outsAt2 c n (Nat.lt_of_succ_lt hn)).2.2.2,
       sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (outsAt2 c n (Nat.lt_of_succ_lt hn)).2.2.1 (outsAt2 c n (Nat.lt_of_succ_lt hn)).2.2.2)
    else
      (idleOut2, idleOut2,
       sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (outsAt2 c n (Nat.lt_of_succ_lt hn)).2.2.1 (outsAt2 c n (Nat.lt_of_succ_lt hn)).2.2.2,
       sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (outsAt2 c n (Nat.lt_of_succ_lt hn)).2.2.1 (outsAt2 c n (Nat.lt_of_succ_lt hn)).2.2.2)

theorem outsAt2_A (c : Dev nD) (t : Fin cfg2.N) (h0 : t.val = 0) (h1 : ¬t.val = 49) :
    outsAt2 V c t.val t.isLt = (idleOut2, idleOut2,
      sout2_A_0 c (grid2.coords t) (ms2_0 t) (hs2_0 t) (ms2_1 t) (hs2_1 t) (ms2_2 t) (hs2_2 t) scM2_0 (Memref.isWhole_whole _) scM2_1 (Memref.isWhole_whole _) ((hcond2_0 t).mpr h0) (fun h => h1 ((hcond2_1 t).mp h)) (iblk2 V c 0 t),
      sout2_A_1 c (grid2.coords t) (ms2_0 t) (hs2_0 t) (ms2_1 t) (hs2_1 t) (ms2_2 t) (hs2_2 t) scM2_0 (Memref.isWhole_whole _) scM2_1 (Memref.isWhole_whole _) ((hcond2_0 t).mpr h0) (fun h => h1 ((hcond2_1 t).mp h)) (iblk2 V c 0 t)) := by
  obtain ⟨n, hn⟩ := t
  cases n with
  | zero => exact rfl
  | succ n => exact absurd h0 (Nat.succ_ne_zero n)

theorem outsAt2_B (c : Dev nD) (t : Fin cfg2.N) (h0 : ¬t.val = 0) (h1 : ¬t.val = 49) :
    outsAt2 V c t.val t.isLt = (idleOut2, idleOut2,
      sout2_B_0 c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) (fun h => h1 ((hcond2_1 t).mp h)) (iblk2 V c 0 t) (outsAt2 V c (t.val - 1) (Nat.lt_of_le_of_lt (Nat.sub_le _ _) t.isLt)).2.2.1 (outsAt2 V c (t.val - 1) (Nat.lt_of_le_of_lt (Nat.sub_le _ _) t.isLt)).2.2.2,
      sout2_B_1 c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) (fun h => h1 ((hcond2_1 t).mp h)) (iblk2 V c 0 t) (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact absurd rfl h0
  | succ n => exact (dif_neg h1).trans rfl

theorem outsAt2_C (c : Dev nD) (t : Fin cfg2.N) (h0 : ¬t.val = 0) (h1 : t.val = 49) :
    outsAt2 V c t.val t.isLt =
     (out2_C_1 c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) ((hcond2_1 t).mpr h1) (iblk2 V c 0 t) (outsAt2 V c (t.val - 1) (Nat.lt_of_le_of_lt (Nat.sub_le _ _) t.isLt)).2.2.1 (outsAt2 V c (t.val - 1) (Nat.lt_of_le_of_lt (Nat.sub_le _ _) t.isLt)).2.2.2,
      out2_C_2 c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) ((hcond2_1 t).mpr h1) (iblk2 V c 0 t) (outsAt2 V c (t.val - 1) (Nat.lt_of_le_of_lt (Nat.sub_le _ _) t.isLt)).2.2.1 (outsAt2 V c (t.val - 1) (Nat.lt_of_le_of_lt (Nat.sub_le _ _) t.isLt)).2.2.2,
      sout2_C_0 c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) ((hcond2_1 t).mpr h1) (iblk2 V c 0 t) (outsAt2 V c (t.val - 1) (Nat.lt_of_le_of_lt (Nat.sub_le _ _) t.isLt)).2.2.1 (outsAt2 V c (t.val - 1) (Nat.lt_of_le_of_lt (Nat.sub_le _ _) t.isLt)).2.2.2,
      sout2_C_1 c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) ((hcond2_1 t).mpr h1) (iblk2 V c 0 t) (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact absurd rfl h0
  | succ n => exact (dif_pos h1).trans rfl

/-! ## The invariant: the two totals in the scratch rows -/

/-- Before the first point the region's entry invariant (the scratch rows at anything); before every later point the two
    scratch rows at the totals the point before left, beside the other scoped buffers and the generator register. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.1) ∗ owns (c : Thread nD τ) scM2_1 fullShare ((outsAt2 V c n hn).2.2.2)) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.2.1) ∗ owns (c : Thread nD τ) scM2_1 fullShare ((outsAt2 V c n hn).2.2.2)) ∗ rest2 c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.1) ∗ owns (c : Thread nD τ) scM2_1 fullShare ((outsAt2 V c (n - 1) (by omega)).2.2.2)) ∗ rest2 c) ∗ (∃ r, prngReg c r)) := by
  cases n with
  | zero => exact absurd rfl hz
  | succ n => rfl

/-! ## The proof data -/

/-- The arrays as the region finds them; after the body at point `t` the input's buffer at its block and the outputs' at the
    accumulation's components; the invariant `PhiS2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => (outsAt2 V c t.val t.isLt).1
    | ⟨2, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = (outsAt2 V c t.val t.isLt).1 := by dsimp only [dat2]
theorem after2_2 (c : Dev nD) (t : Fin cfg2.N) : (dat2 V c).after 2 t = (outsAt2 V c t.val t.isLt).2.1 := by dsimp only [dat2]
theorem before2_0 (c : Dev nD) (t : Fin cfg2.N) (d) : (dat2 V c).before 0 t d = iblk2 V c 0 t :=
  before2_0_of V (dat2 V c) (A_eq2 V c 0) (after2_0 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 8000000 in
/-- The body at any point: the input's buffer holds its block; the point is the first, a middle or the last one; the invariant
    hands the body the scratch rows (at anything at the first point, at the running totals later) and takes them back at this
    point's totals; an idle output is handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).owesAt () t.succ = (dat2 V c).owesAt () t.castSucc from rfl]
  rw [show (dat2 V c).Φ t.succ = PhiS2 V c (t.val + 1) t.isLt from rfl, PhiS2_succ]
  have hN : t.val < 50 := lt_of_lt_of_eq t.isLt (show cfg2.N = 50 from N_2)
  by_cases h0 : t.val = 0
  · have h1 : ¬t.val = 49 := by omega
    rw [show (dat2 V c).leavesExact 0 t = owns (c : Thread nD τ) (ms2_0 t) fullShare ((dat2 V c).after 0 t) from by
        unfold Dat.leavesExact; rw [liveAt2_0 t], after2_0]
    rw [Dat.leavesExact_idle (dat2 V c) 1 t (idleAt2_1 t (fun h => h1 ((hcond2_1 t).mp h))) (noFlush2_1 t (fun h => h1 ((hcond2_1 t).mp h)))]
    rw [Dat.leavesExact_idle (dat2 V c) 2 t (idleAt2_2 t (fun h => h1 ((hcond2_1 t).mp h))) (noFlush2_2 t (fun h => h1 ((hcond2_1 t).mp h)))]
    rw [outsAt2_A V c t h0 h1]
    unfold sout2_A_0 sout2_A_1; (try dsimp only)
    rw [PhiS2_castSucc V c t, PhiS2_zero V c _ _ h0, PhiA2_eq]
    iintro ⟨⟨⟨⟨HS0, HS1⟩, HR⟩, Hg⟩, Ho, ⟨%d0, H0⟩, ⟨%d1, H1⟩, ⟨%d2, H2⟩⟩
    iapply ((kernelRun2_A c (grid2.coords t) _ _ _ _ _ _ _ _ _ _ ((hcond2_0 t).mpr h0) (fun h => h1 ((hcond2_1 t).mp h)) (iblk2 V c 0 t)).2.2 _ _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _)
          · unfold owns; iexists _; isplitr
            swap; · iexact HS1
            ipureintro; exact View.read_writes_of_cover _ _ _ _ _ (scover2_A_1 c _ _ _ _ _ _ _ _ _ _ _ _ _ _)
        iexact HR
      iexact Hg
    isplitl [Ho]; · iexact Ho
    isplitl [H0]; · iexact H0
    isplitl [H1]; · iexists _; iexact H1
    iexists _; iexact H2
  · by_cases h1 : t.val = 49
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t ((hcond2_1 t).mpr h1)], after2_1]
      rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold out2_C_1 out2_C_2 sout2_C_0 sout2_C_1; (try dsimp only)
      rw [PhiS2_castSucc V c t, PhiS2_pos V c _ _ h0]
      iintro ⟨⟨⟨⟨HS0, HS1⟩, HR⟩, Hg⟩, Ho, ⟨%d0, H0⟩, ⟨%d1, H1⟩, ⟨%d2, H2⟩⟩
      iapply ((kernelRun2_C c (grid2.coords t) _ _ _ _ _ _ _ _ _ _ (fun h => h0 ((hcond2_0 t).mp h)) ((hcond2_1 t).mpr h1) (iblk2 V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _)
            · unfold owns; iexists _; isplitr
              swap; · iexact HS1
              ipureintro; exact View.read_writes_of_cover _ _ _ _ _ (scover2_C_1 c _ _ _ _ _ _ _ _ _ _ _ _ _ _ _ _)
          iexact HR
        iexact Hg
      isplitl [Ho]; · iexact Ho
      isplitl [H0]; · iexact H0
      isplitl [H1]
      · unfold owns; iexists _; isplitr
        swap; · iexact H1
        ipureintro; exact View.read_writes_of_cover _ _ _ _ _ (cover2_C_1 c _ _ _ _ _ _ _ _ _ _ _ _ _ _ _ _)
      unfold owns; iexists _; isplitr
      swap; · iexact H2
      ipureintro; exact View.read_writes_of_cover _ _ _ _ _ (cover2_C_2 c _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [Dat.leavesExact_idle (dat2 V c) 1 t (idleAt2_1 t (fun h => h1 ((hcond2_1 t).mp h))) (noFlush2_1 t (fun h => h1 ((hcond2_1 t).mp h)))]
      rw [Dat.leavesExact_idle (dat2 V c) 2 t (idleAt2_2 t (fun h => h1 ((hcond2_1 t).mp h))) (noFlush2_2 t (fun h => h1 ((hcond2_1 t).mp h)))]
      rw [outsAt2_B V c t h0 h1]
      unfold sout2_B_0 sout2_B_1; (try dsimp only)
      rw [PhiS2_castSucc V c t, PhiS2_pos V c _ _ h0]
      iintro ⟨⟨⟨⟨HS0, HS1⟩, HR⟩, Hg⟩, Ho, ⟨%d0, H0⟩, ⟨%d1, H1⟩, ⟨%d2, H2⟩⟩
      iapply ((kernelRun2_B c (grid2.coords t) _ _ _ _ _ _ _ _ _ _ (fun h => h0 ((hcond2_0 t).mp h)) (fun h => h1 ((hcond2_1 t).mp h)) (iblk2 V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _)
            · unfold owns; iexists _; isplitr
              swap; · iexact HS1
              ipureintro; exact View.read_writes_of_cover _ _ _ _ _ (scover2_B_1 c _ _ _ _ _ _ _ _ _ _ _ _ _ _ _ _)
          iexact HR
        iexact Hg
      isplitl [Ho]; · iexact Ho
      isplitl [H0]; · iexact H0
      isplitl [H1]; · iexists _; iexact H1
      iexists _; iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

/-- The entry invariant is the invariant before the first point, -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- and after any later point the invariant gives it back, the totals' values forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

theorem hout2 (c : Dev nD) : (dat2 V c).Φ (Fin.last cfg2.N) ⊢ Pipeline.ΦA spec2 c :=
  Phi_out2 V c _ (by rw [Fin.val_last]; have : cfg2.N = 50 := N_2; omega)

end Cert.Kernel.Hand

end
-- ==== Proof.BFrameR3.lean ====
/-
  The four row-blocked passes of the program as pipeline regions: per region the blocks its windows read, what its body
  leaves in each output buffer, the body's triple and the data the pipeline rule takes. This file: the fourth pass.
-/
import proofs.«160515_j66726611911291_1_alg».proof.Proof.Gen.Kernel.Launch
import proofs.«160515_j66726611911291_1_alg».proof.Proof.Gen.Kernel.Skeleton
import proofs.«160515_j66726611911291_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered from, one valuation per core
variable (V : (c : Dev nD) → (b : Ref sig .tc) → Buf (Elt F) ((c : Thread nD τ).loc b))

/-! # Region 3: the normalisation, over row blocks

Point `t` reads rows `2000 t …` of the pre-normalisation array and the mean, variance, scale and shift rows whole, and writes
the same rows of the result: entry minus mean, times the inverse square root of variance plus epsilon, times scale, plus shift. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point (fetched there, or fetched earlier at an index that has
    not moved), for any proof data whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point (fetched there, or fetched earlier at an index that has
    not moved), for any proof data whose array is the entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point (fetched there, or fetched earlier at an index that has
    not moved), for any proof data whose array is the entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point (fetched there, or fetched earlier at an index that has
    not moved), for any proof data whose array is the entry contents and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point (fetched there, or fetched earlier at an index that has
    not moved), for any proof data whose array is the entry contents and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The rectangles the body reads and writes: each buffer whole. -/
abbrev rect3_S2000x128 : Rect S2000x128 := Rect.unit (s := S2000x128) ![0, 0] S2000x128.size inb_S2000x128_S2000x128_0_0
abbrev rect3_S1x128 : Rect S1x128 := Rect.unit (s := S1x128) ![0, 0] S1x128.size inb_S1x128_S1x128_0_0

/-- What the body leaves in the output window's buffer: its one store, of the payload of the blocks it loaded. -/
def out3_5 (x0 : Vec F S2000x128 .f32) (x1 : Vec F S1x128 .f32) (x2 : Vec F S1x128 .f32) (x3 : Vec F S1x128 .f32) (x4 : Vec F S1x128 .f32) : Vec F S2000x128 .f32 :=
  View.canon [⟨rect3_S2000x128, k3_pay1 (View.ld x2 rect3_S1x128) (View.ld x0 rect3_S2000x128) (View.ld x1 rect3_S1x128) (View.ld x3 rect3_S1x128) (View.ld x4 rect3_S1x128)⟩]

/-- That store covers the buffer. -/
theorem cover3_5 (p0 : Vec F S2000x128 .f32) (y : S2000x128.Idx) :
    ∃ pc ∈ ([⟨rect3_S2000x128, p0⟩] : List (View.Piece (Elt F) S2000x128 .f32)), y ∈ pc.1.set :=
  View.cover_of_tiled [⟨rect3_S2000x128, p0⟩] S2000x128.size (by rfl) y

set_option maxHeartbeats 4000000 in
/-- The body on whole staging buffers, the inputs' at contents `x·` and the output's at anything, ends with the inputs'
    as they were and the output's at `out3_5` of them. -/
theorem sound_kernel3 (c : Dev nD) (E : Set ℕ) (i : grid3.Coords) (arg0 : Memref sig .tc .vmem S2000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S2000x128 .f32) (harg5 : arg5.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out3_5 x0 x1 x2 x3 x4)) -∗ K ⟨⟩))
      ⊢ wp frame (wpE (defs₀ (F := F)) Variants.none c none) E (cc3__norm_kernel i arg0 harg0 arg1 harg1 arg2 harg2 arg3 harg3 arg4 harg4 arg5 harg5) K := by
  simp only [cc3__norm_kernel_eq_skeleton]; unfold cc3__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of region 3 on core `c`: the arrays as the region finds them; after the body at point `t` each input's
    buffer at its block and the output's at the payload of the blocks; nothing carried, nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.BFrameSegs.lean ====
/-
  The program's @main as the run of its segments: the buffer contents at every boundary, each pass as a region of the pipeline rule,
  and the run itself with every unscoped buffer named at the end.
-/
import proofs.«160515_j66726611911291_1_alg».proof.Proof.Gen.Kernel.Launch
import proofs.«160515_j66726611911291_1_alg».proof.Proof.Gen.Kernel.Skeleton
import proofs.«160515_j66726611911291_1_alg».proof.Proof.Gen.Kernel.Points
import proofs.«160515_j66726611911291_1_alg».proof.Proof.BFrameR0
import proofs.«160515_j66726611911291_1_alg».proof.Proof.BFrameR1
import proofs.«160515_j66726611911291_1_alg».proof.Proof.BFrameR2
import proofs.«160515_j66726611911291_1_alg».proof.Proof.BFrameR3
import proofs.«160515_j66726611911291_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: a region, a stretch of host operations, two regions, a stretch, a region

## The buffer contents at each boundary, a fold from the launch memory -/

/-- Core `c`'s buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its arrays at what the pipeline leaves (an input as entered, the output's write-backs folded), every
    other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first stretch of host operations (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- At region 1's exit: its arrays at what the pipeline leaves (an input as entered, the output's write-backs folded), every
    other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (an input as entered, the output's write-backs folded), every
    other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the second stretch of host operations (region 3's entry). -/
abbrev W5 : Dev nD → Valuation τ sig (Elt F) := fun c => StableHlo.after hostOps3 (W4 m ρ c)
abbrev V5 : (c : Dev nD) → (b : Ref sig .tc) → Buf (Elt F) ((c : Thread nD τ).loc b) := fun c b => W5 m ρ c b

/-- At region 3's exit: its arrays at what the pipeline leaves (an input as entered, the output's write-backs folded), every
    other buffer as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V3 m ρ) c
  | ⟨3, _⟩ => fun c => dat3 (V5 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 as a segment: entered from every unscoped buffer at `W0`, left at `W1`. Its windows' arrays are split out of
    the unscoped buffers and put back at what the write-backs leave; the generator register passes through the invariant;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at `W2`, left at `W3`. Its windows' arrays are split out of
    the unscoped buffers and put back at what the write-backs leave; the generator register passes through the invariant;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from every unscoped buffer at `W3`, left at `W4`. Its windows' arrays are split out of
    the unscoped buffers and put back at what the write-backs leave; the generator register passes through the invariant;
    nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = (dat2 (V3 m ρ) c).Φ (Fin.last cfg2.N) from rfl]
    have h := hout2 (V3 m ρ) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered from every unscoped buffer at `W5`, left at `W6`. Its windows' arrays are split out of
    the unscoped buffers and put back at what the write-backs leave; the generator register passes through the invariant;
    nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.BFrameRun.lean ====
/-
  The program's @main as the run of its segments: the launch rule over the six segments, every unscoped buffer named at the end,
  the argument arrays unchanged and the result array at what the last pass leaves.
-/
import proofs.«160515_j66726611911291_1_alg».proof.Proof.Gen.Kernel.Launch
import proofs.«160515_j66726611911291_1_alg».proof.Proof.Gen.Kernel.Skeleton
import proofs.«160515_j66726611911291_1_alg».proof.Proof.Gen.Kernel.Points
import proofs.«160515_j66726611911291_1_alg».proof.Proof.BFrameSegs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched: no host operation and no region writes one -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps3 _ hostOps3_writes (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps3 _ hostOps3_writes (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := W1_of_ne m ρ c main_arg1 (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps3 _ hostOps3_writes (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := W1_of_ne m ρ c main_arg2 (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps3 _ hostOps3_writes (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps3 _ hostOps3_writes (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := StableHlo.after_of_writes_sub hostOps1 _ hostOps1_writes (by decide)
    _ = W0 m ρ c (Proc.devRef .tc main_arg4) := W1_of_ne m ρ c main_arg4 (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps3 _ hostOps3_writes (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := StableHlo.after_of_writes_sub hostOps1 _ hostOps1_writes (by decide)
    _ = W0 m ρ c (Proc.devRef .tc main_arg5) := W1_of_ne m ρ c main_arg5 (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps3 _ hostOps3_writes (by decide)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := StableHlo.after_of_writes_sub hostOps1 _ hostOps1_writes (by decide)
    _ = W0 m ρ c (Proc.devRef .tc main_arg6) := W1_of_ne m ρ c main_arg6 (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps3 _ hostOps3_writes (by decide)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := StableHlo.after_of_writes_sub hostOps1 _ hostOps1_writes (by decide)
    _ = W0 m ρ c (Proc.devRef .tc main_arg7) := W1_of_ne m ρ c main_arg7 (by decide)
    _ = m ((c : Thread nD τ).loc main_arg7) := rfl

/-! ## @main as its segments, and the launch -/

/-- @main's six segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .region (reg2 m ρ),
    .host (hseg hostOps3 hostOps3_sub hostOps3_fresh (W4 m ρ)),
    .region (reg3 m ρ) ]

theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and the
    final memory holds every unscoped buffer at the last boundary's contents `W6`. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W6 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c b hb => h c _ (mem_uc b hb))

/-- THE FRAME, at any instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c main_arg0 (by decide)).trans (W6_main_arg0 m ρ c), (h c main_arg1 (by decide)).trans (W6_main_arg1 m ρ c),
     (h c main_arg2 (by decide)).trans (W6_main_arg2 m ρ c), (h c main_arg3 (by decide)).trans (W6_main_arg3 m ρ c),
     (h c main_arg4 (by decide)).trans (W6_main_arg4 m ρ c), (h c main_arg5 (by decide)).trans (W6_main_arg5 m ρ c),
     (h c main_arg6 (by decide)).trans (W6_main_arg6 m ρ c), (h c main_arg7 (by decide)).trans (W6_main_arg7 m ρ c)⟩) (run_all m ρ)

/-- The run with the result array named: what the last region's write-backs leave in it. -/
theorem run_result : θ_run defs (onTc (τ := τ) (main (F := F))) ⟨m, fun _ => 0, ρ⟩ (fun r => ∀ c : Dev nD,
      r.2.mem ((c.tc : Thread nD τ).loc main_v32) = (dat3 (V5 m ρ) c).arrAt 5 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c main_v32 (by decide)).trans (W6_arr m ρ c 5),
     (h c main_arg0 (by decide)).trans (W6_main_arg0 m ρ c), (h c main_arg1 (by decide)).trans (W6_main_arg1 m ρ c),
     (h c main_arg2 (by decide)).trans (W6_main_arg2 m ρ c), (h c main_arg3 (by decide)).trans (W6_main_arg3 m ρ c),
     (h c main_arg4 (by decide)).trans (W6_main_arg4 m ρ c), (h c main_arg5 (by decide)).trans (W6_main_arg5 m ρ c),
     (h c main_arg6 (by decide)).trans (W6_main_arg6 m ρ c), (h c main_arg7 (by decide)).trans (W6_main_arg7 m ρ c)⟩) (run_all m ρ)

end Cert.Kernel.Hand

end
-- ==== Proof.IFrameR0.lean ====
/-
  The four row-blocked passes of the program as pipeline regions: per region the blocks its windows read, what its body
  leaves in each output buffer, the body's triple and the data the pipeline rule takes. This file: the first pass.
-/
import proofs.«160515_j66726611911291_1_alg».proof.Proof.Gen.KernelIdeal.Launch
import proofs.«160515_j66726611911291_1_alg».proof.Proof.Gen.KernelIdeal.Skeleton
import proofs.«160515_j66726611911291_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered from, one valuation per core
variable (V : (c : Dev nD) → (b : Ref sig .tc) → Buf (Elt F) ((c : Thread nD τ).loc b))

/-! # Region 0: the rectified-linear pass over row blocks

Fifty grid points; point `t` reads rows `2000 t … 2000 t + 1999` of the input array and writes the same rows of the
output array with every entry replaced by its maximum with zero. Nothing is carried from one point to the next. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data whose array is the entry
    contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes: the whole 2000 × 128 block. -/
abbrev rect0 : Rect S2000x128 := Rect.unit (s := S2000x128) ![0, 0] S2000x128.size inb_S2000x128_S2000x128_0_0

/-- What the body leaves in the output window's buffer: its one store, of the rectified block. -/
def out0_1 (x0 : Vec F S2000x128 .f32) : Vec F S2000x128 .f32 :=
  View.canon [⟨rect0, k0_pay1 (View.ld x0 rect0)⟩]

/-- That store covers the buffer. -/
theorem cover0_1 (p0 : Vec F S2000x128 .f32) (y : S2000x128.Idx) :
    ∃ pc ∈ ([⟨rect0, p0⟩] : List (View.Piece (Elt F) S2000x128 .f32)), y ∈ pc.1.set :=
  View.cover_of_tiled [⟨rect0, p0⟩] S2000x128.size (by rfl) y

set_option maxHeartbeats 1000000 in
/-- The body on whole staging buffers, the input's at contents `x0` and the output's at anything, ends with the input's
    as it was and the output's at `out0_1 x0`. -/
theorem sound_kernel0 (c : Dev nD) (E : Set ℕ) (i : grid0.Coords) (arg0 : Memref sig .tc .vmem S2000x128 .f32) (harg0 : arg0.IsWhole) (arg1 : Memref sig .tc .vmem S2000x128 .f32) (harg1 : arg1.IsWhole)
    (x0 : Vec F S2000x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__relu_kernel i arg0 harg0 arg1 harg1) K := by
  simp only [cc0__relu_kernel_eq_skeleton]; unfold cc0__relu_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of region 0 on core `c`: the arrays as the region finds them; after the body at point `t` the input's
    buffer at its block and the output's at the rectified block; nothing carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IFrameR1.lean ====
/-
  The four row-blocked passes of the program as pipeline regions: per region the blocks its windows read, what its body
  leaves in each output buffer, the body's triple and the data the pipeline rule takes. This file: the second pass.
-/
import proofs.«160515_j66726611911291_1_alg».proof.Proof.Gen.KernelIdeal.Launch
import proofs.«160515_j66726611911291_1_alg».proof.Proof.Gen.KernelIdeal.Skeleton
import proofs.«160515_j66726611911291_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered from, one valuation per core
variable (V : (c : Dev nD) → (b : Ref sig .tc) → Buf (Elt F) ((c : Thread nD τ).loc b))

/-! # Region 1: mean aggregation and the two 128 × 128 products, over row blocks

Point `t` reads rows `2000 t …` of the summed messages, of the neighbour counts and of the rectified features, the two transposed
weight matrices and the bias row whole, and writes the same rows of the output: the messages divided by the count clamped
below at one, times the first matrix, plus the bias, plus the rectified features times the second matrix. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point (fetched there, or fetched earlier at an index that has
    not moved), for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point (fetched there, or fetched earlier at an index that has
    not moved), for any proof data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point (fetched there, or fetched earlier at an index that has
    not moved), for any proof data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point (fetched there, or fetched earlier at an index that has
    not moved), for any proof data whose array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point (fetched there, or fetched earlier at an index that has
    not moved), for any proof data whose array is the entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point (fetched there, or fetched earlier at an index that has
    not moved), for any proof data whose array is the entry contents and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes: each buffer whole. -/
abbrev rect1_S2000x128 : Rect S2000x128 := Rect.unit (s := S2000x128) ![0, 0] S2000x128.size inb_S2000x128_S2000x128_0_0
abbrev rect1_S2000x1 : Rect S2000x1 := Rect.unit (s := S2000x1) ![0, 0] S2000x1.size inb_S2000x1_S2000x1_0_0
abbrev rect1_S128x128 : Rect S128x128 := Rect.unit (s := S128x128) ![0, 0] S128x128.size inb_S128x128_S128x128_0_0
abbrev rect1_S1x128 : Rect S1x128 := Rect.unit (s := S1x128) ![0, 0] S1x128.size inb_S1x128_S1x128_0_0

/-- What the body leaves in the output window's buffer: its one store, of the payload of the blocks it loaded. -/
def out1_6 (x0 : Vec F S2000x128 .f32) (x1 : Vec F S2000x1 .f32) (x2 : Vec F S2000x128 .f32) (x3 : Vec F S128x128 .f32) (x4 : Vec F S1x128 .f32) (x5 : Vec F S128x128 .f32) : Vec F S2000x128 .f32 :=
  View.canon [⟨rect1_S2000x128, k1_pay1 (View.ld x0 rect1_S2000x128) (View.ld x1 rect1_S2000x1) (View.ld x2 rect1_S2000x128) (View.ld x3 rect1_S128x128) (View.ld x4 rect1_S1x128) (View.ld x5 rect1_S128x128)⟩]

/-- That store covers the buffer. -/
theorem cover1_6 (p0 : Vec F S2000x128 .f32) (y : S2000x128.Idx) :
    ∃ pc ∈ ([⟨rect1_S2000x128, p0⟩] : List (View.Piece (Elt F) S2000x128 .f32)), y ∈ pc.1.set :=
  View.cover_of_tiled [⟨rect1_S2000x128, p0⟩] S2000x128.size (by rfl) y

set_option maxHeartbeats 4000000 in
/-- The body on whole staging buffers, the inputs' at contents `x·` and the output's at anything, ends with the inputs'
    as they were and the output's at `out1_6` of them. -/
theorem sound_kernel1 (c : Dev nD) (E : Set ℕ) (i : grid1.Coords) (arg0 : Memref sig .tc .vmem S2000x128 .f32) (harg0 : arg0.IsWhole) (arg1 : Memref sig .tc .vmem S2000x1 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S2000x128 .f32) (harg6 : arg6.IsWhole)
    (x0 : Vec F S2000x128 .f32) (x1 : Vec F S2000x1 .f32) (x2 : Vec F S2000x128 .f32) (x3 : Vec F S128x128 .f32) (x4 : Vec F S1x128 .f32) (x5 : Vec F S128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out1_6 x0 x1 x2 x3 x4 x5)) -∗ K ⟨⟩))
      ⊢ wp frame (wpE (defs₀ (F := F)) Variants.none c none) E (cc1__combine_kernel i arg0 harg0 arg1 harg1 arg2 harg2 arg3 harg3 arg4 harg4 arg5 harg5 arg6 harg6) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of region 1 on core `c`: the arrays as the region finds them; after the body at point `t` each input's
    buffer at its block and the output's at the payload of the blocks; nothing carried, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IFrameR2s.lean ====
/-
  The third pass of the program as a pipeline region: running column totals kept in two scratch rows across the grid. This file: what the three control cases share.
-/
import proofs.«160515_j66726611911291_1_alg».proof.Proof.Gen.KernelIdeal.Launch
import proofs.«160515_j66726611911291_1_alg».proof.Proof.Gen.KernelIdeal.Skeleton
import proofs.«160515_j66726611911291_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered from, one valuation per core
variable (V : (c : Dev nD) → (b : Ref sig .tc) → Buf (Elt F) ((c : Thread nD τ).loc b))

/-! # Region 2: column sums and column sums of squares, accumulated over row blocks

Fifty grid points in order. Two 1 × 128 scratch rows carry the running totals: the first point clears them, every point adds
its block's column sums (of the entries, and of their squares) to them, and the last point copies them into the two
1 × 128 outputs, whose windows are idle — neither stored into nor written back — at every other point. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The body's first branch (clear the totals) is taken when the grid coordinate is zero, -/
abbrev cond2_0 (i : grid2.Coords) : Prop := (Scalar.cmpi .ne (Scalar.extui (Scalar.cmpi .eq (BitVec.ofNat 32 (i 0).val) 0#32)) 0#32) = 1#1
/-- that is, at the first point only; -/
theorem hcond2_0 : ∀ t : Fin cfg2.N, cond2_0 (grid2.coords t) ↔ t.val = 0 :=
  (by decide +kernel : ∀ t : Fin grid2.N, cond2_0 (grid2.coords t) ↔ t.val = 0)
/-- its second branch (copy the totals out) when the coordinate is the last, -/
abbrev cond2_1 (i : grid2.Coords) : Prop := k2_cond2 i = 1#1
/-- that is, at point 49 only. -/
theorem hcond2_1 : ∀ t : Fin cfg2.N, cond2_1 (grid2.coords t) ↔ t.val = 49 :=
  (by decide +kernel : ∀ t : Fin grid2.N, cond2_1 (grid2.coords t) ↔ t.val = 49)

/-- The input window is never idle; the two outputs are idle, and not written back, exactly where the second branch is not taken. -/
theorem liveAt2_0 : ∀ t : Fin cfg2.N, cfg2.idle 0 (grid2.coords t) = false := by decide +kernel
theorem idleAt2_1 : ∀ t : Fin cfg2.N, ¬cond2_1 (grid2.coords t) → cfg2.idle 1 (grid2.coords t) = true := by decide +kernel
theorem idleAt2_2 : ∀ t : Fin cfg2.N, ¬cond2_1 (grid2.coords t) → cfg2.idle 2 (grid2.coords t) = true := by decide +kernel
theorem noFlush2_1 : ∀ t : Fin cfg2.N, ¬cond2_1 (grid2.coords t) → (cfg2.win 1).flush t = false := by decide +kernel
theorem noFlush2_2 : ∀ t : Fin cfg2.N, ¬cond2_1 (grid2.coords t) → (cfg2.win 2).flush t = false := by decide +kernel
theorem liveAt2_1 : ∀ t : Fin cfg2.N, cond2_1 (grid2.coords t) → cfg2.idle 1 (grid2.coords t) = false := by decide +kernel
theorem liveAt2_2 : ∀ t : Fin cfg2.N, cond2_1 (grid2.coords t) → cfg2.idle 2 (grid2.coords t) = false := by decide +kernel

/-- One staging buffer of each output window, and each scratch row, as views through which contents are stated. -/
abbrev VO2_1 : View sig .tc .vmem S1x128 .f32 := (Memref.whole cc2_stg1_0 : Memref sig .tc .vmem S1x128 .f32).view
abbrev VO2_2 : View sig .tc .vmem S1x128 .f32 := (Memref.whole cc2_stg2_0 : Memref sig .tc .vmem S1x128 .f32).view
abbrev ms2_0 (t : Fin cfg2.N) : Memref sig .tc .vmem S2000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev scM2_0 : Memref sig .tc .vmem S1x128 .f32 := Memref.whole cc2_scratch0
abbrev scM2_1 : Memref sig .tc .vmem S1x128 .f32 := Memref.whole cc2_scratch1
abbrev VS2_0 : View sig .tc .vmem S1x128 .f32 := scM2_0.view
abbrev VS2_1 : View sig .tc .vmem S1x128 .f32 := scM2_1.view

/-- The scoped buffers that are neither a staging buffer of this region nor one of its two scratch rows. -/
abbrev rest2 (c : Dev nD) : sProp 𝕄 :=
  Pipeline.scopedRestBut (Ix := Unit) (Name := ℕ) (U := UR sig nD τ) (Lvl := ℕ) (Val := Elt F) spec2 c [cc2_scratch0, cc2_scratch1]

/-- The region's entry invariant with the two scratch rows opened: each owned at some contents, beside the rest and the
    generator register. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c) ∗ (∃ r, prngReg c r)) := by
  unfold Pipeline.ΦA; rw [scopedRest2_split]; simp only [scM2_0, scM2_1, owns_whole]; try rfl

end Cert.KernelIdeal.Hand

end
-- ==== Proof.IFrameR2A.lean ====
/-
  The third pass of the program as a pipeline region: running column totals kept in two scratch rows across the grid. This file: the body's run at the first point.
-/
import proofs.«160515_j66726611911291_1_alg».proof.Proof.Gen.KernelIdeal.Launch
import proofs.«160515_j66726611911291_1_alg».proof.Proof.Gen.KernelIdeal.Skeleton
import proofs.«160515_j66726611911291_1_alg».proof.Proof.Gen.KernelIdeal.Points
import proofs.«160515_j66726611911291_1_alg».proof.Proof.IFrameR2s
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered from, one valuation per core
variable (V : (c : Dev nD) → (b : Ref sig .tc) → Buf (Elt F) ((c : Thread nD τ).loc b))

set_option maxHeartbeats 4000000 in
/-- THE FIRST POINT. On whole buffers — the input's at its block, the two outputs' at contents handed back untouched, the two
    scratch rows at anything — the body runs to the continuation holding the input and the outputs as they were and each
    scratch row with the pieces its stores wrote: the clearing store, then the accumulating one. -/
noncomputable def kernelRun2_A (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond2_0 i) (hc1 : ¬cond2_1 i)
    (x0 : Vec F S2000x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc2__stats_kernel i arg1 harg1 arg2 harg2 arg3 harg3 arg4 harg4 arg5 harg5) K } := by
  refine ⟨?_, ?_, fun xi1 xi2 E K => ?run⟩
  case run =>
    simp only [cc2__stats_kernel_eq_skeleton]; unfold cc2__stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.KernelIdeal.Hand

end
-- ==== Proof.IFrameR2B.lean ====
/-
  The third pass of the program as a pipeline region: running column totals kept in two scratch rows across the grid. This file: the body's run at a middle point.
-/
import proofs.«160515_j66726611911291_1_alg».proof.Proof.Gen.KernelIdeal.Launch
import proofs.«160515_j66726611911291_1_alg».proof.Proof.Gen.KernelIdeal.Skeleton
import proofs.«160515_j66726611911291_1_alg».proof.Proof.Gen.KernelIdeal.Points
import proofs.«160515_j66726611911291_1_alg».proof.Proof.IFrameR2A
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered from, one valuation per core
variable (V : (c : Dev nD) → (b : Ref sig .tc) → Buf (Elt F) ((c : Thread nD τ).loc b))

set_option maxHeartbeats 4000000 in
/-- A MIDDLE POINT. As at the first point, but the scratch rows enter at the totals `xs0`, `xs1` the point before left and
    receive the accumulating store only. -/
noncomputable def kernelRun2_B (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : ¬cond2_1 i)
    (x0 : Vec F S2000x128 .f32) (xs0 xs1 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc2__stats_kernel i arg1 harg1 arg2 harg2 arg3 harg3 arg4 harg4 arg5 harg5) K } := by
  refine ⟨?_, ?_, fun xi1 xi2 E K => ?run⟩
  case run =>
    simp only [cc2__stats_kernel_eq_skeleton]; unfold cc2__stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.KernelIdeal.Hand

end
-- ==== Proof.IFrameR2C.lean ====
/-
  The third pass of the program as a pipeline region: running column totals kept in two scratch rows across the grid. This file: the body's run at the last point.
-/
import proofs.«160515_j66726611911291_1_alg».proof.Proof.Gen.KernelIdeal.Launch
import proofs.«160515_j66726611911291_1_alg».proof.Proof.Gen.KernelIdeal.Skeleton
import proofs.«160515_j66726611911291_1_alg».proof.Proof.Gen.KernelIdeal.Points
import proofs.«160515_j66726611911291_1_alg».proof.Proof.IFrameR2B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered from, one valuation per core
variable (V : (c : Dev nD) → (b : Ref sig .tc) → Buf (Elt F) ((c : Thread nD τ).loc b))

set_option maxHeartbeats 4000000 in
/-- THE LAST POINT. The scratch rows enter at the totals the point before left, receive the accumulating store, and are then
    copied into the two outputs, which enter at anything and leave with the pieces `L1`, `L2` of those copies. -/
noncomputable def kernelRun2_C (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i)
    (x0 : Vec F S2000x128 .f32) (xs0 xs1 : Vec F S1x128 .f32) :
    Σ' (L1 : List (View.Piece (Elt F) S1x128 .f32)) (L2 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc2__stats_kernel i arg1 harg1 arg2 harg2 arg3 harg3 arg4 harg4 arg5 harg5) K } := by
  refine ⟨?_, ?_, ?_, ?_, fun E K => ?run⟩
  case run =>
    simp only [cc2__stats_kernel_eq_skeleton]; unfold cc2__stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.KernelIdeal.Hand

end
-- ==== Proof.IFrameR2.lean ====
/-
  The third pass of the program as a pipeline region: running column totals kept in two scratch rows across the grid. This file: the accumulation, the invariant, the proof data and the body obligation.
-/
import proofs.«160515_j66726611911291_1_alg».proof.Proof.Gen.KernelIdeal.Launch
import proofs.«160515_j66726611911291_1_alg».proof.Proof.Gen.KernelIdeal.Skeleton
import proofs.«160515_j66726611911291_1_alg».proof.Proof.Gen.KernelIdeal.Points
import proofs.«160515_j66726611911291_1_alg».proof.Proof.IFrameR2C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered from, one valuation per core
variable (V : (c : Dev nD) → (b : Ref sig .tc) → Buf (Elt F) ((c : Thread nD τ).loc b))

/-! ## What each case leaves in the scratch rows and the outputs: its pieces cover the row, and are read back -/

/-- The first point's pieces for the first scratch row (cleared, then the block's column sums added) cover it; read back, they are what the row holds after the point. -/
theorem scover2_A_0 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond2_0 i) (hc1 : ¬cond2_1 i)
    (x0 : Vec F S2000x128 .f32) (y : S1x128.Idx) :
    ∃ pc ∈ (kernelRun2_A c i arg1 harg1 arg2 harg2 arg3 harg3 arg4 harg4 arg5 harg5 hc0 hc1 x0).1, y ∈ pc.1.set :=
  View.cover_of_tiledL (kernelRun2_A c i arg1 harg1 arg2 harg2 arg3 harg3 arg4 harg4 arg5 harg5 hc0 hc1 x0).1 S1x128.size (by sl_kernel_rfl) y
def sout2_A_0 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond2_0 i) (hc1 : ¬cond2_1 i)
    (x0 : Vec F S2000x128 .f32) : Vec F S1x128 .f32 :=
  VS2_0.read (Elt F) (VS2_0.writes (Elt F) VS2_0.junk (kernelRun2_A c i arg1 harg1 arg2 harg2 arg3 harg3 arg4 harg4 arg5 harg5 hc0 hc1 x0).1)

/-- The same for the second scratch row (the column sums of squares). -/
theorem scover2_A_1 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond2_0 i) (hc1 : ¬cond2_1 i)
    (x0 : Vec F S2000x128 .f32) (y : S1x128.Idx) :
    ∃ pc ∈ (kernelRun2_A c i arg1 harg1 arg2 harg2 arg3 harg3 arg4 harg4 arg5 harg5 hc0 hc1 x0).2.1, y ∈ pc.1.set :=
  View.cover_of_tiledL (kernelRun2_A c i arg1 harg1 arg2 harg2 arg3 harg3 arg4 harg4 arg5 harg5 hc0 hc1 x0).2.1 S1x128.size (by sl_kernel_rfl) y
def sout2_A_1 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond2_0 i) (hc1 : ¬cond2_1 i)
    (x0 : Vec F S2000x128 .f32) : Vec F S1x128 .f32 :=
  VS2_1.read (Elt F) (VS2_1.writes (Elt F) VS2_1.junk (kernelRun2_A c i arg1 harg1 arg2 harg2 arg3 harg3 arg4 harg4 arg5 harg5 hc0 hc1 x0).2.1)

/-- A middle point's piece for the first scratch row (the running total plus the block's column sums). -/
theorem scover2_B_0 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : ¬cond2_1 i)
    (x0 : Vec F S2000x128 .f32) (xs0 xs1 : Vec F S1x128 .f32) (y : S1x128.Idx) :
    ∃ pc ∈ (kernelRun2_B c i arg1 harg1 arg2 harg2 arg3 harg3 arg4 harg4 arg5 harg5 hc0 hc1 x0 xs0 xs1).1, y ∈ pc.1.set :=
  View.cover_of_tiledL (kernelRun2_B c i arg1 harg1 arg2 harg2 arg3 harg3 arg4 harg4 arg5 harg5 hc0 hc1 x0 xs0 xs1).1 S1x128.size (by sl_kernel_rfl) y
def sout2_B_0 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : ¬cond2_1 i)
    (x0 : Vec F S2000x128 .f32) (xs0 xs1 : Vec F S1x128 .f32) : Vec F S1x128 .f32 :=
  VS2_0.read (Elt F) (VS2_0.writes (Elt F) VS2_0.junk (kernelRun2_B c i arg1 harg1 arg2 harg2 arg3 harg3 arg4 harg4 arg5 harg5 hc0 hc1 x0 xs0 xs1).1)

/-- A middle point's piece for the second scratch row. -/
theorem scover2_B_1 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : ¬cond2_1 i)
    (x0 : Vec F S2000x128 .f32) (xs0 xs1 : Vec F S1x128 .f32) (y : S1x128.Idx) :
    ∃ pc ∈ (kernelRun2_B c i arg1 harg1 arg2 harg2 arg3 harg3 arg4 harg4 arg5 harg5 hc0 hc1 x0 xs0 xs1).2.1, y ∈ pc.1.set :=
  View.cover_of_tiledL (kernelRun2_B c i arg1 harg1 arg2 harg2 arg3 harg3 arg4 harg4 arg5 harg5 hc0 hc1 x0 xs0 xs1).2.1 S1x128.size (by sl_kernel_rfl) y
def sout2_B_1 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : ¬cond2_1 i)
    (x0 : Vec F S2000x128 .f32) (xs0 xs1 : Vec F S1x128 .f32) : Vec F S1x128 .f32 :=
  VS2_1.read (Elt F) (VS2_1.writes (Elt F) VS2_1.junk (kernelRun2_B c i arg1 harg1 arg2 harg2 arg3 harg3 arg4 harg4 arg5 harg5 hc0 hc1 x0 xs0 xs1).2.1)

/-- The last point's piece for the first output: the copy of the first total. -/
theorem cover2_C_1 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i)
    (x0 : Vec F S2000x128 .f32) (xs0 xs1 : Vec F S1x128 .f32) (y : S1x128.Idx) :
    ∃ pc ∈ (kernelRun2_C c i arg1 harg1 arg2 harg2 arg3 harg3 arg4 harg4 arg5 harg5 hc0 hc1 x0 xs0 xs1).1, y ∈ pc.1.set :=
  View.cover_of_tiledL (kernelRun2_C c i arg1 harg1 arg2 harg2 arg3 harg3 arg4 harg4 arg5 harg5 hc0 hc1 x0 xs0 xs1).1 S1x128.size (by sl_kernel_rfl) y
def out2_C_1 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i)
    (x0 : Vec F S2000x128 .f32) (xs0 xs1 : Vec F S1x128 .f32) : Vec F S1x128 .f32 :=
  VO2_1.read (Elt F) (VO2_1.writes (Elt F) VO2_1.junk (kernelRun2_C c i arg1 harg1 arg2 harg2 arg3 harg3 arg4 harg4 arg5 harg5 hc0 hc1 x0 xs0 xs1).1)

/-- The last point's piece for the second output: the copy of the second total. -/
theorem cover2_C_2 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i)
    (x0 : Vec F S2000x128 .f32) (xs0 xs1 : Vec F S1x128 .f32) (y : S1x128.Idx) :
    ∃ pc ∈ (kernelRun2_C c i arg1 harg1 arg2 harg2 arg3 harg3 arg4 harg4 arg5 harg5 hc0 hc1 x0 xs0 xs1).2.1, y ∈ pc.1.set :=
  View.cover_of_tiledL (kernelRun2_C c i arg1 harg1 arg2 harg2 arg3 harg3 arg4 harg4 arg5 harg5 hc0 hc1 x0 xs0 xs1).2.1 S1x128.size (by sl_kernel_rfl) y
def out2_C_2 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i)
    (x0 : Vec F S2000x128 .f32) (xs0 xs1 : Vec F S1x128 .f32) : Vec F S1x128 .f32 :=
  VO2_2.read (Elt F) (VO2_2.writes (Elt F) VO2_2.junk (kernelRun2_C c i arg1 harg1 arg2 harg2 arg3 harg3 arg4 harg4 arg5 harg5 hc0 hc1 x0 xs0 xs1).2.1)

/-- The last point's piece for the first scratch row. -/
theorem scover2_C_0 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i)
    (x0 : Vec F S2000x128 .f32) (xs0 xs1 : Vec F S1x128 .f32) (y : S1x128.Idx) :
    ∃ pc ∈ (kernelRun2_C c i arg1 harg1 arg2 harg2 arg3 harg3 arg4 harg4 arg5 harg5 hc0 hc1 x0 xs0 xs1).2.2.1, y ∈ pc.1.set :=
  View.cover_of_tiledL (kernelRun2_C c i arg1 harg1 arg2 harg2 arg3 harg3 arg4 harg4 arg5 harg5 hc0 hc1 x0 xs0 xs1).2.2.1 S1x128.size (by sl_kernel_rfl) y
def sout2_C_0 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i)
    (x0 : Vec F S2000x128 .f32) (xs0 xs1 : Vec F S1x128 .f32) : Vec F S1x128 .f32 :=
  VS2_0.read (Elt F) (VS2_0.writes (Elt F) VS2_0.junk (kernelRun2_C c i arg1 harg1 arg2 harg2 arg3 harg3 arg4 harg4 arg5 harg5 hc0 hc1 x0 xs0 xs1).2.2.1)

/-- The last point's piece for the second scratch row. -/
theorem scover2_C_1 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i)
    (x0 : Vec F S2000x128 .f32) (xs0 xs1 : Vec F S1x128 .f32) (y : S1x128.Idx) :
    ∃ pc ∈ (kernelRun2_C c i arg1 harg1 arg2 harg2 arg3 harg3 arg4 harg4 arg5 harg5 hc0 hc1 x0 xs0 xs1).2.2.2.1, y ∈ pc.1.set :=
  View.cover_of_tiledL (kernelRun2_C c i arg1 harg1 arg2 harg2 arg3 harg3 arg4 harg4 arg5 harg5 hc0 hc1 x0 xs0 xs1).2.2.2.1 S1x128.size (by sl_kernel_rfl) y
def sout2_C_1 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i)
    (x0 : Vec F S2000x128 .f32) (xs0 xs1 : Vec F S1x128 .f32) : Vec F S1x128 .f32 :=
  VS2_1.read (Elt F) (VS2_1.writes (Elt F) VS2_1.junk (kernelRun2_C c i arg1 harg1 arg2 harg2 arg3 harg3 arg4 harg4 arg5 harg5 hc0 hc1 x0 xs0 xs1).2.2.2.1)

/-! ## The accumulation -/

/-- An idle output's named contents: a placeholder nothing consults (at such a point the window is neither written back nor
    read at the next point). -/
def idleOut2 : Vec F S1x128 .f32 := VO2_1.read (Elt F) VO2_1.junk

/-- What the two outputs' staging buffers and the two scratch rows hold after the body at position `n`: the first point's
    case at 0, the last point's at 49, a middle point's elsewhere, each over the totals the point before left. -/
def outsAt2 (c : Dev nD) : (n : ℕ) → n < cfg2.N → Vec F S1x128 .f32 × Vec F S1x128 .f32 × Vec F S1x128 .f32 × Vec F S1x128 .f32
  | 0, hn => (idleOut2, idleOut2,
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) scM2_1 (Memref.isWhole_whole _) ((hcond2_0 ⟨0, hn⟩).mpr rfl) (fun h => absurd ((hcond2_1 ⟨0, hn⟩).mp h) (by show ¬((0 : ℕ) = 49); omega)) (iblk2 V c 0 ⟨0, hn⟩),
      sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) scM2_1 (Memref.isWhole_whole _) ((hcond2_0 ⟨0, hn⟩).mpr rfl) (fun h => absurd ((hcond2_1 ⟨0, hn⟩).mp h) (by show ¬((0 : ℕ) = 49); omega)) (iblk2 V c 0 ⟨0, hn⟩))
  | n + 1, hn =>
    if h1 : n + 1 = 49 then
      (out2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (outsAt2 c n (Nat.lt_of_succ_lt hn)).2.2.1 (outsAt2 c n (Nat.lt_of_succ_lt hn)).2.2.2,
       out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (outsAt2 c n (Nat.lt_of_succ_lt hn)).2.2.1 (outsAt2 c n (Nat.lt_of_succ_lt hn)).2.2.2,
       sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (outsAt2 c n (Nat.lt_of_succ_lt hn)).2.2.1 (outsAt2 c n (Nat.lt_of_succ_lt hn)).2.2.2,
       sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (outsAt2 c n (Nat.lt_of_succ_lt hn)).2.2.1 (outsAt2 c n (Nat.lt_of_succ_lt hn)).2.2.2)
    else
      (idleOut2, idleOut2,
       sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (outsAt2 c n (Nat.lt_of_succ_lt hn)).2.2.1 (outsAt2 c n (Nat.lt_of_succ_lt hn)).2.2.2,
       sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (outsAt2 c n (Nat.lt_of_succ_lt hn)).2.2.1 (outsAt2 c n (Nat.lt_of_succ_lt hn)).2.2.2)

theorem outsAt2_A (c : Dev nD) (t : Fin cfg2.N) (h0 : t.val = 0) (h1 : ¬t.val = 49) :
    outsAt2 V c t.val t.isLt = (idleOut2, idleOut2,
      sout2_A_0 c (grid2.coords t) (ms2_0 t) (hs2_0 t) (ms2_1 t) (hs2_1 t) (ms2_2 t) (hs2_2 t) scM2_0 (Memref.isWhole_whole _) scM2_1 (Memref.isWhole_whole _) ((hcond2_0 t).mpr h0) (fun h => h1 ((hcond2_1 t).mp h)) (iblk2 V c 0 t),
      sout2_A_1 c (grid2.coords t) (ms2_0 t) (hs2_0 t) (ms2_1 t) (hs2_1 t) (ms2_2 t) (hs2_2 t) scM2_0 (Memref.isWhole_whole _) scM2_1 (Memref.isWhole_whole _) ((hcond2_0 t).mpr h0) (fun h => h1 ((hcond2_1 t).mp h)) (iblk2 V c 0 t)) := by
  obtain ⟨n, hn⟩ := t
  cases n with
  | zero => exact rfl
  | succ n => exact absurd h0 (Nat.succ_ne_zero n)

theorem outsAt2_B (c : Dev nD) (t : Fin cfg2.N) (h0 : ¬t.val = 0) (h1 : ¬t.val = 49) :
    outsAt2 V c t.val t.isLt = (idleOut2, idleOut2,
      sout2_B_0 c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) (fun h => h1 ((hcond2_1 t).mp h)) (iblk2 V c 0 t) (outsAt2 V c (t.val - 1) (Nat.lt_of_le_of_lt (Nat.sub_le _ _) t.isLt)).2.2.1 (outsAt2 V c (t.val - 1) (Nat.lt_of_le_of_lt (Nat.sub_le _ _) t.isLt)).2.2.2,
      sout2_B_1 c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) (fun h => h1 ((hcond2_1 t).mp h)) (iblk2 V c 0 t) (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact absurd rfl h0
  | succ n => exact (dif_neg h1).trans rfl

theorem outsAt2_C (c : Dev nD) (t : Fin cfg2.N) (h0 : ¬t.val = 0) (h1 : t.val = 49) :
    outsAt2 V c t.val t.isLt =
     (out2_C_1 c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) ((hcond2_1 t).mpr h1) (iblk2 V c 0 t) (outsAt2 V c (t.val - 1) (Nat.lt_of_le_of_lt (Nat.sub_le _ _) t.isLt)).2.2.1 (outsAt2 V c (t.val - 1) (Nat.lt_of_le_of_lt (Nat.sub_le _ _) t.isLt)).2.2.2,
      out2_C_2 c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) ((hcond2_1 t).mpr h1) (iblk2 V c 0 t) (outsAt2 V c (t.val - 1) (Nat.lt_of_le_of_lt (Nat.sub_le _ _) t.isLt)).2.2.1 (outsAt2 V c (t.val - 1) (Nat.lt_of_le_of_lt (Nat.sub_le _ _) t.isLt)).2.2.2,
      sout2_C_0 c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) ((hcond2_1 t).mpr h1) (iblk2 V c 0 t) (outsAt2 V c (t.val - 1) (Nat.lt_of_le_of_lt (Nat.sub_le _ _) t.isLt)).2.2.1 (outsAt2 V c (t.val - 1) (Nat.lt_of_le_of_lt (Nat.sub_le _ _) t.isLt)).2.2.2,
      sout2_C_1 c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) ((hcond2_1 t).mpr h1) (iblk2 V c 0 t) (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact absurd rfl h0
  | succ n => exact (dif_pos h1).trans rfl

/-! ## The invariant: the two totals in the scratch rows -/

/-- Before the first point the region's entry invariant (the scratch rows at anything); before every later point the two
    scratch rows at the totals the point before left, beside the other scoped buffers and the generator register. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.1) ∗ owns (c : Thread nD τ) scM2_1 fullShare ((outsAt2 V c n hn).2.2.2)) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.2.1) ∗ owns (c : Thread nD τ) scM2_1 fullShare ((outsAt2 V c n hn).2.2.2)) ∗ rest2 c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.1) ∗ owns (c : Thread nD τ) scM2_1 fullShare ((outsAt2 V c (n - 1) (by omega)).2.2.2)) ∗ rest2 c) ∗ (∃ r, prngReg c r)) := by
  cases n with
  | zero => exact absurd rfl hz
  | succ n => rfl

/-! ## The proof data -/

/-- The arrays as the region finds them; after the body at point `t` the input's buffer at its block and the outputs' at the
    accumulation's components; the invariant `PhiS2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => (outsAt2 V c t.val t.isLt).1
    | ⟨2, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = (outsAt2 V c t.val t.isLt).1 := by dsimp only [dat2]
theorem after2_2 (c : Dev nD) (t : Fin cfg2.N) : (dat2 V c).after 2 t = (outsAt2 V c t.val t.isLt).2.1 := by dsimp only [dat2]
theorem before2_0 (c : Dev nD) (t : Fin cfg2.N) (d) : (dat2 V c).before 0 t d = iblk2 V c 0 t :=
  before2_0_of V (dat2 V c) (A_eq2 V c 0) (after2_0 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 8000000 in
/-- The body at any point: the input's buffer holds its block; the point is the first, a middle or the last one; the invariant
    hands the body the scratch rows (at anything at the first point, at the running totals later) and takes them back at this
    point's totals; an idle output is handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).owesAt () t.succ = (dat2 V c).owesAt () t.castSucc from rfl]
  rw [show (dat2 V c).Φ t.succ = PhiS2 V c (t.val + 1) t.isLt from rfl, PhiS2_succ]
  have hN : t.val < 50 := lt_of_lt_of_eq t.isLt (show cfg2.N = 50 from N_2)
  by_cases h0 : t.val = 0
  · have h1 : ¬t.val = 49 := by omega
    rw [show (dat2 V c).leavesExact 0 t = owns (c : Thread nD τ) (ms2_0 t) fullShare ((dat2 V c).after 0 t) from by
        unfold Dat.leavesExact; rw [liveAt2_0 t], after2_0]
    rw [Dat.leavesExact_idle (dat2 V c) 1 t (idleAt2_1 t (fun h => h1 ((hcond2_1 t).mp h))) (noFlush2_1 t (fun h => h1 ((hcond2_1 t).mp h)))]
    rw [Dat.leavesExact_idle (dat2 V c) 2 t (idleAt2_2 t (fun h => h1 ((hcond2_1 t).mp h))) (noFlush2_2 t (fun h => h1 ((hcond2_1 t).mp h)))]
    rw [outsAt2_A V c t h0 h1]
    unfold sout2_A_0 sout2_A_1; (try dsimp only)
    rw [PhiS2_castSucc V c t, PhiS2_zero V c _ _ h0, PhiA2_eq]
    iintro ⟨⟨⟨⟨HS0, HS1⟩, HR⟩, Hg⟩, Ho, ⟨%d0, H0⟩, ⟨%d1, H1⟩, ⟨%d2, H2⟩⟩
    iapply ((kernelRun2_A c (grid2.coords t) _ _ _ _ _ _ _ _ _ _ ((hcond2_0 t).mpr h0) (fun h => h1 ((hcond2_1 t).mp h)) (iblk2 V c 0 t)).2.2 _ _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _)
          · unfold owns; iexists _; isplitr
            swap; · iexact HS1
            ipureintro; exact View.read_writes_of_cover _ _ _ _ _ (scover2_A_1 c _ _ _ _ _ _ _ _ _ _ _ _ _ _)
        iexact HR
      iexact Hg
    isplitl [Ho]; · iexact Ho
    isplitl [H0]; · iexact H0
    isplitl [H1]; · iexists _; iexact H1
    iexists _; iexact H2
  · by_cases h1 : t.val = 49
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t ((hcond2_1 t).mpr h1)], after2_1]
      rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold out2_C_1 out2_C_2 sout2_C_0 sout2_C_1; (try dsimp only)
      rw [PhiS2_castSucc V c t, PhiS2_pos V c _ _ h0]
      iintro ⟨⟨⟨⟨HS0, HS1⟩, HR⟩, Hg⟩, Ho, ⟨%d0, H0⟩, ⟨%d1, H1⟩, ⟨%d2, H2⟩⟩
      iapply ((kernelRun2_C c (grid2.coords t) _ _ _ _ _ _ _ _ _ _ (fun h => h0 ((hcond2_0 t).mp h)) ((hcond2_1 t).mpr h1) (iblk2 V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _)
            · unfold owns; iexists _; isplitr
              swap; · iexact HS1
              ipureintro; exact View.read_writes_of_cover _ _ _ _ _ (scover2_C_1 c _ _ _ _ _ _ _ _ _ _ _ _ _ _ _ _)
          iexact HR
        iexact Hg
      isplitl [Ho]; · iexact Ho
      isplitl [H0]; · iexact H0
      isplitl [H1]
      · unfold owns; iexists _; isplitr
        swap; · iexact H1
        ipureintro; exact View.read_writes_of_cover _ _ _ _ _ (cover2_C_1 c _ _ _ _ _ _ _ _ _ _ _ _ _ _ _ _)
      unfold owns; iexists _; isplitr
      swap; · iexact H2
      ipureintro; exact View.read_writes_of_cover _ _ _ _ _ (cover2_C_2 c _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [Dat.leavesExact_idle (dat2 V c) 1 t (idleAt2_1 t (fun h => h1 ((hcond2_1 t).mp h))) (noFlush2_1 t (fun h => h1 ((hcond2_1 t).mp h)))]
      rw [Dat.leavesExact_idle (dat2 V c) 2 t (idleAt2_2 t (fun h => h1 ((hcond2_1 t).mp h))) (noFlush2_2 t (fun h => h1 ((hcond2_1 t).mp h)))]
      rw [outsAt2_B V c t h0 h1]
      unfold sout2_B_0 sout2_B_1; (try dsimp only)
      rw [PhiS2_castSucc V c t, PhiS2_pos V c _ _ h0]
      iintro ⟨⟨⟨⟨HS0, HS1⟩, HR⟩, Hg⟩, Ho, ⟨%d0, H0⟩, ⟨%d1, H1⟩, ⟨%d2, H2⟩⟩
      iapply ((kernelRun2_B c (grid2.coords t) _ _ _ _ _ _ _ _ _ _ (fun h => h0 ((hcond2_0 t).mp h)) (fun h => h1 ((hcond2_1 t).mp h)) (iblk2 V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _)
            · unfold owns; iexists _; isplitr
              swap; · iexact HS1
              ipureintro; exact View.read_writes_of_cover _ _ _ _ _ (scover2_B_1 c _ _ _ _ _ _ _ _ _ _ _ _ _ _ _ _)
          iexact HR
        iexact Hg
      isplitl [Ho]; · iexact Ho
      isplitl [H0]; · iexact H0
      isplitl [H1]; · iexists _; iexact H1
      iexists _; iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

/-- The entry invariant is the invariant before the first point, -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- and after any later point the invariant gives it back, the totals' values forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

theorem hout2 (c : Dev nD) : (dat2 V c).Φ (Fin.last cfg2.N) ⊢ Pipeline.ΦA spec2 c :=
  Phi_out2 V c _ (by rw [Fin.val_last]; have : cfg2.N = 50 := N_2; omega)

end Cert.KernelIdeal.Hand

end
-- ==== Proof.IFrameR3.lean ====
/-
  The four row-blocked passes of the program as pipeline regions: per region the blocks its windows read, what its body
  leaves in each output buffer, the body's triple and the data the pipeline rule takes. This file: the fourth pass.
-/
import proofs.«160515_j66726611911291_1_alg».proof.Proof.Gen.KernelIdeal.Launch
import proofs.«160515_j66726611911291_1_alg».proof.Proof.Gen.KernelIdeal.Skeleton
import proofs.«160515_j66726611911291_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered from, one valuation per core
variable (V : (c : Dev nD) → (b : Ref sig .tc) → Buf (Elt F) ((c : Thread nD τ).loc b))

/-! # Region 3: the normalisation, over row blocks

Point `t` reads rows `2000 t …` of the pre-normalisation array and the mean, variance, scale and shift rows whole, and writes
the same rows of the result: entry minus mean, times the inverse square root of variance plus epsilon, times scale, plus shift. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point (fetched there, or fetched earlier at an index that has
    not moved), for any proof data whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point (fetched there, or fetched earlier at an index that has
    not moved), for any proof data whose array is the entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point (fetched there, or fetched earlier at an index that has
    not moved), for any proof data whose array is the entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point (fetched there, or fetched earlier at an index that has
    not moved), for any proof data whose array is the entry contents and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point (fetched there, or fetched earlier at an index that has
    not moved), for any proof data whose array is the entry contents and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The rectangles the body reads and writes: each buffer whole. -/
abbrev rect3_S2000x128 : Rect S2000x128 := Rect.unit (s := S2000x128) ![0, 0] S2000x128.size inb_S2000x128_S2000x128_0_0
abbrev rect3_S1x128 : Rect S1x128 := Rect.unit (s := S1x128) ![0, 0] S1x128.size inb_S1x128_S1x128_0_0

/-- What the body leaves in the output window's buffer: its one store, of the payload of the blocks it loaded. -/
def out3_5 (x0 : Vec F S2000x128 .f32) (x1 : Vec F S1x128 .f32) (x2 : Vec F S1x128 .f32) (x3 : Vec F S1x128 .f32) (x4 : Vec F S1x128 .f32) : Vec F S2000x128 .f32 :=
  View.canon [⟨rect3_S2000x128, k3_pay1 (View.ld x2 rect3_S1x128) (View.ld x0 rect3_S2000x128) (View.ld x1 rect3_S1x128) (View.ld x3 rect3_S1x128) (View.ld x4 rect3_S1x128)⟩]

/-- That store covers the buffer. -/
theorem cover3_5 (p0 : Vec F S2000x128 .f32) (y : S2000x128.Idx) :
    ∃ pc ∈ ([⟨rect3_S2000x128, p0⟩] : List (View.Piece (Elt F) S2000x128 .f32)), y ∈ pc.1.set :=
  View.cover_of_tiled [⟨rect3_S2000x128, p0⟩] S2000x128.size (by rfl) y

set_option maxHeartbeats 4000000 in
/-- The body on whole staging buffers, the inputs' at contents `x·` and the output's at anything, ends with the inputs'
    as they were and the output's at `out3_5` of them. -/
theorem sound_kernel3 (c : Dev nD) (E : Set ℕ) (i : grid3.Coords) (arg0 : Memref sig .tc .vmem S2000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S2000x128 .f32) (harg5 : arg5.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out3_5 x0 x1 x2 x3 x4)) -∗ K ⟨⟩))
      ⊢ wp frame (wpE (defs₀ (F := F)) Variants.none c none) E (cc3__norm_kernel i arg0 harg0 arg1 harg1 arg2 harg2 arg3 harg3 arg4 harg4 arg5 harg5) K := by
  simp only [cc3__norm_kernel_eq_skeleton]; unfold cc3__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of region 3 on core `c`: the arrays as the region finds them; after the body at point `t` each input's
    buffer at its block and the output's at the payload of the blocks; nothing carried, nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.IFrameSegs.lean ====
/-
  The program's @main as the run of its segments: the buffer contents at every boundary, each pass as a region of the pipeline rule,
  and the run itself with every unscoped buffer named at the end.
-/
import proofs.«160515_j66726611911291_1_alg».proof.Proof.Gen.KernelIdeal.Launch
import proofs.«160515_j66726611911291_1_alg».proof.Proof.Gen.KernelIdeal.Skeleton
import proofs.«160515_j66726611911291_1_alg».proof.Proof.Gen.KernelIdeal.Points
import proofs.«160515_j66726611911291_1_alg».proof.Proof.IFrameR0
import proofs.«160515_j66726611911291_1_alg».proof.Proof.IFrameR1
import proofs.«160515_j66726611911291_1_alg».proof.Proof.IFrameR2
import proofs.«160515_j66726611911291_1_alg».proof.Proof.IFrameR3
import proofs.«160515_j66726611911291_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: a region, a stretch of host operations, two regions, a stretch, a region

## The buffer contents at each boundary, a fold from the launch memory -/

/-- Core `c`'s buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its arrays at what the pipeline leaves (an input as entered, the output's write-backs folded), every
    other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first stretch of host operations (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- At region 1's exit: its arrays at what the pipeline leaves (an input as entered, the output's write-backs folded), every
    other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (an input as entered, the output's write-backs folded), every
    other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the second stretch of host operations (region 3's entry). -/
abbrev W5 : Dev nD → Valuation τ sig (Elt F) := fun c => StableHlo.after hostOps3 (W4 m ρ c)
abbrev V5 : (c : Dev nD) → (b : Ref sig .tc) → Buf (Elt F) ((c : Thread nD τ).loc b) := fun c b => W5 m ρ c b

/-- At region 3's exit: its arrays at what the pipeline leaves (an input as entered, the output's write-backs folded), every
    other buffer as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V3 m ρ) c
  | ⟨3, _⟩ => fun c => dat3 (V5 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 as a segment: entered from every unscoped buffer at `W0`, left at `W1`. Its windows' arrays are split out of
    the unscoped buffers and put back at what the write-backs leave; the generator register passes through the invariant;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at `W2`, left at `W3`. Its windows' arrays are split out of
    the unscoped buffers and put back at what the write-backs leave; the generator register passes through the invariant;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from every unscoped buffer at `W3`, left at `W4`. Its windows' arrays are split out of
    the unscoped buffers and put back at what the write-backs leave; the generator register passes through the invariant;
    nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = (dat2 (V3 m ρ) c).Φ (Fin.last cfg2.N) from rfl]
    have h := hout2 (V3 m ρ) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered from every unscoped buffer at `W5`, left at `W6`. Its windows' arrays are split out of
    the unscoped buffers and put back at what the write-backs leave; the generator register passes through the invariant;
    nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.IFrameRun.lean ====
/-
  The program's @main as the run of its segments: the launch rule over the six segments, every unscoped buffer named at the end,
  the argument arrays unchanged and the result array at what the last pass leaves.
-/
import proofs.«160515_j66726611911291_1_alg».proof.Proof.Gen.KernelIdeal.Launch
import proofs.«160515_j66726611911291_1_alg».proof.Proof.Gen.KernelIdeal.Skeleton
import proofs.«160515_j66726611911291_1_alg».proof.Proof.Gen.KernelIdeal.Points
import proofs.«160515_j66726611911291_1_alg».proof.Proof.IFrameSegs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched: no host operation and no region writes one -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps3 _ hostOps3_writes (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps3 _ hostOps3_writes (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := W1_of_ne m ρ c main_arg1 (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps3 _ hostOps3_writes (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := W1_of_ne m ρ c main_arg2 (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps3 _ hostOps3_writes (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps3 _ hostOps3_writes (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := StableHlo.after_of_writes_sub hostOps1 _ hostOps1_writes (by decide)
    _ = W0 m ρ c (Proc.devRef .tc main_arg4) := W1_of_ne m ρ c main_arg4 (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps3 _ hostOps3_writes (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := StableHlo.after_of_writes_sub hostOps1 _ hostOps1_writes (by decide)
    _ = W0 m ρ c (Proc.devRef .tc main_arg5) := W1_of_ne m ρ c main_arg5 (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps3 _ hostOps3_writes (by decide)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := StableHlo.after_of_writes_sub hostOps1 _ hostOps1_writes (by decide)
    _ = W0 m ρ c (Proc.devRef .tc main_arg6) := W1_of_ne m ρ c main_arg6 (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps3 _ hostOps3_writes (by decide)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := StableHlo.after_of_writes_sub hostOps1 _ hostOps1_writes (by decide)
    _ = W0 m ρ c (Proc.devRef .tc main_arg7) := W1_of_ne m ρ c main_arg7 (by decide)
    _ = m ((c : Thread nD τ).loc main_arg7) := rfl

/-! ## @main as its segments, and the launch -/

/-- @main's six segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .region (reg2 m ρ),
    .host (hseg hostOps3 hostOps3_sub hostOps3_fresh (W4 m ρ)),
    .region (reg3 m ρ) ]

theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and the
    final memory holds every unscoped buffer at the last boundary's contents `W6`. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W6 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c b hb => h c _ (mem_uc b hb))

/-- THE FRAME, at any instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c main_arg0 (by decide)).trans (W6_main_arg0 m ρ c), (h c main_arg1 (by decide)).trans (W6_main_arg1 m ρ c),
     (h c main_arg2 (by decide)).trans (W6_main_arg2 m ρ c), (h c main_arg3 (by decide)).trans (W6_main_arg3 m ρ c),
     (h c main_arg4 (by decide)).trans (W6_main_arg4 m ρ c), (h c main_arg5 (by decide)).trans (W6_main_arg5 m ρ c),
     (h c main_arg6 (by decide)).trans (W6_main_arg6 m ρ c), (h c main_arg7 (by decide)).trans (W6_main_arg7 m ρ c)⟩) (run_all m ρ)

/-- The run with the result array named: what the last region's write-backs leave in it. -/
theorem run_result : θ_run defs (onTc (τ := τ) (main (F := F))) ⟨m, fun _ => 0, ρ⟩ (fun r => ∀ c : Dev nD,
      r.2.mem ((c.tc : Thread nD τ).loc main_v32) = (dat3 (V5 m ρ) c).arrAt 5 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c main_v32 (by decide)).trans (W6_arr m ρ c 5),
     (h c main_arg0 (by decide)).trans (W6_main_arg0 m ρ c), (h c main_arg1 (by decide)).trans (W6_main_arg1 m ρ c),
     (h c main_arg2 (by decide)).trans (W6_main_arg2 m ρ c), (h c main_arg3 (by decide)).trans (W6_main_arg3 m ρ c),
     (h c main_arg4 (by decide)).trans (W6_main_arg4 m ρ c), (h c main_arg5 (by decide)).trans (W6_main_arg5 m ρ c),
     (h c main_arg6 (by decide)).trans (W6_main_arg6 m ρ c), (h c main_arg7 (by decide)).trans (W6_main_arg7 m ρ c)⟩) (run_all m ρ)

end Cert.KernelIdeal.Hand

end
-- ==== Proof.KPay.lean ====
import proofs.«160515_j66726611911291_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The relu body -/

/-- The relu block at `(p, q)`: the larger of the loaded element and the zero word's value. -/
theorem k0_pay1_apply (x : Vec Ideal S2000x128 .f32) (p : Fin 2000) (q : Fin 128) :
    k0_pay1 (F := Ideal) x (ix2 p q) = max (x (ix2 p q)) (Ideal.ofBits .f32 0x00000000#32) := rfl

/-! ## The statistics body -/

/-- A sum over the rows of a `[2000, 128]` block, read at column `q`: the `Fin 2000`-indexed sum of that column. -/
theorem colsum_apply (src : FVec Ideal S2000x128 .f32) (q : Fin 128) :
    multiReduction (F := Ideal) .add [0] S128 src 0x00000000#32 reduces_S2000x128_S128 (.inl rfl) rfl (ix1 q)
      = ∑ r : Fin 2000, src (ix2 r q) := by
  refine (Ideal.multiReduction_add_single src 0x00000000#32 reduces_S2000x128_S128 (.inl rfl) rfl (ix1 q)).trans ?_
  refine Finset.sum_congr rfl fun r _ => congrArg src ?_
  funext a
  match a with
  | ⟨0, _⟩ => rfl
  | ⟨1, _⟩ => rfl

/-- The first initial row is zero at every column. -/
theorem k2_pay1_apply (q : Fin 128) : k2_pay1 (F := Ideal) (ix2 (0 : Fin 1) q) = 0 := by
  unfold k2_pay1
  rw [shapeCast_self]
  exact Ideal.ofBits_zero_f32

/-- The second initial row is zero at every column. -/
theorem k2_pay2_apply (q : Fin 128) : k2_pay2 (F := Ideal) (ix2 (0 : Fin 1) q) = 0 := by
  unfold k2_pay2
  rw [shapeCast_self]
  exact Ideal.ofBits_zero_f32

/-- The running column sums after a block: the row before it plus the block's column sums. -/
theorem k2_pay4_apply (x : Vec Ideal S2000x128 .f32) (acc : Vec Ideal S1x128 .f32) (q : Fin 128) :
    k2_pay4 (F := Ideal) x acc (ix2 (0 : Fin 1) q) = acc (ix2 (0 : Fin 1) q) + ∑ r : Fin 2000, x (ix2 r q) := by
  unfold k2_pay4 k2_pay3
  rw [shapeCast_self, shapeCast_self]
  refine congrArg (acc (ix2 (0 : Fin 1) q) + ·) ?_
  refine (shapeCast_a_1a_apply _ _ (0 : Fin 1) q).trans ?_
  exact colsum_apply x q

/-- The running column sums of squares after a block: the row before it plus the block's column sums of squares. -/
theorem k2_pay5_apply (x : Vec Ideal S2000x128 .f32) (acc : Vec Ideal S1x128 .f32) (q : Fin 128) :
    k2_pay5 (F := Ideal) x acc (ix2 (0 : Fin 1) q) = acc (ix2 (0 : Fin 1) q) + ∑ r : Fin 2000, x (ix2 r q) * x (ix2 r q) := by
  unfold k2_pay5 k2_pay3
  rw [shapeCast_self, shapeCast_self]
  refine congrArg (acc (ix2 (0 : Fin 1) q) + ·) ?_
  refine (shapeCast_a_1a_apply _ _ (0 : Fin 1) q).trans ?_
  exact colsum_apply (mulf x x) q

/-! ## The normalize body -/

/-- The normalized block at `(p, q)`: the element less the column's mean, times the reciprocal square root of the
    column's variance plus the small constant, times the column's scale, plus the column's shift. -/
theorem k3_pay1_apply (var : Vec Ideal S1x128 .f32) (o : Vec Ideal S2000x128 .f32) (mu g b : Vec Ideal S1x128 .f32) (p : Fin 2000) (q : Fin 128) :
    k3_pay1 (F := Ideal) var o mu g b (ix2 p q)
      = ((o (ix2 p q) - mu (ix2 (0 : Fin 1) q)) * Ideal.rsqrt (var (ix2 (0 : Fin 1) q) + Ideal.ofBits .f32 0x3727C5AC#32)) * g (ix2 (0 : Fin 1) q) + b (ix2 (0 : Fin 1) q) := by
  unfold k3_pay1
  simp only [shapeCast_self]
  refine congrArg₂ (· + ·) (congrArg₂ (· * ·) (congrArg₂ (· * ·) (congrArg (o (ix2 p q) - ·) ?_) ?_) ?_) ?_
  · exact broadcastTo_1b_ab_apply mu _ p q
  · exact (broadcastTo_1b_ab_apply _ _ p q).trans rfl
  · exact broadcastTo_1b_ab_apply g _ p q
  · exact broadcastTo_1b_ab_apply b _ p q

/-! ## The combine body -/

section Layout
variable {α : Type}

/-- A `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The left operand's index of the product keeps the output's row … -/
theorem lhsIdx_val0 (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- … and takes the contraction coordinate as its column. -/
theorem lhsIdx_val1 (i : S2000x128.Idx) (c : dot_S2000x128_S128x128_S2000x128_1_0_0_1_n_n.contr.Idx) :
    (dot_S2000x128_S128x128_S2000x128_1_0_0_1_n_n.lhsIdx i c 1).val = (c ⟨0, by decide⟩).val :=
  dot_S2000x128_S128x128_S2000x128_1_0_0_1_n_n.lhsIdx_val_of_single rfl i c

/-- The right operand's index takes the contraction coordinate as its row … -/
theorem rhsIdx_val0 (i : S2000x128.Idx) (c : dot_S2000x128_S128x128_S2000x128_1_0_0_1_n_n.contr.Idx) :
    (dot_S2000x128_S128x128_S2000x128_1_0_0_1_n_n.rhsIdx i c 0).val = (c ⟨0, by decide⟩).val :=
  dot_S2000x128_S128x128_S2000x128_1_0_0_1_n_n.rhsIdx_val_of_single rfl i c

/-- … and keeps the output's column. -/
theorem rhsIdx_val1 (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- So at output `(p, q)` and contraction coordinate `k` the left operand is read at `(p, k)` … -/
theorem lhsIdx_eq (p : Fin 2000) (q : Fin 128) (k : Fin 128) :
    dot_S2000x128_S128x128_S2000x128_1_0_0_1_n_n.lhsIdx (ix2 p q) ((contrEquiv1 dot_S2000x128_S128x128_S2000x128_1_0_0_1_n_n 128 rfl rfl).symm k) = ix2 p k := by
  have hk := contrEquiv1_symm_val dot_S2000x128_S128x128_S2000x128_1_0_0_1_n_n 128 rfl rfl k
  funext a
  refine Fin.ext ?_
  match a with
  | ⟨0, _⟩ => exact lhsIdx_val0 _ _
  | ⟨1, _⟩ => exact (lhsIdx_val1 _ _).trans hk

/-- … and the right operand at `(k, q)`. -/
theorem rhsIdx_eq (p : Fin 2000) (q : Fin 128) (k : Fin 128) :
    dot_S2000x128_S128x128_S2000x128_1_0_0_1_n_n.rhsIdx (ix2 p q) ((contrEquiv1 dot_S2000x128_S128x128_S2000x128_1_0_0_1_n_n 128 rfl rfl).symm k) = ix2 k q := by
  have hk := contrEquiv1_symm_val dot_S2000x128_S128x128_S2000x128_1_0_0_1_n_n 128 rfl rfl k
  funext a
  refine Fin.ext ?_
  match a with
  | ⟨0, _⟩ => exact (rhsIdx_val0 _ _).trans hk
  | ⟨1, _⟩ => exact rhsIdx_val1 _ _

/-- A `[2000, 128]` by `[128, 128]` product into the zero accumulator, read at `(p, q)`: the sum over the shared
    coordinate of the products of the left operand's row `p` and the right operand's column `q`. -/
theorem matmul_zero_apply (L : FVec Ideal S2000x128 .f32) (R : FVec Ideal S128x128 .f32) (p : Fin 2000) (q : Fin 128) :
    matmul (F := Ideal) dot_S2000x128_S128x128_S2000x128_1_0_0_1_n_n none L R (constant S2000x128 .f32 0x00000000#32) (ix2 p q)
      = ∑ k : Fin 128, L (ix2 p k) * R (ix2 k q) := by
  refine (Ideal.matmul_constant_zero_apply dot_S2000x128_S128x128_S2000x128_1_0_0_1_n_n none L R (ix2 p q)).trans ?_
  refine (Equiv.sum_comp (contrEquiv1 dot_S2000x128_S128x128_S2000x128_1_0_0_1_n_n 128 rfl rfl).symm _).symm.trans ?_
  refine Finset.sum_congr rfl fun k _ => ?_
  exact congrArg₂ (· * ·) (congrArg L (lhsIdx_eq p q k)) (congrArg R (rhsIdx_eq p q k))

/-- The combined block at `(p, q)`: row `p` of the neighbour sums, each divided by the row's count (at least one),
    against column `q` of the first weight, plus the bias at `q`, plus row `p` of the features against column `q` of
    the second weight. -/
theorem k1_pay1_apply (a : Vec Ideal S2000x128 .f32) (cn : Vec Ideal S2000x1 .f32) (h : Vec Ideal S2000x128 .f32) (wl : Vec Ideal S128x128 .f32) (b : Vec Ideal S1x128 .f32) (wr : Vec Ideal S128x128 .f32) (p : Fin 2000) (q : Fin 128) :
    k1_pay1 (F := Ideal) a cn h wl b wr (ix2 p q)
      = ((∑ k : Fin 128, Ideal.div (a (ix2 p k)) (max (cn (ix2 p (0 : Fin 1))) (Ideal.ofBits .f32 0x3F800000#32)) * wl (ix2 k q)) + b (ix2 (0 : Fin 1) q))
        + ∑ k : Fin 128, h (ix2 p k) * wr (ix2 k q) := by
  unfold k1_pay1
  simp only [shapeCast_self]
  refine congrArg₂ (· + ·) (congrArg₂ (· + ·) ?_ ?_) ?_
  · refine (matmul_zero_apply _ wl p q).trans ?_
    refine Finset.sum_congr rfl fun k _ => congrArg (· * wl (ix2 k q)) ?_
    refine congrArg (Ideal.div (a (ix2 p k))) ?_
    exact (broadcastTo_a1_ab_apply _ _ p k).trans rfl
  · exact broadcastTo_1b_ab_apply b _ p q
  · exact matmul_zero_apply h wr p q

end Cert.KernelIdeal.Pay

end
-- ==== Proof.IValR0.lean ====
/-
  The rectified-linear pass, from blocks to the array: after its fifty write-backs the output array holds, at every index,
  the larger of the input array's element there and zero.
-/
import proofs.«160515_j66726611911291_1_alg».proof.Proof.IFrameR0
import proofs.«160515_j66726611911291_1_alg».proof.Proof.KPay
import Idealize.ShloMosaic.Lib.Pipeline.Value
import Idealize.ShloMosaic.Lib.ValueIdx

noncomputable section

open scoped BigOperators

namespace Cert.KernelIdeal.HandVal

open Cert.KernelIdeal Cert.KernelIdeal.Gen Cert.KernelIdeal.Hand Cert.KernelIdeal.Pay
open Idealize.ShloMosaic Idealize.ShloMosaic.TcCoe Idealize.ShloMosaic.ValueIdx Idealize.SL.Sem
open Idealize.ShloMosaic.Pipeline (Dat)

-- the buffer contents the region is entered from, one valuation per core
variable (V : (c : Dev nD) → (b : Ref sig .tc) → Buf (Elt Ideal) ((c : Thread nD τ).loc b))

/-! # Region 0: the output array after the pass -/

theorem hz0 : (![0, 0] : Fin 2 → Nat) = fun _ => 0 := funext fun a => by fin_cases a <;> rfl

/-- What the output array ends holding: the input array with every element replaced by its maximum with zero. -/
def G0 (x : S100000x128.Idx → EReal) : S100000x128.Idx → EReal :=
  fun i => max (x i) (Ideal.ofBits .f32 0x00000000#32)

theorem G0_apply (x : S100000x128.Idx → EReal) (r : Fin 100000) (j : Fin 128) :
    G0 x (ix2 r j) = max (x (ix2 r j)) (Ideal.ofBits .f32 0x00000000#32) := rfl

/-- One element of the body's block, once the loaded element is known to be the input array's at index `i`. -/
theorem point0 (x : Vec Ideal S2000x128 .f32) (A : S100000x128.Idx → EReal) (y : S2000x128.Idx) (i : S100000x128.Idx)
    (hx : x y = A i) : k0_pay1 (F := Ideal) x y = G0 A i := by
  obtain ⟨p, q, rfl⟩ : ∃ p q, y = ix2 p q := ⟨y 0, y 1, eq_ix2 y⟩
  rw [k0_pay1_apply, hx]; rfl

/-- The printed index maps, decided over the grid: at point `t` both windows sit at row block `t`, column block `0`. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- WHAT POINT `t` WRITES BACK is block `t` of `G0` of the input array as the region finds it. -/
theorem flushed0_eq (c : Dev nD) (t : Fin cfg0.N) :
    (dat0 (F := Ideal) V c).flushed 1 t = ((cfg0.win 1).blk t).view.read (Elt Ideal) (G0 (V c main_arg0)) := by
  show (cfg0.win 1).cut (grid0.coords t) ((dat0 (F := Ideal) V c).after 1 t) = _
  rw [after0_1]
  unfold out0_1
  rw [View.canon_unit_zero hz0]
  simp only [View.ld_unit_zero (S := S2000x128) hz0]
  obtain ⟨e0, e1, e2, e3⟩ := idx_facts0 t
  funext y
  show k0_pay1 (F := Ideal) (iblk0 V c 0 t) y = G0 (V c main_arg0) (((cfg0.win 1).blk t).view.emb y)
  refine point0 _ _ y _ ?_
  show V c main_arg0 (((cfg0.win 0).blk t).view.emb y) = V c main_arg0 (((cfg0.win 1).blk t).view.emb y)
  refine congrArg (V c main_arg0) ?_
  funext a; apply Fin.ext
  match a with
  | ⟨0, _⟩ => show win0_0.index t (0 : Fin 2) * 2000 + 1 * (y 0).val = win0_1.index t (0 : Fin 2) * 2000 + 1 * (y 0).val; omega
  | ⟨1, _⟩ => show win0_0.index t (1 : Fin 2) * 128 + 1 * (y 1).val = win0_1.index t (1 : Fin 2) * 128 + 1 * (y 1).val; omega

/-- An index of the array is in point `t`'s block iff each coordinate is in the block's range on its axis. -/
theorem mem_blk0 (t : Fin cfg0.N) (i : S100000x128.Idx) :
    i ∈ ((cfg0.win 1).blk t).view.set ↔ ∀ a : Fin 2, win0_1.index t a * S2000x128.size a ≤ (i a).val ∧ (i a).val < win0_1.index t a * S2000x128.size a + S2000x128.size a := by
  show i ∈ ((View.whole main_v0).slice (win0_1.rect t)).set ↔ _
  rw [View.set_slice_whole, Rect.mem_set_unit]
  exact Iff.rfl

/-- Every index of the array is in some point's block: row `r` is in the block of point `r / 2000`. -/
theorem cover0 (i : S100000x128.Idx) : ∃ t : Fin cfg0.N, (cfg0.win 1).flush t = true ∧ i ∈ ((cfg0.win 1).blk t).view.set := by
  have hi0 : (i 0).val < 100000 := idx2_lt0 i
  have hi1 : (i 1).val < 128 := idx2_lt1 i
  have hN : cfg0.N = 50 := N_0
  have ht : (i 0).val / 2000 < cfg0.N := by rw [hN]; omega
  obtain ⟨e0, e1, e2, e3⟩ := idx_facts0 ⟨(i 0).val / 2000, ht⟩
  refine ⟨⟨(i 0).val / 2000, ht⟩, flush0_1 _, ?_⟩
  rw [mem_blk0]
  intro a
  match a with
  | ⟨0, _⟩ =>
    show win0_1.index ⟨(i 0).val / 2000, ht⟩ (0 : Fin 2) * 2000 ≤ (i 0).val ∧ (i 0).val < win0_1.index ⟨(i 0).val / 2000, ht⟩ (0 : Fin 2) * 2000 + 2000
    rw [e2]; show (i 0).val / 2000 * 2000 ≤ (i 0).val ∧ (i 0).val < (i 0).val / 2000 * 2000 + 2000; omega
  | ⟨1, _⟩ =>
    show win0_1.index ⟨(i 0).val / 2000, ht⟩ (1 : Fin 2) * 128 ≤ (i 1).val ∧ (i 1).val < win0_1.index ⟨(i 0).val / 2000, ht⟩ (1 : Fin 2) * 128 + 128
    rw [e3]; omega

/-- THE ARRAY after the pass: `G0` of the input array. -/
theorem final0 (c : Dev nD) : (dat0 (F := Ideal) V c).arrAt 1 cfg0.N = G0 (V c main_arg0) :=
  (dat0 (F := Ideal) V c).arrAt_eq_of_cover 1 (G0 (V c main_arg0)) (fun t _ => flushed0_eq V c t) cover0

end Cert.KernelIdeal.HandVal

end
-- ==== Proof.IValR1.lean ====
/-
  The combine pass, from blocks to the array: after its fifty write-backs the output array holds, at every index, the
  row of neighbour sums divided by the larger of the row's count and one, times the left weights, plus the bias, plus
  the row of the layer's input times the right weights.
-/
import proofs.«160515_j66726611911291_1_alg».proof.Proof.IFrameR1
import proofs.«160515_j66726611911291_1_alg».proof.Proof.KPay
import Idealize.ShloMosaic.Lib.Pipeline.Value
import Idealize.ShloMosaic.Lib.ValueIdx

noncomputable section

open scoped BigOperators

namespace Cert.KernelIdeal.HandVal

open Cert.KernelIdeal Cert.KernelIdeal.Gen Cert.KernelIdeal.Hand Cert.KernelIdeal.Pay
open Idealize.ShloMosaic Idealize.ShloMosaic.TcCoe Idealize.ShloMosaic.ValueIdx Idealize.SL.Sem
open Idealize.ShloMosaic.Pipeline (Dat)

-- the buffer contents the region is entered from, one valuation per core
variable (V : (c : Dev nD) → (b : Ref sig .tc) → Buf (Elt Ideal) ((c : Thread nD τ).loc b))

/-! # Region 1: the output array after the pass -/

theorem hz1 : (![0, 0] : Fin 2 → Nat) = fun _ => 0 := funext fun a => by fin_cases a <;> rfl

/-- What the output array ends holding, index by index: `(a / max cnt 1) · Wl + bias + h · Wr`, the row read at the index's
    row and the weights at its column. -/
def G1 (a : S100000x128.Idx → EReal) (cn : S100000x1.Idx → EReal) (h : S100000x128.Idx → EReal)
    (wl : S128x128.Idx → EReal) (b : S1x128.Idx → EReal) (wr : S128x128.Idx → EReal) : S100000x128.Idx → EReal :=
  fun i => ((∑ k : Fin 128, Ideal.div (a (ix2 (i 0) k)) (max (cn (ix2 (i 0) (0 : Fin 1))) (Ideal.ofBits .f32 0x3F800000#32)) * wl (ix2 k (i 1)))
    + b (ix2 (0 : Fin 1) (i 1))) + ∑ k : Fin 128, h (ix2 (i 0) k) * wr (ix2 k (i 1))

theorem G1_apply (a : S100000x128.Idx → EReal) (cn : S100000x1.Idx → EReal) (h : S100000x128.Idx → EReal)
    (wl : S128x128.Idx → EReal) (b : S1x128.Idx → EReal) (wr : S128x128.Idx → EReal) (r : Fin 100000) (j : Fin 128) :
    G1 a cn h wl b wr (ix2 r j)
      = ((∑ k : Fin 128, Ideal.div (a (ix2 r k)) (max (cn (ix2 r (0 : Fin 1))) (Ideal.ofBits .f32 0x3F800000#32)) * wl (ix2 k j))
        + b (ix2 (0 : Fin 1) j)) + ∑ k : Fin 128, h (ix2 r k) * wr (ix2 k j) := rfl

/-- One element of the body's block, once each loaded element it reads is known to be its array's: row `y 0` of each
    row-blocked block is row `i 0` of its array, the columns agree, and each weight block is its whole array. -/
theorem point1 (a : Vec Ideal S2000x128 .f32) (cn : Vec Ideal S2000x1 .f32) (h : Vec Ideal S2000x128 .f32)
    (wl : Vec Ideal S128x128 .f32) (b : Vec Ideal S1x128 .f32) (wr : Vec Ideal S128x128 .f32)
    (A : S100000x128.Idx → EReal) (CN : S100000x1.Idx → EReal) (H : S100000x128.Idx → EReal)
    (WL : S128x128.Idx → EReal) (B : S1x128.Idx → EReal) (WR : S128x128.Idx → EReal)
    (y : S2000x128.Idx) (i : S100000x128.Idx) (hcol : (i 1).val = (y 1).val)
    (ha : ∀ k : Fin 128, a (ix2 (y 0) k) = A (ix2 (i 0) k))
    (hcn : cn (ix2 (y 0) (0 : Fin 1)) = CN (ix2 (i 0) (0 : Fin 1)))
    (hh : ∀ k : Fin 128, h (ix2 (y 0) k) = H (ix2 (i 0) k))
    (hwl : ∀ k q : Fin 128, wl (ix2 k q) = WL (ix2 k q))
    (hb : ∀ q : Fin 128, b (ix2 (0 : Fin 1) q) = B (ix2 (0 : Fin 1) q))
    (hwr : ∀ k q : Fin 128, wr (ix2 k q) = WR (ix2 k q)) :
    k1_pay1 (F := Ideal) a cn h wl b wr y = G1 A CN H WL B WR i := by
  obtain ⟨p, q, rfl⟩ : ∃ (p : Fin 2000) (q : Fin 128), y = ix2 p q := ⟨y 0, y 1, eq_ix2 y⟩
  have hq : i 1 = q := Fin.ext hcol
  have ha' : ∀ k : Fin 128, a (ix2 p k) = A (ix2 (i 0) k) := ha
  have hcn' : cn (ix2 p (0 : Fin 1)) = CN (ix2 (i 0) (0 : Fin 1)) := hcn
  have hh' : ∀ k : Fin 128, h (ix2 p k) = H (ix2 (i 0) k) := hh
  rw [k1_pay1_apply]
  show _ = ((∑ k : Fin 128, Ideal.div (A (ix2 (i 0) k)) (max (CN (ix2 (i 0) (0 : Fin 1))) (Ideal.ofBits .f32 0x3F800000#32)) * WL (ix2 k (i 1)))
    + B (ix2 (0 : Fin 1) (i 1))) + ∑ k : Fin 128, H (ix2 (i 0) k) * WR (ix2 k (i 1))
  rw [hq]
  simp only [ha', hcn', hh', hwl, hb, hwr]

/-- The printed index maps, decided over the grid: at point `t` the four row-blocked windows sit at row block `t`, column
    block `0`; the two weight windows and the bias window at block `(0, 0)`, their whole array. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_6.index t (0 : Fin 2) = t.val ∧ win1_6.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- WHAT POINT `t` WRITES BACK is block `t` of `G1` of the arrays as the region finds them. -/
theorem flushed1_eq (c : Dev nD) (t : Fin cfg1.N) :
    (dat1 (F := Ideal) V c).flushed 6 t
      = ((cfg1.win 6).blk t).view.read (Elt Ideal)
          (G1 (V c main_v14) (V c main_v18) (V c main_v0) (V c main_v19) (V c main_v21) (V c main_v20)) := by
  show (cfg1.win 6).cut (grid1.coords t) ((dat1 (F := Ideal) V c).after 6 t) = _
  rw [after1_6]
  unfold out1_6
  rw [View.canon_unit_zero hz1]
  simp only [View.ld_unit_zero (S := S2000x128) hz1, View.ld_unit_zero (S := S2000x1) hz1,
    View.ld_unit_zero (S := S128x128) hz1, View.ld_unit_zero (S := S1x128) hz1]
  obtain ⟨e00, e01, e10, e11, e20, e21, e60, e61, e30, e31, e40, e41, e50, e51⟩ := idx_facts1 t
  funext y
  show k1_pay1 (F := Ideal) (iblk1 V c 0 t) (iblk1 V c 1 t) (iblk1 V c 2 t) (iblk1 V c 3 t) (iblk1 V c 4 t) (iblk1 V c 5 t) y
    = G1 (V c main_v14) (V c main_v18) (V c main_v0) (V c main_v19) (V c main_v21) (V c main_v20) (((cfg1.win 6).blk t).view.emb y)
  refine point1 _ _ _ _ _ _ _ _ _ _ _ _ y _ ?_ (fun k => ?_) ?_ (fun k => ?_) (fun k q => ?_) (fun q => ?_) (fun k q => ?_)
  · show win1_6.index t (1 : Fin 2) * 128 + 1 * (y 1).val = (y 1).val
    omega
  · show V c main_v14 (((cfg1.win 0).blk t).view.emb (ix2 (y 0) k)) = V c main_v14 (ix2 ((((cfg1.win 6).blk t).view.emb y) 0) k)
    refine congrArg (V c main_v14) ?_
    funext a; apply Fin.ext
    match a with
    | ⟨0, _⟩ => show win1_0.index t (0 : Fin 2) * 2000 + 1 * (y 0).val = win1_6.index t (0 : Fin 2) * 2000 + 1 * (y 0).val; omega
    | ⟨1, _⟩ => show win1_0.index t (1 : Fin 2) * 128 + 1 * k.val = k.val; omega
  · show V c main_v18 (((cfg1.win 1).blk t).view.emb (ix2 (y 0) (0 : Fin 1))) = V c main_v18 (ix2 ((((cfg1.win 6).blk t).view.emb y) 0) (0 : Fin 1))
    refine congrArg (V c main_v18) ?_
    funext a; apply Fin.ext
    match a with
    | ⟨0, _⟩ => show win1_1.index t (0 : Fin 2) * 2000 + 1 * (y 0).val = win1_6.index t (0 : Fin 2) * 2000 + 1 * (y 0).val; omega
    | ⟨1, _⟩ => show win1_1.index t (1 : Fin 2) * 1 + 1 * 0 = 0; omega
  · show V c main_v0 (((cfg1.win 2).blk t).view.emb (ix2 (y 0) k)) = V c main_v0 (ix2 ((((cfg1.win 6).blk t).view.emb y) 0) k)
    refine congrArg (V c main_v0) ?_
    funext a; apply Fin.ext
    match a with
    | ⟨0, _⟩ => show win1_2.index t (0 : Fin 2) * 2000 + 1 * (y 0).val = win1_6.index t (0 : Fin 2) * 2000 + 1 * (y 0).val; omega
    | ⟨1, _⟩ => show win1_2.index t (1 : Fin 2) * 128 + 1 * k.val = k.val; omega
  · show V c main_v19 (((cfg1.win 3).blk t).view.emb (ix2 k q)) = V c main_v19 (ix2 k q)
    refine congrArg (V c main_v19) ?_
    funext a; apply Fin.ext
    match a with
    | ⟨0, _⟩ => show win1_3.index t (0 : Fin 2) * 128 + 1 * k.val = k.val; omega
    | ⟨1, _⟩ => show win1_3.index t (1 : Fin 2) * 128 + 1 * q.val = q.val; omega
  · show V c main_v21 (((cfg1.win 4).blk t).view.emb (ix2 (0 : Fin 1) q)) = V c main_v21 (ix2 (0 : Fin 1) q)
    refine congrArg (V c main_v21) ?_
    funext a; apply Fin.ext
    match a with
    | ⟨0, _⟩ => show win1_4.index t (0 : Fin 2) * 1 + 1 * 0 = 0; omega
    | ⟨1, _⟩ => show win1_4.index t (1 : Fin 2) * 128 + 1 * q.val = q.val; omega
  · show V c main_v20 (((cfg1.win 5).blk t).view.emb (ix2 k q)) = V c main_v20 (ix2 k q)
    refine congrArg (V c main_v20) ?_
    funext a; apply Fin.ext
    match a with
    | ⟨0, _⟩ => show win1_5.index t (0 : Fin 2) * 128 + 1 * k.val = k.val; omega
    | ⟨1, _⟩ => show win1_5.index t (1 : Fin 2) * 128 + 1 * q.val = q.val; omega

/-- An index of the array is in point `t`'s block iff each coordinate is in the block's range on its axis. -/
theorem mem_blk1 (t : Fin cfg1.N) (i : S100000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v22).slice (win1_6.rect t)).set ↔ _
  rw [View.set_slice_whole, Rect.mem_set_unit]
  exact Iff.rfl

/-- Every index of the array is in some point's block: row `r` is in the block of point `r / 2000`. -/
theorem cover1 (i : S100000x128.Idx) : ∃ t : Fin cfg1.N, (cfg1.win 6).flush t = true ∧ i ∈ ((cfg1.win 6).blk t).view.set := by
  have hi0 : (i 0).val < 100000 := idx2_lt0 i
  have hi1 : (i 1).val < 128 := idx2_lt1 i
  have hN : cfg1.N = 50 := N_1
  have ht : (i 0).val / 2000 < cfg1.N := by rw [hN]; omega
  obtain ⟨-, -, -, -, -, -, e60, e61, -⟩ := idx_facts1 ⟨(i 0).val / 2000, ht⟩
  refine ⟨⟨(i 0).val / 2000, ht⟩, flush1_6 _, ?_⟩
  rw [mem_blk1]
  intro a
  match a with
  | ⟨0, _⟩ =>
    show win1_6.index ⟨(i 0).val / 2000, ht⟩ (0 : Fin 2) * 2000 ≤ (i 0).val ∧ (i 0).val < win1_6.index ⟨(i 0).val / 2000, ht⟩ (0 : Fin 2) * 2000 + 2000
    rw [e60]; show (i 0).val / 2000 * 2000 ≤ (i 0).val ∧ (i 0).val < (i 0).val / 2000 * 2000 + 2000; omega
  | ⟨1, _⟩ =>
    show win1_6.index ⟨(i 0).val / 2000, ht⟩ (1 : Fin 2) * 128 ≤ (i 1).val ∧ (i 1).val < win1_6.index ⟨(i 0).val / 2000, ht⟩ (1 : Fin 2) * 128 + 128
    rw [e61]; omega

/-- THE ARRAY after the pass: `G1` of the arrays the region is entered from. -/
theorem final1 (c : Dev nD) :
    (dat1 (F := Ideal) V c).arrAt 6 cfg1.N
      = G1 (V c main_v14) (V c main_v18) (V c main_v0) (V c main_v19) (V c main_v21) (V c main_v20) :=
  (dat1 (F := Ideal) V c).arrAt_eq_of_cover 6
    (G1 (V c main_v14) (V c main_v18) (V c main_v0) (V c main_v19) (V c main_v21) (V c main_v20))
    (fun t _ => flushed1_eq V c t) cover1

end Cert.KernelIdeal.HandVal

end
-- ==== Proof.IHost1.lean ====
import proofs.«160515_j66726611911291_1_alg».proof.Proof.Gen.KernelIdeal.Launch
import proofs.«160515_j66726611911291_1_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HandHost

open Cert.KernelIdeal Cert.KernelIdeal.Gen Idealize.ShloMosaic Idealize.ShloMosaic.ValueIdx

/-! ## The host operations between the relu and the combine, read off any valuation

Twenty-six operations. The edge array's two rows are cut out and flattened: the sources and the targets. A source
below zero is moved up by the row count (the wrap of a negative index); the features' rows at the sources are
gathered, and added into zeros at the targets: the summed messages. Ones are added into zeros at the targets: the
neighbour counts. The two weights are transposed and the bias is viewed as a one-row block. Each result is first
stated as the operations' composed term of the valuation's contents. -/

/-- The sources: row 0 of the edge array, flattened. -/
abbrev srcOf (E : S2x640000.Idx → BitVec 32) : S640000.Idx → BitVec 32 :=
  shapeCast S640000 (extractStridedSlice S1x640000 ![0, 0] E slices_S2x640000_S1x640000_0_0) shapeCasts_S1x640000_S640000

/-- The targets: row 1 of the edge array, flattened. -/
abbrev dstOf (E : S2x640000.Idx → BitVec 32) : S640000.Idx → BitVec 32 :=
  shapeCast S640000 (extractStridedSlice S1x640000 ![1, 0] E slices_S2x640000_S1x640000_1_0) shapeCasts_S1x640000_S640000

/-- The sources with a negative one moved up by the row count, as a column of start indices. -/
abbrev srcColOf (E : S2x640000.Idx → BitVec 32) : S640000x1.Idx → BitVec 32 :=
  broadcastInDim S640000x1 ![0] bcast_S640000_S640000x1_0
    (select (cmpi .slt (srcOf E) (broadcastInDim S640000 ![] bcast_S_S640000 (constantI S_ 32 0#32)))
      (addi (srcOf E) (broadcastInDim S640000 ![] bcast_S_S640000 (constantI S_ 32 100000#32)))
      (srcOf E))

/-- The targets as a column of scatter indices. -/
abbrev dstColOf (E : S2x640000.Idx → BitVec 32) : S640000x1.Idx → BitVec 32 :=
  broadcastInDim S640000x1 ![0] bcast_S640000_S640000x1_0 (dstOf E)

/-- The summed messages: the features' rows at the sources, added into zeros at the targets. -/
theorem v14_eq (W : Valuation τ sig (Elt Ideal)) :
    (StableHlo.after (hostOps1 (F := Ideal)) W (Proc.devRef .tc main_v14) : S100000x128.Idx → EReal)
      = Host.scatterAdd (F := Ideal) scatter_S100000x128_S640000x1_S640000x128_1_0_0_1
          (broadcastInDim S100000x128 ![] bcast_S_S100000x128 (constant (F := Ideal) S_ .f32 0x00000000#32))
          (dstColOf (W (Proc.devRef .tc main_arg7)))
          (Host.gather gather_S100000x128_S640000x1_S640000x128_1_0_n_n_0_1_1128
            (W (Proc.devRef .tc main_v0) : S100000x128.Idx → EReal)
            (srcColOf (W (Proc.devRef .tc main_arg7)))) := by
  after_results <;> rfl

/-- The neighbour counts: ones added into zeros at the targets. -/
theorem v18_eq (W : Valuation τ sig (Elt Ideal)) :
    (StableHlo.after (hostOps1 (F := Ideal)) W (Proc.devRef .tc main_v18) : S100000x1.Idx → EReal)
      = Host.scatterAdd (F := Ideal) scatter_S100000x1_S640000x1_S640000x1_1_0_0_1
          (broadcastInDim S100000x1 ![] bcast_S_S100000x1 (constant (F := Ideal) S_ .f32 0x00000000#32))
          (dstColOf (W (Proc.devRef .tc main_arg7)))
          (broadcastInDim S640000x1 ![] bcast_S_S640000x1 (constant (F := Ideal) S_ .f32 0x3F800000#32)) := by
  after_results <;> rfl

/-- The first weight, transposed. -/
theorem v19_eq (W : Valuation τ sig (Elt Ideal)) :
    (StableHlo.after (hostOps1 (F := Ideal)) W (Proc.devRef .tc main_v19) : S128x128.Idx → EReal)
      = transpose S128x128 [1, 0] (W (Proc.devRef .tc main_arg2) : S128x128.Idx → EReal) transposes_S128x128_S128x128_1_0 := by
  after_results <;> rfl

/-- The second weight, transposed. -/
theorem v20_eq (W : Valuation τ sig (Elt Ideal)) :
    (StableHlo.after (hostOps1 (F := Ideal)) W (Proc.devRef .tc main_v20) : S128x128.Idx → EReal)
      = transpose S128x128 [1, 0] (W (Proc.devRef .tc main_arg4) : S128x128.Idx → EReal) transposes_S128x128_S128x128_1_0 := by
  after_results <;> rfl

/-- The bias viewed as a one-row block. -/
theorem v21_eq (W : Valuation τ sig (Elt Ideal)) :
    (StableHlo.after (hostOps1 (F := Ideal)) W (Proc.devRef .tc main_v21) : S1x128.Idx → EReal)
      = shapeCast S1x128 (W (Proc.devRef .tc main_arg3) : S128.Idx → EReal) shapeCasts_S128_S1x128 := by
  after_results <;> rfl

/-- The transposed first weight at `(k, j)` is the first weight at `(j, k)`. -/
theorem wlT_apply (W : Valuation τ sig (Elt Ideal)) (k j : Fin 128) :
    (StableHlo.after (hostOps1 (F := Ideal)) W (Proc.devRef .tc main_v19) : S128x128.Idx → EReal) (ix2 k j)
      = (W (Proc.devRef .tc main_arg2) : S128x128.Idx → EReal) (ix2 j k) :=
  (congrFun (v19_eq W) (ix2 k j)).trans (transpose_ix2_apply _ _ k j)

/-- The transposed second weight at `(k, j)` is the second weight at `(j, k)`. -/
theorem wrT_apply (W : Valuation τ sig (Elt Ideal)) (k j : Fin 128) :
    (StableHlo.after (hostOps1 (F := Ideal)) W (Proc.devRef .tc main_v20) : S128x128.Idx → EReal) (ix2 k j)
      = (W (Proc.devRef .tc main_arg4) : S128x128.Idx → EReal) (ix2 j k) :=
  (congrFun (v20_eq W) (ix2 k j)).trans (transpose_ix2_apply _ _ k j)

/-- The bias row at column `j` is the bias at `j`. -/
theorem bl_apply (W : Valuation τ sig (Elt Ideal)) (j : Fin 128) :
    (StableHlo.after (hostOps1 (F := Ideal)) W (Proc.devRef .tc main_v21) : S1x128.Idx → EReal) (ix2 (0 : Fin 1) j)
      = (W (Proc.devRef .tc main_arg3) : S128.Idx → EReal) (ix1 j) :=
  (congrFun (v21_eq W) (ix2 (0 : Fin 1) j)).trans (shapeCast_a_1a_apply _ _ (0 : Fin 1) j)

/-- None of the twenty-six operations writes the relu's array, so it is what it was. -/
theorem h_kept (W : Valuation τ sig (Elt Ideal)) :
    StableHlo.after (hostOps1 (F := Ideal)) W (Proc.devRef .tc main_v0) = W (Proc.devRef .tc main_v0) := by
  after_results <;> rfl

/-! ## The same stretch in the reference

The reference program prints the same operations over records of the same fields under its own namespace; its
stages of the relu'd features and of the edge array are the composed terms above, so the two agree as soon as the
valuation holds the reference's relu stage and edge array. -/

/-- The summed messages are the reference's, at the reference's relu stage and edge array. -/
theorem agg_eq (W : Valuation τ sig (Elt Ideal))
    (x0 : (⟨Cert.ReferenceIdeal.S100000x128, .f32⟩ : BufTy).Contents (Elt Ideal))
    (x7 : (⟨Cert.ReferenceIdeal.S2x640000, .i32⟩ : BufTy).Contents (Elt Ideal))
    (h0 : (W (Proc.devRef .tc main_v0) : S100000x128.Idx → EReal) = Cert.ReferenceIdeal.Read.val_main_v0 (F := Ideal) x0)
    (h7 : W (Proc.devRef .tc main_arg7) = x7) :
    (StableHlo.after (hostOps1 (F := Ideal)) W (Proc.devRef .tc main_v14) : S100000x128.Idx → EReal)
      = Cert.ReferenceIdeal.Read.val_main_v14 (F := Ideal) x0 x7 := by
  subst h7
  refine (v14_eq W).trans ?_
  rw [h0]
  rfl

/-- The neighbour counts are the reference's, at the reference's edge array. -/
theorem cnt_eq (W : Valuation τ sig (Elt Ideal))
    (x7 : (⟨Cert.ReferenceIdeal.S2x640000, .i32⟩ : BufTy).Contents (Elt Ideal))
    (h7 : W (Proc.devRef .tc main_arg7) = x7) :
    (StableHlo.after (hostOps1 (F := Ideal)) W (Proc.devRef .tc main_v18) : S100000x1.Idx → EReal)
      = Cert.ReferenceIdeal.Read.val_main_v18 (F := Ideal) x7 := by
  subst h7
  refine (v18_eq W).trans ?_
  rfl

end Cert.KernelIdeal.HandHost

end
-- ==== Proof.RefForm.lean ====
/-
  The reference program read at one output index, as a closed formula over its arguments.

  With h = relu(x), agg the scatter-add of the gathered rows of h and cnt the scatter-add of ones, the pre-normalisation
  value is  out(r, j) = (sum_k agg(r,k) / max(cnt(r), 1) * W_l(j,k) + b_l(j)) + sum_k h(r,k) * W_r(j,k)
  (the two transposes turn W^T(k, j) into W(j, k)), and the result is the batch normalisation of out down each column:
  with M(j) the column mean and the variance the mean of (out - M)^2,
  result(r, j) = (out(r,j) - M(j)) * rsqrt(var(j) + eps) * gamma(j) + beta(j).
  The zero initial values of the sums are removed (0 + s = s).
-/
import proofs.«160515_j66726611911291_1_alg».proof.Proof.Gen.ReferenceIdeal.Read
import Idealize.ShloMosaic.Lib.ValueIdx
import Idealize.ShloMosaic.PureOps.Ideal.Laws

noncomputable section

namespace Cert.RefSide

open Cert.ReferenceIdeal Cert.ReferenceIdeal.Read Idealize.ShloMosaic Idealize.ShloMosaic.ValueIdx

/-- relu(x) at an index is the maximum of the entry and zero. -/
theorem relu_form (x0 : (⟨S100000x128, .f32⟩ : BufTy).Contents (Elt Ideal)) (r : Fin 100000) (k : Fin 128) :
    val_main_v0 (F := Ideal) x0 (ix2 r k) = max (x0 (ix2 r k)) (Ideal.ofBits .f32 0x00000000#32) := by
  rw [val_main_v0_apply, val_main_call0_v0_apply, val_main_call0_cst_apply]
  rfl

/-- The pre-normalisation value at (r, j). -/
theorem out_form (x0 : (⟨S100000x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x7 : (⟨S2x640000, .i32⟩ : BufTy).Contents (Elt Ideal))
    (r : Fin 100000) (j : Fin 128) :
    val_main_v30 (F := Ideal) x0 x2 x3 x4 x7 (ix2 r j)
      = ((∑ k : Fin 128, Ideal.div (val_main_v14 (F := Ideal) x0 x7 (ix2 r k))
              (max (val_main_v18 (F := Ideal) x7 (ix2 r (0 : Fin 1))) (Ideal.ofBits .f32 0x3F800000#32)) * x2 (ix2 j k))
          + x3 (ix1 j))
        + ∑ k : Fin 128, val_main_v0 (F := Ideal) x0 (ix2 r k) * x4 (ix2 j k) := by
  rw [val_main_v30_apply, val_main_v27_apply, val_main_v24_apply, val_main_v29_apply, val_main_v26_apply,
    val_main_v25_apply]
  simp only [Ideal.addf_def]
  have eb : idx_main_v25 (idx_main_v26 (ix2 r j)) = ix1 j :=
    funext fun a => Fin.ext (by match a with | ⟨0, _⟩ => rfl)
  rw [eb]
  refine congrArg₂ (· + ·) (congrArg (· + x3 (ix1 j)) (Finset.sum_congr rfl fun k _ => ?_))
    (Finset.sum_congr rfl fun k _ => ?_)
  · have e1 : lidx_main_v24 (ix2 r j) k = ix2 r k :=
      funext fun a => Fin.ext (by match a with | ⟨0, _⟩ => rfl | ⟨1, _⟩ => rfl)
    have e2 : idx_main_v21 (ix2 r k) = ix2 r (0 : Fin 1) :=
      funext fun a => Fin.ext (by match a with | ⟨0, _⟩ => rfl | ⟨1, _⟩ => rfl)
    have e3 : idx_main_v23 (ridx_main_v24 (ix2 r j) k) = ix2 j k :=
      funext fun a => Fin.ext (by match a with | ⟨0, _⟩ => rfl | ⟨1, _⟩ => rfl)
    rw [val_main_v22_apply, val_main_v21_apply, val_main_v20_apply, val_main_v19_apply, val_main_cst_3_apply,
      val_main_v23_apply, e1, e2, e3]
    rfl
  · have e1 : lidx_main_v29 (ix2 r j) k = ix2 r k :=
      funext fun a => Fin.ext (by match a with | ⟨0, _⟩ => rfl | ⟨1, _⟩ => rfl)
    have e3 : idx_main_v28 (ridx_main_v29 (ix2 r j) k) = ix2 j k :=
      funext fun a => Fin.ext (by match a with | ⟨0, _⟩ => rfl | ⟨1, _⟩ => rfl)
    rw [val_main_v28_apply, e1, e3]

/-- The column mean of the pre-normalisation value: the column's sum divided by the number of rows. -/
theorem mean_form (x0 : (⟨S100000x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x7 : (⟨S2x640000, .i32⟩ : BufTy).Contents (Elt Ideal)) (j : Fin 128) :
    val_main_v33 (F := Ideal) x0 x2 x3 x4 x7 (ix1 j)
      = Ideal.div (∑ k : Fin 100000, val_main_v30 (F := Ideal) x0 x2 x3 x4 x7 (ix2 k j)) (Ideal.ofBits .f32 0x47C35000#32) := by
  have e : ∀ k : Fin 100000, idx_main_v31 (ix1 j) k = ix2 k j := fun k =>
    funext fun a => Fin.ext (by match a with | ⟨0, _⟩ => rfl | ⟨1, _⟩ => rfl)
  rw [val_main_v33_apply, val_main_v31_apply, val_main_v32_apply, val_main_cst_5_apply, val_main_cst_4_apply]
  simp only [e, Ideal.hostDivf_def, Ideal.ofBits_def, Ideal.ofBits_zero_f32, zero_add]

/-- The column variance: the mean of the squared deviations from the column mean. -/
theorem var_form (x0 : (⟨S100000x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x7 : (⟨S2x640000, .i32⟩ : BufTy).Contents (Elt Ideal)) (j : Fin 128) :
    val_main_v40 (F := Ideal) x0 x2 x3 x4 x7 (ix1 j)
      = Ideal.div (∑ k : Fin 100000,
            (val_main_v30 (F := Ideal) x0 x2 x3 x4 x7 (ix2 k j)
                - Ideal.div (∑ k : Fin 100000, val_main_v30 (F := Ideal) x0 x2 x3 x4 x7 (ix2 k j)) (Ideal.ofBits .f32 0x47C35000#32))
              * (val_main_v30 (F := Ideal) x0 x2 x3 x4 x7 (ix2 k j)
                - Ideal.div (∑ k : Fin 100000, val_main_v30 (F := Ideal) x0 x2 x3 x4 x7 (ix2 k j)) (Ideal.ofBits .f32 0x47C35000#32)))
          (Ideal.ofBits .f32 0x47C35000#32) := by
  have e1 : ∀ k : Fin 100000, idx_main_v38 (ix1 j) k = ix2 k j := fun k =>
    funext fun a => Fin.ext (by match a with | ⟨0, _⟩ => rfl | ⟨1, _⟩ => rfl)
  have e2 : ∀ k : Fin 100000, idx_main_v34 (idx_main_v35 (ix2 k j)) = ix1 j := fun k =>
    funext fun a => Fin.ext (by match a with | ⟨0, _⟩ => rfl)
  rw [val_main_v40_apply, val_main_v38_apply, val_main_v39_apply, val_main_cst_7_apply, val_main_cst_6_apply]
  simp only [e1, val_main_v37_apply, val_main_v36_apply, val_main_v35_apply, val_main_v34_apply, e2, mean_form,
    Ideal.hostDivf_def, Ideal.mulf_def, Ideal.subf_def, Ideal.ofBits_def, Ideal.ofBits_zero_f32, zero_add]

/-- The result at (r, j): the batch normalisation of the pre-normalisation value down column j, scaled and shifted.
    The pre-normalisation value and the column mean are written out in full. -/
theorem ref_form (x0 : (⟨S100000x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 x6 : (⟨S128, .f32⟩ : BufTy).Contents (Elt Ideal))
    (x7 : (⟨S2x640000, .i32⟩ : BufTy).Contents (Elt Ideal)) (r : Fin 100000) (j : Fin 128) :
    val_main_v55 (F := Ideal) x0 x2 x3 x4 x5 x6 x7 (ix2 r j)
      = ((val_main_v30 (F := Ideal) x0 x2 x3 x4 x7 (ix2 r j)
              - Ideal.div (∑ k : Fin 100000, val_main_v30 (F := Ideal) x0 x2 x3 x4 x7 (ix2 k j)) (Ideal.ofBits .f32 0x47C35000#32))
            * Ideal.rsqrt (Ideal.div (∑ k : Fin 100000,
                  (val_main_v30 (F := Ideal) x0 x2 x3 x4 x7 (ix2 k j)
                      - Ideal.div (∑ k : Fin 100000, val_main_v30 (F := Ideal) x0 x2 x3 x4 x7 (ix2 k j)) (Ideal.ofBits .f32 0x47C35000#32))
                    * (val_main_v30 (F := Ideal) x0 x2 x3 x4 x7 (ix2 k j)
                      - Ideal.div (∑ k : Fin 100000, val_main_v30 (F := Ideal) x0 x2 x3 x4 x7 (ix2 k j)) (Ideal.ofBits .f32 0x47C35000#32)))
                (Ideal.ofBits .f32 0x47C35000#32) + Ideal.ofBits .f32 0x3727C5AC#32))
          * x5 (ix1 j) + x6 (ix1 j) := by
  have e1 : idx_main_v41 (idx_main_v42 (ix2 r j)) = ix1 j :=
    funext fun a => Fin.ext (by match a with | ⟨0, _⟩ => rfl)
  have e2 : idx_main_v47 (idx_main_v48 (ix2 r j)) = ix1 j :=
    funext fun a => Fin.ext (by match a with | ⟨0, _⟩ => rfl)
  have e3 : idx_main_v50 (idx_main_v51 (ix2 r j)) = ix1 j :=
    funext fun a => Fin.ext (by match a with | ⟨0, _⟩ => rfl)
  have e4 : idx_main_v53 (idx_main_v54 (ix2 r j)) = ix1 j :=
    funext fun a => Fin.ext (by match a with | ⟨0, _⟩ => rfl)
  rw [val_main_v55_apply, val_main_v52_apply, val_main_v49_apply, val_main_v43_apply, val_main_v42_apply,
    val_main_v41_apply, val_main_v48_apply, val_main_v47_apply, val_main_v46_apply, val_main_v45_apply,
    val_main_v44_apply, val_main_cst_8_apply, val_main_v51_apply, val_main_v50_apply, val_main_v54_apply,
    val_main_v53_apply, e1, e2, e3, e4, mean_form, var_form]
  simp only [Ideal.addf_def, Ideal.mulf_def, Ideal.subf_def, Ideal.hostUnary_rsqrt_def, Ideal.ofBits_def]

end Cert.RefSide

end
-- ==== Proof.IValOut.lean ====
import proofs.«160515_j66726611911291_1_alg».proof.Proof.IFrameSegs
import proofs.«160515_j66726611911291_1_alg».proof.Proof.IValR0
import proofs.«160515_j66726611911291_1_alg».proof.Proof.IValR1
import proofs.«160515_j66726611911291_1_alg».proof.Proof.IHost1
import proofs.«160515_j66726611911291_1_alg».proof.Proof.RefForm

noncomputable section

open scoped BigOperators

namespace Cert.KernelIdeal.HandVal

open Cert.KernelIdeal Cert.KernelIdeal.Gen Cert.KernelIdeal.Hand Cert.KernelIdeal.HandHost
open Idealize.ShloMosaic Idealize.ShloMosaic.TcCoe Idealize.ShloMosaic.ValueIdx Idealize.SL.Sem

variable (m : (ℓ : Loc nD τ sig) → Buf (Elt Ideal) ℓ) (ρ : Dev nD → PrngReg)

/-! # The arrays up to the combined one, as the reference's stages of the launch arguments

The launch memory's argument arrays on core `c`, each read at the reference's argument type: the features, the
first weight, the bias, the second weight and the edge array. -/

/-- The features at launch. -/
abbrev X0 (c : Dev nD) : (⟨Cert.ReferenceIdeal.S100000x128, .f32⟩ : BufTy).Contents (Elt Ideal) :=
  m ((c : Thread nD τ).loc main_arg0)
/-- The first weight at launch. -/
abbrev X2 (c : Dev nD) : (⟨Cert.ReferenceIdeal.S128x128, .f32⟩ : BufTy).Contents (Elt Ideal) :=
  m ((c : Thread nD τ).loc main_arg2)
/-- The bias at launch. -/
abbrev X3 (c : Dev nD) : (⟨Cert.ReferenceIdeal.S128, .f32⟩ : BufTy).Contents (Elt Ideal) :=
  m ((c : Thread nD τ).loc main_arg3)
/-- The second weight at launch. -/
abbrev X4 (c : Dev nD) : (⟨Cert.ReferenceIdeal.S128x128, .f32⟩ : BufTy).Contents (Elt Ideal) :=
  m ((c : Thread nD τ).loc main_arg4)
/-- The edge array at launch. -/
abbrev X7 (c : Dev nD) : (⟨Cert.ReferenceIdeal.S2x640000, .i32⟩ : BufTy).Contents (Elt Ideal) :=
  m ((c : Thread nD τ).loc main_arg7)

/-- After the first pass the relu's array is the reference's relu stage of the features. -/
theorem relu_arr (c : Dev nD) :
    (W1 (F := Ideal) m ρ c (Proc.devRef .tc main_v0) : S100000x128.Idx → EReal)
      = Cert.ReferenceIdeal.Read.val_main_v0 (F := Ideal) (X0 m c) := by
  refine (W1_arr m ρ c 1).trans ?_
  refine (final0 (V0 m ρ) c).trans ?_
  funext i
  obtain ⟨r, k, rfl⟩ : ∃ r k, i = ix2 r k := ⟨i 0, i 1, eq_ix2 i⟩
  exact (G0_apply _ r k).trans (Cert.RefSide.relu_form (X0 m c) r k).symm

/-- An argument array no window of the first pass writes is, after the pass, what it was at launch. -/
theorem W1_arg2 (c : Dev nD) : W1 (F := Ideal) m ρ c (Proc.devRef .tc main_arg2) = X2 m c :=
  (W1_of_ne m ρ c main_arg2 (by decide)).trans rfl
theorem W1_arg3 (c : Dev nD) : W1 (F := Ideal) m ρ c (Proc.devRef .tc main_arg3) = X3 m c :=
  (W1_of_ne m ρ c main_arg3 (by decide)).trans rfl
theorem W1_arg4 (c : Dev nD) : W1 (F := Ideal) m ρ c (Proc.devRef .tc main_arg4) = X4 m c :=
  (W1_of_ne m ρ c main_arg4 (by decide)).trans rfl
theorem W1_arg7 (c : Dev nD) : W1 (F := Ideal) m ρ c (Proc.devRef .tc main_arg7) = X7 m c :=
  (W1_of_ne m ρ c main_arg7 (by decide)).trans rfl

/-- After the second pass the combined array is the reference's pre-normalization stage of the launch arguments. -/
theorem out_arr (c : Dev nD) :
    (W3 (F := Ideal) m ρ c (Proc.devRef .tc main_v22) : S100000x128.Idx → EReal)
      = Cert.ReferenceIdeal.Read.val_main_v30 (F := Ideal) (X0 m c) (X2 m c) (X3 m c) (X4 m c) (X7 m c) := by
  refine (W3_arr m ρ c 6).trans ?_
  refine (final1 (V2 m ρ) c).trans ?_
  -- the six arrays the pass reads, each as the reference's stage or a launch argument read at an index
  have hagg : (V2 m ρ c main_v14 : S100000x128.Idx → EReal) = Cert.ReferenceIdeal.Read.val_main_v14 (F := Ideal) (X0 m c) (X7 m c) :=
    agg_eq (W1 m ρ c) (X0 m c) (X7 m c) (relu_arr m ρ c) (W1_arg7 m ρ c)
  have hcnt : (V2 m ρ c main_v18 : S100000x1.Idx → EReal) = Cert.ReferenceIdeal.Read.val_main_v18 (F := Ideal) (X7 m c) :=
    cnt_eq (W1 m ρ c) (X7 m c) (W1_arg7 m ρ c)
  have hh : (V2 m ρ c main_v0 : S100000x128.Idx → EReal) = Cert.ReferenceIdeal.Read.val_main_v0 (F := Ideal) (X0 m c) :=
    (h_kept (W1 m ρ c)).trans (relu_arr m ρ c)
  have hwl : ∀ k j : Fin 128, (V2 m ρ c main_v19 : S128x128.Idx → EReal) (ix2 k j) = X2 m c (ix2 j k) := fun k j =>
    (wlT_apply (W1 m ρ c) k j).trans (congrFun (W1_arg2 m ρ c) (ix2 j k))
  have hwr : ∀ k j : Fin 128, (V2 m ρ c main_v20 : S128x128.Idx → EReal) (ix2 k j) = X4 m c (ix2 j k) := fun k j =>
    (wrT_apply (W1 m ρ c) k j).trans (congrFun (W1_arg4 m ρ c) (ix2 j k))
  have hb : ∀ j : Fin 128, (V2 m ρ c main_v21 : S1x128.Idx → EReal) (ix2 (0 : Fin 1) j) = X3 m c (ix1 j) := fun j =>
    (bl_apply (W1 m ρ c) j).trans (congrFun (W1_arg3 m ρ c) (ix1 j))
  funext i
  obtain ⟨r, j, rfl⟩ : ∃ r j, i = ix2 r j := ⟨i 0, i 1, eq_ix2 i⟩
  refine (G1_apply _ _ _ _ _ _ r j).trans ?_
  refine Eq.trans ?_ (Cert.RefSide.out_form (X0 m c) (X2 m c) (X3 m c) (X4 m c) (X7 m c) r j).symm
  refine congrArg₂ (· + ·) (congrArg₂ (· + ·) (Finset.sum_congr rfl fun k _ => ?_) (hb j)) (Finset.sum_congr rfl fun k _ => ?_)
  · exact congrArg₂ (· * ·)
      (congrArg₂ Ideal.div (congrFun hagg (ix2 r k))
        (congrArg (max · (Ideal.ofBits .f32 0x3F800000#32)) (congrFun hcnt (ix2 r (0 : Fin 1)))))
      (hwl k j)
  · exact congrArg₂ (· * ·) (congrFun hh (ix2 r k)) (hwr k j)

end Cert.KernelIdeal.HandVal

end
-- ==== Proof.IValR2a.lean ====
/-
  The third pass, one grid point at a time: what the body leaves in the two scratch rows and in the two outputs.

  At the first point each scratch row is cleared and then receives the cleared row plus the block's column sums (of the
  entries; of their squares); at every later point it receives the running total plus the block's column sums; at the
  last point the two outputs receive copies of the rows as the accumulating stores left them.
-/
import proofs.«160515_j66726611911291_1_alg».proof.Proof.IFrameR2
import proofs.«160515_j66726611911291_1_alg».proof.Proof.KPay
import Idealize.ShloMosaic.Lib.Pipeline.Value
import Idealize.ShloMosaic.Lib.ValueIdx
import Idealize.ShloMosaic.Lib.Tactic

set_option maxRecDepth 16384

noncomputable section

open scoped BigOperators

namespace Cert.KernelIdeal.HandVal

open Cert.KernelIdeal Cert.KernelIdeal.Gen Cert.KernelIdeal.Hand Cert.KernelIdeal.Pay
open Idealize.ShloMosaic Idealize.ShloMosaic.TcCoe Idealize.ShloMosaic.Tactic Idealize.ShloMosaic.ValueIdx Idealize.SL.Sem
open Idealize.ShloMosaic.Pipeline (Dat)

variable {F : FTy → Type} [FloatOps F]

/-- The whole-row rectangle starts at the origin. -/
theorem hz2a : (![0, 0] : Fin 2 → Nat) = fun _ => 0 := funext fun a => by fin_cases a <;> rfl

/-- First point, first scratch row: the cleared row plus the block's column sums. -/
theorem sout2_A_0_eq (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond2_0 i) (hc1 : ¬cond2_1 i) (x0 : Vec F S2000x128 .f32) :
    sout2_A_0 c i arg1 harg1 arg2 harg2 arg3 harg3 arg4 harg4 arg5 harg5 hc0 hc1 x0 = k2_pay4 x0 k2_pay1 := by
  unfold sout2_A_0
  rw [View.read_writes_eq_canon _ _ _ (scover2_A_0 c i arg1 harg1 arg2 harg2 arg3 harg3 arg4 harg4 arg5 harg5 hc0 hc1 x0)]
  unfold kernelRun2_A
  dsimp only
  sl_unfold_words
  rw [View.canon_cons_unit_zero (S := S1x128) hz2a, View.readCov_unit_zero (S := S1x128) _ hz2a]
  simp only [View.readAt_eq_ld, harg1.read_unread, harg4.read_unread, harg5.read_unread, View.ld_unit_zero (S := S2000x128) hz2a, View.ld_unit_zero (S := S1x128) hz2a]

/-- First point, second scratch row: the cleared row plus the block's column sums of squares. -/
theorem sout2_A_1_eq (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond2_0 i) (hc1 : ¬cond2_1 i) (x0 : Vec F S2000x128 .f32) :
    sout2_A_1 c i arg1 harg1 arg2 harg2 arg3 harg3 arg4 harg4 arg5 harg5 hc0 hc1 x0 = k2_pay5 x0 k2_pay2 := by
  unfold sout2_A_1
  rw [View.read_writes_eq_canon _ _ _ (scover2_A_1 c i arg1 harg1 arg2 harg2 arg3 harg3 arg4 harg4 arg5 harg5 hc0 hc1 x0)]
  unfold kernelRun2_A
  dsimp only
  sl_unfold_words
  rw [View.canon_cons_unit_zero (S := S1x128) hz2a, View.readCov_unit_zero (S := S1x128) _ hz2a]
  simp only [View.readAt_eq_ld, harg1.read_unread, harg4.read_unread, harg5.read_unread, View.ld_unit_zero (S := S2000x128) hz2a, View.ld_unit_zero (S := S1x128) hz2a]

/-- A middle point, first scratch row: the running total plus the block's column sums. -/
theorem sout2_B_0_eq (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : ¬cond2_1 i) (x0 : Vec F S2000x128 .f32) (xs0 xs1 : Vec F S1x128 .f32) :
    sout2_B_0 c i arg1 harg1 arg2 harg2 arg3 harg3 arg4 harg4 arg5 harg5 hc0 hc1 x0 xs0 xs1 = k2_pay4 x0 xs0 := by
  unfold sout2_B_0
  rw [View.read_writes_eq_canon _ _ _ (scover2_B_0 c i arg1 harg1 arg2 harg2 arg3 harg3 arg4 harg4 arg5 harg5 hc0 hc1 x0 xs0 xs1)]
  unfold kernelRun2_B
  dsimp only
  rw [View.canon_unit_zero hz2a]
  simp only [View.readAt_eq_ld, harg1.read_unread, harg4.read_unread, harg5.read_unread, View.ld_unit_zero (S := S2000x128) hz2a, View.ld_unit_zero (S := S1x128) hz2a]

/-- A middle point, second scratch row: the running total plus the block's column sums of squares. -/
theorem sout2_B_1_eq (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : ¬cond2_1 i) (x0 : Vec F S2000x128 .f32) (xs0 xs1 : Vec F S1x128 .f32) :
    sout2_B_1 c i arg1 harg1 arg2 harg2 arg3 harg3 arg4 harg4 arg5 harg5 hc0 hc1 x0 xs0 xs1 = k2_pay5 x0 xs1 := by
  unfold sout2_B_1
  rw [View.read_writes_eq_canon _ _ _ (scover2_B_1 c i arg1 harg1 arg2 harg2 arg3 harg3 arg4 harg4 arg5 harg5 hc0 hc1 x0 xs0 xs1)]
  unfold kernelRun2_B
  dsimp only
  rw [View.canon_unit_zero hz2a]
  simp only [View.readAt_eq_ld, harg1.read_unread, harg4.read_unread, harg5.read_unread, View.ld_unit_zero (S := S2000x128) hz2a, View.ld_unit_zero (S := S1x128) hz2a]

/-- Last point, first scratch row: the running total plus the block's column sums. -/
theorem sout2_C_0_eq (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i) (x0 : Vec F S2000x128 .f32) (xs0 xs1 : Vec F S1x128 .f32) :
    sout2_C_0 c i arg1 harg1 arg2 harg2 arg3 harg3 arg4 harg4 arg5 harg5 hc0 hc1 x0 xs0 xs1 = k2_pay4 x0 xs0 := by
  unfold sout2_C_0
  rw [View.read_writes_eq_canon _ _ _ (scover2_C_0 c i arg1 harg1 arg2 harg2 arg3 harg3 arg4 harg4 arg5 harg5 hc0 hc1 x0 xs0 xs1)]
  unfold kernelRun2_C
  dsimp only
  sl_unfold_words
  rw [View.canon_unit_zero hz2a]
  simp only [View.readAt_eq_ld, harg1.read_unread, harg4.read_unread, harg5.read_unread, View.ld_unit_zero (S := S2000x128) hz2a, View.ld_unit_zero (S := S1x128) hz2a]

/-- Last point, second scratch row: the running total plus the block's column sums of squares. -/
theorem sout2_C_1_eq (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i) (x0 : Vec F S2000x128 .f32) (xs0 xs1 : Vec F S1x128 .f32) :
    sout2_C_1 c i arg1 harg1 arg2 harg2 arg3 harg3 arg4 harg4 arg5 harg5 hc0 hc1 x0 xs0 xs1 = k2_pay5 x0 xs1 := by
  unfold sout2_C_1
  rw [View.read_writes_eq_canon _ _ _ (scover2_C_1 c i arg1 harg1 arg2 harg2 arg3 harg3 arg4 harg4 arg5 harg5 hc0 hc1 x0 xs0 xs1)]
  unfold kernelRun2_C
  dsimp only
  sl_unfold_words
  rw [View.canon_unit_zero hz2a]
  simp only [View.readAt_eq_ld, harg1.read_unread, harg4.read_unread, harg5.read_unread, View.ld_unit_zero (S := S2000x128) hz2a, View.ld_unit_zero (S := S1x128) hz2a]

/-- Last point, first output: the copy of the first scratch row after its accumulating store. -/
theorem out2_C_1_eq (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i) (x0 : Vec F S2000x128 .f32) (xs0 xs1 : Vec F S1x128 .f32) :
    out2_C_1 c i arg1 harg1 arg2 harg2 arg3 harg3 arg4 harg4 arg5 harg5 hc0 hc1 x0 xs0 xs1 = k2_pay4 x0 xs0 := by
  unfold out2_C_1
  rw [View.read_writes_eq_canon _ _ _ (cover2_C_1 c i arg1 harg1 arg2 harg2 arg3 harg3 arg4 harg4 arg5 harg5 hc0 hc1 x0 xs0 xs1)]
  unfold kernelRun2_C
  dsimp only
  sl_unfold_words
  rw [View.canon_unit_zero hz2a, View.readCov_unit_zero (S := S1x128) _ hz2a]
  simp only [View.readAt_eq_ld, harg1.read_unread, harg4.read_unread, harg5.read_unread, View.ld_unit_zero (S := S2000x128) hz2a, View.ld_unit_zero (S := S1x128) hz2a]

/-- Last point, second output: the copy of the second scratch row after its accumulating store. -/
theorem out2_C_2_eq (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i) (x0 : Vec F S2000x128 .f32) (xs0 xs1 : Vec F S1x128 .f32) :
    out2_C_2 c i arg1 harg1 arg2 harg2 arg3 harg3 arg4 harg4 arg5 harg5 hc0 hc1 x0 xs0 xs1 = k2_pay5 x0 xs1 := by
  unfold out2_C_2
  rw [View.read_writes_eq_canon _ _ _ (cover2_C_2 c i arg1 harg1 arg2 harg2 arg3 harg3 arg4 harg4 arg5 harg5 hc0 hc1 x0 xs0 xs1)]
  unfold kernelRun2_C
  dsimp only
  sl_unfold_words
  rw [View.canon_unit_zero hz2a, View.readCov_unit_zero (S := S1x128) _ hz2a]
  simp only [View.readAt_eq_ld, harg1.read_unread, harg4.read_unread, harg5.read_unread, View.ld_unit_zero (S := S2000x128) hz2a, View.ld_unit_zero (S := S1x128) hz2a]

end Cert.KernelIdeal.HandVal

end
-- ==== Proof.IValR2b.lean ====
/-
  The totals pass, from blocks to arrays: each input block as rows of the array it is read from, and the two output rows
  after the pass as what the accumulation leaves at the last point, the only one that writes them back.
-/
import proofs.«160515_j66726611911291_1_alg».proof.Proof.IFrameR2
import Idealize.ShloMosaic.Lib.Pipeline.Value
import Idealize.ShloMosaic.Lib.ValueIdx

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

-- the buffer contents the region is entered from, one valuation per core
variable (V : (c : Dev nD) → (b : Ref sig .tc) → Buf (Elt Ideal) ((c : Thread nD τ).loc b))

/-! # Region 2: the input's blocks, and the two output arrays after the pass -/

/-- The last point, 49, is a point of the grid of fifty. -/
theorem last2_lt : 49 < cfg2.N := by have : cfg2.N = 50 := N_2; omega

/-- The printed index maps, decided over the grid: at point `t` the input window sits at row block `t`, column block `0`;
    the two output windows at block `(0, 0)`, their whole array. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- The input window's block at point `t` is rows `2000 t … 2000 t + 1999` of its array: element `(p, j)` of the block is
    element `(2000 t + p, j)` of the array as the region finds it. -/
theorem blk2_entry (c : Dev nD) (t : Fin cfg2.N) (p : Fin 2000) (j : Fin 128) :
    iblk2 (F := Ideal) V c 0 t (ix2 p j)
      = (V c main_v22 : S100000x128.Idx → EReal)
          (ix2 ⟨t.val * 2000 + p.val, by have := t.isLt; have := p.isLt; have : cfg2.N = 50 := N_2; omega⟩ j) := by
  obtain ⟨e0, e1, -⟩ := idx_facts2 t
  show V c main_v22 (((cfg2.win 0).blk t).view.emb (ix2 p j)) = V c main_v22 (ix2 ⟨t.val * 2000 + p.val, _⟩ j)
  refine congrArg (V c main_v22) ?_
  funext a; apply Fin.ext
  match a with
  | ⟨0, _⟩ => show win2_0.index t (0 : Fin 2) * 2000 + 1 * p.val = t.val * 2000 + p.val; omega
  | ⟨1, _⟩ => show win2_0.index t (1 : Fin 2) * 128 + 1 * j.val = j.val; omega

/-- An index of output 1's array is in point `t`'s block iff each coordinate is in the block's range on its axis. -/
theorem mem_blk2_1 (t : Fin cfg2.N) (i : S1x128.Idx) :
    i ∈ ((cfg2.win 1).blk t).view.set ↔ ∀ a : Fin 2, win2_1.index t a * S1x128.size a ≤ (i a).val ∧ (i a).val < win2_1.index t a * S1x128.size a + S1x128.size a := by
  show i ∈ ((View.whole main_v23_0).slice (win2_1.rect t)).set ↔ _
  rw [View.set_slice_whole, Rect.mem_set_unit]
  exact Iff.rfl

/-- The only point that writes output 1 back is the last, and what it writes is the whole row the accumulation left
    there: the window's one block is its whole array. -/
theorem flushed2_1_eq (c : Dev nD) (t : Fin cfg2.N) (hf : (cfg2.win 1).flush t = true) :
    (dat2 (F := Ideal) V c).flushed 1 t
      = ((cfg2.win 1).blk t).view.read (Elt Ideal) ((outsAt2 (F := Ideal) V c 49 last2_lt).1) := by
  have hN : cfg2.N = 50 := N_2
  have h49 : t.val = 49 := by have := (flush2_1 t).mp hf; have := t.isLt; omega
  obtain rfl : t = ⟨49, last2_lt⟩ := Fin.ext h49
  obtain ⟨-, -, e10, e11, e20, e21⟩ := idx_facts2 ⟨49, last2_lt⟩
  show (cfg2.win 1).cut (grid2.coords ⟨49, _⟩) ((dat2 (F := Ideal) V c).after 1 ⟨49, _⟩) = _
  rw [after2_1]
  funext y
  show ((outsAt2 (F := Ideal) V c 49 _).1) y = ((outsAt2 (F := Ideal) V c 49 _).1) (((cfg2.win 1).blk ⟨49, _⟩).view.emb y)
  refine congrArg ((outsAt2 (F := Ideal) V c 49 _).1) ?_
  funext a; apply Fin.ext
  match a with
  | ⟨0, _⟩ => show (y 0).val = win2_1.index ⟨49, _⟩ (0 : Fin 2) * 1 + 1 * (y 0).val; omega
  | ⟨1, _⟩ => show (y 1).val = win2_1.index ⟨49, _⟩ (1 : Fin 2) * 128 + 1 * (y 1).val; omega

/-- Every index of output 1's array is in the last point's block. -/
theorem cover2_1 (i : S1x128.Idx) : ∃ t : Fin cfg2.N, (cfg2.win 1).flush t = true ∧ i ∈ ((cfg2.win 1).blk t).view.set := by
  have hi0 : (i 0).val < 1 := idx2_lt0 i
  have hi1 : (i 1).val < 128 := idx2_lt1 i
  obtain ⟨-, -, e10, e11, e20, e21⟩ := idx_facts2 ⟨49, last2_lt⟩
  refine ⟨⟨49, last2_lt⟩, (flush2_1 _).mpr rfl, ?_⟩
  rw [mem_blk2_1]
  intro a
  match a with
  | ⟨0, _⟩ =>
    show win2_1.index ⟨49, _⟩ (0 : Fin 2) * 1 ≤ (i 0).val ∧ (i 0).val < win2_1.index ⟨49, _⟩ (0 : Fin 2) * 1 + 1
    omega
  | ⟨1, _⟩ =>
    show win2_1.index ⟨49, _⟩ (1 : Fin 2) * 128 ≤ (i 1).val ∧ (i 1).val < win2_1.index ⟨49, _⟩ (1 : Fin 2) * 128 + 128
    omega

/-- OUTPUT 1'S ARRAY after the pass: the first component of the accumulation at the last point. -/
theorem arr2_1 (c : Dev nD) :
    (dat2 (F := Ideal) V c).arrAt 1 cfg2.N = (outsAt2 (F := Ideal) V c 49 last2_lt).1 :=
  (dat2 (F := Ideal) V c).arrAt_eq_of_cover 1 ((outsAt2 (F := Ideal) V c 49 last2_lt).1)
    (fun t hf => flushed2_1_eq V c t hf) cover2_1

/-- An index of output 2's array is in point `t`'s block iff each coordinate is in the block's range on its axis. -/
theorem mem_blk2_2 (t : Fin cfg2.N) (i : S1x128.Idx) :
    i ∈ ((cfg2.win 2).blk t).view.set ↔ ∀ a : Fin 2, win2_2.index t a * S1x128.size a ≤ (i a).val ∧ (i a).val < win2_2.index t a * S1x128.size a + S1x128.size a := by
  show i ∈ ((View.whole main_v23_1).slice (win2_2.rect t)).set ↔ _
  rw [View.set_slice_whole, Rect.mem_set_unit]
  exact Iff.rfl

/-- The only point that writes output 2 back is the last, and what it writes is the whole row the accumulation left
    there: the window's one block is its whole array. -/
theorem flushed2_2_eq (c : Dev nD) (t : Fin cfg2.N) (hf : (cfg2.win 2).flush t = true) :
    (dat2 (F := Ideal) V c).flushed 2 t
      = ((cfg2.win 2).blk t).view.read (Elt Ideal) ((outsAt2 (F := Ideal) V c 49 last2_lt).2.1) := by
  have hN : cfg2.N = 50 := N_2
  have h49 : t.val = 49 := by have := (flush2_2 t).mp hf; have := t.isLt; omega
  obtain rfl : t = ⟨49, last2_lt⟩ := Fin.ext h49
  obtain ⟨-, -, e10, e11, e20, e21⟩ := idx_facts2 ⟨49, last2_lt⟩
  show (cfg2.win 2).cut (grid2.coords ⟨49, _⟩) ((dat2 (F := Ideal) V c).after 2 ⟨49, _⟩) = _
  rw [after2_2]
  funext y
  show ((outsAt2 (F := Ideal) V c 49 _).2.1) y = ((outsAt2 (F := Ideal) V c 49 _).2.1) (((cfg2.win 2).blk ⟨49, _⟩).view.emb y)
  refine congrArg ((outsAt2 (F := Ideal) V c 49 _).2.1) ?_
  funext a; apply Fin.ext
  match a with
  | ⟨0, _⟩ => show (y 0).val = win2_2.index ⟨49, _⟩ (0 : Fin 2) * 1 + 1 * (y 0).val; omega
  | ⟨1, _⟩ => show (y 1).val = win2_2.index ⟨49, _⟩ (1 : Fin 2) * 128 + 1 * (y 1).val; omega

/-- Every index of output 2's array is in the last point's block. -/
theorem cover2_2 (i : S1x128.Idx) : ∃ t : Fin cfg2.N, (cfg2.win 2).flush t = true ∧ i ∈ ((cfg2.win 2).blk t).view.set := by
  have hi0 : (i 0).val < 1 := idx2_lt0 i
  have hi1 : (i 1).val < 128 := idx2_lt1 i
  obtain ⟨-, -, e10, e11, e20, e21⟩ := idx_facts2 ⟨49, last2_lt⟩
  refine ⟨⟨49, last2_lt⟩, (flush2_2 _).mpr rfl, ?_⟩
  rw [mem_blk2_2]
  intro a
  match a with
  | ⟨0, _⟩ =>
    show win2_2.index ⟨49, _⟩ (0 : Fin 2) * 1 ≤ (i 0).val ∧ (i 0).val < win2_2.index ⟨49, _⟩ (0 : Fin 2) * 1 + 1
    omega
  | ⟨1, _⟩ =>
    show win2_2.index ⟨49, _⟩ (1 : Fin 2) * 128 ≤ (i 1).val ∧ (i 1).val < win2_2.index ⟨49, _⟩ (1 : Fin 2) * 128 + 128
    omega

/-- OUTPUT 2'S ARRAY after the pass: the second component of the accumulation at the last point. -/
theorem arr2_2 (c : Dev nD) :
    (dat2 (F := Ideal) V c).arrAt 2 cfg2.N = (outsAt2 (F := Ideal) V c 49 last2_lt).2.1 :=
  (dat2 (F := Ideal) V c).arrAt_eq_of_cover 2 ((outsAt2 (F := Ideal) V c 49 last2_lt).2.1)
    (fun t hf => flushed2_2_eq V c t hf) cover2_2

end Cert.KernelIdeal.HandVal

end
-- ==== Proof.LibRunTotal.lean ====
/-
  A running total built by recursion — zero plus the first term at the first index, the previous total plus the
  next term afterwards — is the finite sum of the terms so far; at the last index it is the sum of all terms. Over an
  arbitrary additive commutative monoid.
-/
import Mathlib.Algebra.BigOperators.Fin

namespace Cert.LibRunTotal

open scoped BigOperators

variable {M : Type*} [AddCommMonoid M]

/-- The running total of `f` up to and including index `n`: reset to zero and add at the first index, add at each later one. -/
def runTotal {N : ℕ} (f : Fin N → M) : (n : ℕ) → n < N → M
  | 0, h => 0 + f ⟨0, h⟩
  | n + 1, h => runTotal f n (Nat.lt_of_succ_lt h) + f ⟨n + 1, h⟩

/-- The running total up to `n` is the sum of the first `n + 1` terms. -/
theorem runTotal_eq_sum {N : ℕ} (f : Fin N → M) :
    ∀ (n : ℕ) (h : n < N), runTotal f n h = ∑ i : Fin (n + 1), f ⟨i.val, by omega⟩
  | 0, h => by simp [runTotal]
  | n + 1, h => by
    rw [runTotal, runTotal_eq_sum f n]
    exact (Fin.sum_univ_castSucc (fun i : Fin (n + 1 + 1) => f ⟨i.val, by omega⟩)).symm

/-- At the last index the running total is the sum of all terms. -/
theorem runTotal_last {N n : ℕ} (hN : N = n + 1) (f : Fin N → M) (h : n < N) : runTotal f n h = ∑ i : Fin N, f i := by
  subst hN
  rw [runTotal_eq_sum]

end Cert.LibRunTotal
-- ==== Proof.LibReindex.lean ====
/-
  Re-indexing finite sums over consecutive indices. A sum over `n = a * b` indices is a double sum over `a`
  blocks of `b` indices each, the index written `i * b + j` or `b * i + j`; a sum over `n = a + b + c` indices
  is the sum of its three consecutive blocks. All over an arbitrary additive commutative monoid.
-/
import Mathlib.Algebra.BigOperators.Fin
import Mathlib.Logic.Equiv.Fin.Basic

namespace Cert.LibReindex

open scoped BigOperators

variable {M : Type*} [AddCommMonoid M]

/-- Position `j` of block `i`, among `a` blocks of `b`, lies below `a * b`. -/
theorem mul_add_lt {a b : ℕ} (i : Fin a) (j : Fin b) : i.val * b + j.val < a * b :=
  calc i.val * b + j.val < i.val * b + b := Nat.add_lt_add_left j.isLt _
    _ = (i.val + 1) * b := (Nat.succ_mul _ _).symm
    _ ≤ a * b := Nat.mul_le_mul_right _ i.isLt

/-- The same with the block size written first. -/
theorem mul_add_lt' {a b : ℕ} (i : Fin a) (j : Fin b) : b * i.val + j.val < a * b :=
  Nat.mul_comm b i.val ▸ mul_add_lt i j

/-- A sum over `n = a * b` indices is the double sum over `a` blocks of `b`: the index is `i * b + j`. -/
theorem sum_mul_add {n : ℕ} (a b : ℕ) (hn : n = a * b) (f : Fin n → M) :
    ∑ r : Fin n, f r = ∑ i : Fin a, ∑ j : Fin b, f ⟨i.val * b + j.val, hn ▸ mul_add_lt i j⟩ := by
  subst hn
  rw [← Equiv.sum_comp finProdFinEquiv f, Fintype.sum_prod_type]
  refine Finset.sum_congr rfl fun i _ => Finset.sum_congr rfl fun j _ => congrArg f (Fin.ext ?_)
  show j.val + b * i.val = i.val * b + j.val
  rw [Nat.add_comm, Nat.mul_comm]

/-- A sum over `n = a * b` indices is the double sum over `a` blocks of `b`: the index is `b * i + j`. -/
theorem sum_mul_add' {n : ℕ} (a b : ℕ) (hn : n = a * b) (f : Fin n → M) :
    ∑ r : Fin n, f r = ∑ i : Fin a, ∑ j : Fin b, f ⟨b * i.val + j.val, hn ▸ mul_add_lt' i j⟩ := by
  rw [sum_mul_add a b hn f]
  refine Finset.sum_congr rfl fun i _ => Finset.sum_congr rfl fun j _ => congrArg f (Fin.ext ?_)
  show i.val * b + j.val = b * i.val + j.val
  rw [Nat.mul_comm]

/-- A sum over `n = a + b + c` indices is the sum of its three consecutive blocks. -/
theorem sum_three_blocks {n : ℕ} (a b c : ℕ) (hn : n = a + b + c) (f : Fin n → M) :
    ∑ k : Fin n, f k
      = (∑ i : Fin a, f ⟨i.val, by omega⟩ + ∑ i : Fin b, f ⟨a + i.val, by omega⟩)
        + ∑ i : Fin c, f ⟨a + b + i.val, by omega⟩ := by
  subst hn
  rw [Fin.sum_univ_add, Fin.sum_univ_add]
  rfl

end Cert.LibReindex
-- ==== Proof.IValR2.lean ====
/-
  The third pass, from the grid to the arrays: the two running totals kept in the scratch rows are, after position n,
  the sums of the first n + 1 blocks' column sums (of the entries; of their squares), by induction on the position;
  the last point copies them into the two outputs, which therefore end holding, at each column, the sum of the whole
  array's column and the sum of its squares: fifty blocks of two thousand rows are the hundred thousand rows.
-/
import proofs.«160515_j66726611911291_1_alg».proof.Proof.IFrameR2
import proofs.«160515_j66726611911291_1_alg».proof.Proof.KPay
import Idealize.ShloMosaic.Lib.Pipeline.Value
import Idealize.ShloMosaic.Lib.ValueIdx
import Idealize.ShloMosaic.Lib.Tactic
import proofs.«160515_j66726611911291_1_alg».proof.Proof.IValR2a
import proofs.«160515_j66726611911291_1_alg».proof.Proof.IValR2b
import proofs.«160515_j66726611911291_1_alg».proof.Proof.LibRunTotal
import proofs.«160515_j66726611911291_1_alg».proof.Proof.LibReindex

set_option maxRecDepth 16384

noncomputable section

open scoped BigOperators

namespace Cert.KernelIdeal.HandVal

open Cert.KernelIdeal Cert.KernelIdeal.Gen Cert.KernelIdeal.Hand Cert.KernelIdeal.Pay
open Idealize.ShloMosaic Idealize.ShloMosaic.TcCoe Idealize.ShloMosaic.Tactic Idealize.ShloMosaic.ValueIdx Idealize.SL.Sem
open Idealize.ShloMosaic.Pipeline (Dat)

-- the buffer contents the region is entered from, one valuation per core
variable (V : (c : Dev nD) → (b : Ref sig .tc) → Buf (Elt Ideal) ((c : Thread nD τ).loc b))

/-! # Region 2: the running totals are the column sums so far -/

/-- The input window's block at point `t`, as a plain array of extended reals. -/
def blk2 (c : Dev nD) (t : Fin cfg2.N) : S2000x128.Idx → EReal := iblk2 (F := Ideal) V c 0 t

/-- Column `j` of block `t`, summed down the block's rows. -/
def colS2 (c : Dev nD) (j : Fin 128) (t : Fin cfg2.N) : EReal :=
  ∑ p : Fin 2000, blk2 V c t (ix2 p j)

/-- Column `j` of block `t`, its squares summed down the block's rows. -/
def colQ2 (c : Dev nD) (j : Fin 128) (t : Fin cfg2.N) : EReal :=
  ∑ p : Fin 2000, blk2 V c t (ix2 p j) * blk2 V c t (ix2 p j)

/-- The first point leaves zero plus its block's column sums in the first scratch row, -/
theorem stepA2_0 (c : Dev nD) (t : Fin cfg2.N) (h0 : t.val = 0) (h1 : ¬t.val = 49) (j : Fin 128) :
    ((outsAt2 (F := Ideal) V c t.val t.isLt).2.2.1 : S1x128.Idx → EReal) (ix2 (0 : Fin 1) j) = 0 + colS2 V c j t := by
  rw [outsAt2_A V c t h0 h1]
  dsimp only
  rw [sout2_A_0_eq c (grid2.coords t) (ms2_0 t) (hs2_0 t) (ms2_1 t) (hs2_1 t) (ms2_2 t) (hs2_2 t) scM2_0 (Memref.isWhole_whole _) scM2_1 (Memref.isWhole_whole _) ((hcond2_0 t).mpr h0) (fun h => h1 ((hcond2_1 t).mp h)) (iblk2 V c 0 t)]
  refine (k2_pay4_apply _ _ j).trans ?_
  rw [k2_pay1_apply]
  rfl

/-- and zero plus its block's column sums of squares in the second. -/
theorem stepA2_1 (c : Dev nD) (t : Fin cfg2.N) (h0 : t.val = 0) (h1 : ¬t.val = 49) (j : Fin 128) :
    ((outsAt2 (F := Ideal) V c t.val t.isLt).2.2.2 : S1x128.Idx → EReal) (ix2 (0 : Fin 1) j) = 0 + colQ2 V c j t := by
  rw [outsAt2_A V c t h0 h1]
  dsimp only
  rw [sout2_A_1_eq c (grid2.coords t) (ms2_0 t) (hs2_0 t) (ms2_1 t) (hs2_1 t) (ms2_2 t) (hs2_2 t) scM2_0 (Memref.isWhole_whole _) scM2_1 (Memref.isWhole_whole _) ((hcond2_0 t).mpr h0) (fun h => h1 ((hcond2_1 t).mp h)) (iblk2 V c 0 t)]
  refine (k2_pay5_apply _ _ j).trans ?_
  rw [k2_pay2_apply]
  rfl

/-- A middle point adds its block's column sums to the first scratch row, -/
theorem stepB2_0 (c : Dev nD) (t : Fin cfg2.N) (h0 : ¬t.val = 0) (h1 : ¬t.val = 49) (j : Fin 128) :
    ((outsAt2 (F := Ideal) V c t.val t.isLt).2.2.1 : S1x128.Idx → EReal) (ix2 (0 : Fin 1) j)
      = ((outsAt2 (F := Ideal) V c (t.val - 1) (Nat.lt_of_le_of_lt (Nat.sub_le _ _) t.isLt)).2.2.1 : S1x128.Idx → EReal) (ix2 (0 : Fin 1) j) + colS2 V c j t := by
  rw [outsAt2_B V c t h0 h1]
  dsimp only
  rw [sout2_B_0_eq c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) (fun h => h1 ((hcond2_1 t).mp h)) (iblk2 V c 0 t) (outsAt2 (F := Ideal) V c (t.val - 1) (Nat.lt_of_le_of_lt (Nat.sub_le _ _) t.isLt)).2.2.1 (outsAt2 (F := Ideal) V c (t.val - 1) (Nat.lt_of_le_of_lt (Nat.sub_le _ _) t.isLt)).2.2.2]
  exact k2_pay4_apply _ _ j

/-- and its block's column sums of squares to the second. -/
theorem stepB2_1 (c : Dev nD) (t : Fin cfg2.N) (h0 : ¬t.val = 0) (h1 : ¬t.val = 49) (j : Fin 128) :
    ((outsAt2 (F := Ideal) V c t.val t.isLt).2.2.2 : S1x128.Idx → EReal) (ix2 (0 : Fin 1) j)
      = ((outsAt2 (F := Ideal) V c (t.val - 1) (Nat.lt_of_le_of_lt (Nat.sub_le _ _) t.isLt)).2.2.2 : S1x128.Idx → EReal) (ix2 (0 : Fin 1) j) + colQ2 V c j t := by
  rw [outsAt2_B V c t h0 h1]
  dsimp only
  rw [sout2_B_1_eq c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) (fun h => h1 ((hcond2_1 t).mp h)) (iblk2 V c 0 t) (outsAt2 (F := Ideal) V c (t.val - 1) (Nat.lt_of_le_of_lt (Nat.sub_le _ _) t.isLt)).2.2.1 (outsAt2 (F := Ideal) V c (t.val - 1) (Nat.lt_of_le_of_lt (Nat.sub_le _ _) t.isLt)).2.2.2]
  exact k2_pay5_apply _ _ j

/-- The last point does the same to the two scratch rows, -/
theorem stepC2_0 (c : Dev nD) (t : Fin cfg2.N) (h0 : ¬t.val = 0) (h1 : t.val = 49) (j : Fin 128) :
    ((outsAt2 (F := Ideal) V c t.val t.isLt).2.2.1 : S1x128.Idx → EReal) (ix2 (0 : Fin 1) j)
      = ((outsAt2 (F := Ideal) V c (t.val - 1) (Nat.lt_of_le_of_lt (Nat.sub_le _ _) t.isLt)).2.2.1 : S1x128.Idx → EReal) (ix2 (0 : Fin 1) j) + colS2 V c j t := by
  rw [outsAt2_C V c t h0 h1]
  dsimp only
  rw [sout2_C_0_eq c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) ((hcond2_1 t).mpr h1) (iblk2 V c 0 t) (outsAt2 (F := Ideal) V c (t.val - 1) (Nat.lt_of_le_of_lt (Nat.sub_le _ _) t.isLt)).2.2.1 (outsAt2 (F := Ideal) V c (t.val - 1) (Nat.lt_of_le_of_lt (Nat.sub_le _ _) t.isLt)).2.2.2]
  exact k2_pay4_apply _ _ j

theorem stepC2_1 (c : Dev nD) (t : Fin cfg2.N) (h0 : ¬t.val = 0) (h1 : t.val = 49) (j : Fin 128) :
    ((outsAt2 (F := Ideal) V c t.val t.isLt).2.2.2 : S1x128.Idx → EReal) (ix2 (0 : Fin 1) j)
      = ((outsAt2 (F := Ideal) V c (t.val - 1) (Nat.lt_of_le_of_lt (Nat.sub_le _ _) t.isLt)).2.2.2 : S1x128.Idx → EReal) (ix2 (0 : Fin 1) j) + colQ2 V c j t := by
  rw [outsAt2_C V c t h0 h1]
  dsimp only
  rw [sout2_C_1_eq c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) ((hcond2_1 t).mpr h1) (iblk2 V c 0 t) (outsAt2 (F := Ideal) V c (t.val - 1) (Nat.lt_of_le_of_lt (Nat.sub_le _ _) t.isLt)).2.2.1 (outsAt2 (F := Ideal) V c (t.val - 1) (Nat.lt_of_le_of_lt (Nat.sub_le _ _) t.isLt)).2.2.2]
  exact k2_pay5_apply _ _ j

/-- and leaves the same two rows in the two outputs. -/
theorem stepC2_out1 (c : Dev nD) (t : Fin cfg2.N) (h0 : ¬t.val = 0) (h1 : t.val = 49) (j : Fin 128) :
    ((outsAt2 (F := Ideal) V c t.val t.isLt).1 : S1x128.Idx → EReal) (ix2 (0 : Fin 1) j)
      = ((outsAt2 (F := Ideal) V c (t.val - 1) (Nat.lt_of_le_of_lt (Nat.sub_le _ _) t.isLt)).2.2.1 : S1x128.Idx → EReal) (ix2 (0 : Fin 1) j) + colS2 V c j t := by
  rw [outsAt2_C V c t h0 h1]
  dsimp only
  rw [out2_C_1_eq c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) ((hcond2_1 t).mpr h1) (iblk2 V c 0 t) (outsAt2 (F := Ideal) V c (t.val - 1) (Nat.lt_of_le_of_lt (Nat.sub_le _ _) t.isLt)).2.2.1 (outsAt2 (F := Ideal) V c (t.val - 1) (Nat.lt_of_le_of_lt (Nat.sub_le _ _) t.isLt)).2.2.2]
  exact k2_pay4_apply _ _ j

theorem stepC2_out2 (c : Dev nD) (t : Fin cfg2.N) (h0 : ¬t.val = 0) (h1 : t.val = 49) (j : Fin 128) :
    ((outsAt2 (F := Ideal) V c t.val t.isLt).2.1 : S1x128.Idx → EReal) (ix2 (0 : Fin 1) j)
      = ((outsAt2 (F := Ideal) V c (t.val - 1) (Nat.lt_of_le_of_lt (Nat.sub_le _ _) t.isLt)).2.2.2 : S1x128.Idx → EReal) (ix2 (0 : Fin 1) j) + colQ2 V c j t := by
  rw [outsAt2_C V c t h0 h1]
  dsimp only
  rw [out2_C_2_eq c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) ((hcond2_1 t).mpr h1) (iblk2 V c 0 t) (outsAt2 (F := Ideal) V c (t.val - 1) (Nat.lt_of_le_of_lt (Nat.sub_le _ _) t.isLt)).2.2.1 (outsAt2 (F := Ideal) V c (t.val - 1) (Nat.lt_of_le_of_lt (Nat.sub_le _ _) t.isLt)).2.2.2]
  exact k2_pay5_apply _ _ j

/-- THE INVARIANT: after position `n` the first scratch row holds, at column `j`, the running total of the blocks'
    column sums up to `n`. By induction on the position. -/
theorem tot2_0 (c : Dev nD) (j : Fin 128) : ∀ (n : ℕ) (h : n < cfg2.N),
    ((outsAt2 (F := Ideal) V c n h).2.2.1 : S1x128.Idx → EReal) (ix2 (0 : Fin 1) j)
      = Cert.LibRunTotal.runTotal (colS2 V c j) n h
  | 0, h => stepA2_0 V c ⟨0, h⟩ rfl (by show ¬((0 : ℕ) = 49); omega) j
  | n + 1, h => by
    by_cases h1 : n + 1 = 49
    · exact (stepC2_0 V c ⟨n + 1, h⟩ (Nat.succ_ne_zero n) h1 j).trans (congrArg (· + colS2 V c j ⟨n + 1, h⟩) (tot2_0 c j n _))
    · exact (stepB2_0 V c ⟨n + 1, h⟩ (Nat.succ_ne_zero n) h1 j).trans (congrArg (· + colS2 V c j ⟨n + 1, h⟩) (tot2_0 c j n _))

/-- The same for the second scratch row and the column sums of squares. -/
theorem tot2_1 (c : Dev nD) (j : Fin 128) : ∀ (n : ℕ) (h : n < cfg2.N),
    ((outsAt2 (F := Ideal) V c n h).2.2.2 : S1x128.Idx → EReal) (ix2 (0 : Fin 1) j)
      = Cert.LibRunTotal.runTotal (colQ2 V c j) n h
  | 0, h => stepA2_1 V c ⟨0, h⟩ rfl (by show ¬((0 : ℕ) = 49); omega) j
  | n + 1, h => by
    by_cases h1 : n + 1 = 49
    · exact (stepC2_1 V c ⟨n + 1, h⟩ (Nat.succ_ne_zero n) h1 j).trans (congrArg (· + colQ2 V c j ⟨n + 1, h⟩) (tot2_1 c j n _))
    · exact (stepB2_1 V c ⟨n + 1, h⟩ (Nat.succ_ne_zero n) h1 j).trans (congrArg (· + colQ2 V c j ⟨n + 1, h⟩) (tot2_1 c j n _))

/-- So after the last point (position 49) the first output holds, at column `j`, the sum over all blocks of their column
    sums, -/
theorem out49_sum (c : Dev nD) (j : Fin 128) (n : ℕ) (h : n < cfg2.N) (hn : n = 49) :
    ((outsAt2 (F := Ideal) V c n h).1 : S1x128.Idx → EReal) (ix2 (0 : Fin 1) j) = ∑ t : Fin cfg2.N, colS2 V c j t := by
  obtain ⟨m, rfl⟩ : ∃ m, n = m + 1 := ⟨48, hn⟩
  have hN : cfg2.N = m + 1 + 1 := by have : cfg2.N = 50 := N_2; omega
  refine (stepC2_out1 V c ⟨m + 1, h⟩ (Nat.succ_ne_zero m) hn j).trans ?_
  refine (congrArg (· + colS2 V c j ⟨m + 1, h⟩) (tot2_0 V c j m _)).trans ?_
  exact Cert.LibRunTotal.runTotal_last hN (colS2 V c j) h

/-- and the second output the sum over all blocks of their column sums of squares. -/
theorem out49_sumsq (c : Dev nD) (j : Fin 128) (n : ℕ) (h : n < cfg2.N) (hn : n = 49) :
    ((outsAt2 (F := Ideal) V c n h).2.1 : S1x128.Idx → EReal) (ix2 (0 : Fin 1) j) = ∑ t : Fin cfg2.N, colQ2 V c j t := by
  obtain ⟨m, rfl⟩ : ∃ m, n = m + 1 := ⟨48, hn⟩
  have hN : cfg2.N = m + 1 + 1 := by have : cfg2.N = 50 := N_2; omega
  refine (stepC2_out2 V c ⟨m + 1, h⟩ (Nat.succ_ne_zero m) hn j).trans ?_
  refine (congrArg (· + colQ2 V c j ⟨m + 1, h⟩) (tot2_1 V c j m _)).trans ?_
  exact Cert.LibRunTotal.runTotal_last hN (colQ2 V c j) h

/-! # The two output arrays after the pass -/

/-- A sum over the grid's points is a sum over fifty indices. -/
theorem sum_points2 (f : Fin cfg2.N → EReal) :
    ∑ t : Fin cfg2.N, f t = ∑ t : Fin 50, f (Fin.cast (N_2 : cfg2.N = 50).symm t) :=
  Fintype.sum_equiv (finCongr (N_2 : cfg2.N = 50)) f (fun t => f (Fin.cast (N_2 : cfg2.N = 50).symm t))
    (fun t => congrArg f (Fin.ext rfl))

/-- An entry of a block is the entry of the array at the block's row offset plus the row. -/
theorem blk2_eq (c : Dev nD) (x : S100000x128.Idx → EReal) (hx : (V c main_v22 : S100000x128.Idx → EReal) = x)
    (j : Fin 128) (t : Fin cfg2.N) (p : Fin 2000) :
    blk2 V c t (ix2 p j)
      = x (ix2 ⟨t.val * 2000 + p.val, by have := t.isLt; have := p.isLt; have : cfg2.N = 50 := N_2; omega⟩ j) :=
  (blk2_entry V c t p j).trans (congrFun hx _)

/-- THE FIRST OUTPUT after the pass: at column `j`, the sum of the array's column `j` over all its rows. -/
theorem final2_sum (c : Dev nD) (x : S100000x128.Idx → EReal) (hx : (V c main_v22 : S100000x128.Idx → EReal) = x)
    (j : Fin 128) :
    ((dat2 (F := Ideal) V c).arrAt 1 cfg2.N : S1x128.Idx → EReal) (ix2 (0 : Fin 1) j) = ∑ k : Fin 100000, x (ix2 k j) := by
  rw [arr2_1 V c]
  refine (out49_sum V c j 49 last2_lt rfl).trans ?_
  unfold colS2
  refine (Finset.sum_congr rfl fun t _ => Finset.sum_congr rfl fun p _ => blk2_eq V c x hx j t p).trans ?_
  refine (sum_points2 _).trans ?_
  exact (Cert.LibReindex.sum_mul_add 50 2000 (by norm_num) (fun k : Fin 100000 => x (ix2 k j))).symm

/-- THE SECOND OUTPUT after the pass: at column `j`, the sum of the squares of the array's column `j`. -/
theorem final2_sumsq (c : Dev nD) (x : S100000x128.Idx → EReal) (hx : (V c main_v22 : S100000x128.Idx → EReal) = x)
    (j : Fin 128) :
    ((dat2 (F := Ideal) V c).arrAt 2 cfg2.N : S1x128.Idx → EReal) (ix2 (0 : Fin 1) j)
      = ∑ k : Fin 100000, x (ix2 k j) * x (ix2 k j) := by
  rw [arr2_2 V c]
  refine (out49_sumsq V c j 49 last2_lt rfl).trans ?_
  unfold colQ2
  refine (Finset.sum_congr rfl fun t _ => Finset.sum_congr rfl fun p _ =>
    congrArg₂ (· * ·) (blk2_eq V c x hx j t p) (blk2_eq V c x hx j t p)).trans ?_
  refine (sum_points2 _).trans ?_
  exact (Cert.LibReindex.sum_mul_add 50 2000 (by norm_num) (fun k : Fin 100000 => x (ix2 k j) * x (ix2 k j))).symm

end Cert.KernelIdeal.HandVal

end
-- ==== Proof.IValR3.lean ====
/-
  The normalize pass, from blocks to the array: after its fifty write-backs the output array holds, at every index, the
  input's element less its column's mean, scaled by the reciprocal square root of the column's variance plus the small
  constant and by the column's scale, plus the column's shift.
-/
import proofs.«160515_j66726611911291_1_alg».proof.Proof.IFrameR3
import proofs.«160515_j66726611911291_1_alg».proof.Proof.KPay
import Idealize.ShloMosaic.Lib.Pipeline.Value
import Idealize.ShloMosaic.Lib.ValueIdx

noncomputable section

open scoped BigOperators

namespace Cert.KernelIdeal.HandVal

open Cert.KernelIdeal Cert.KernelIdeal.Gen Cert.KernelIdeal.Hand Cert.KernelIdeal.Pay
open Idealize.ShloMosaic Idealize.ShloMosaic.TcCoe Idealize.ShloMosaic.ValueIdx Idealize.SL.Sem
open Idealize.ShloMosaic.Pipeline (Dat)

-- the buffer contents the region is entered from, one valuation per core
variable (V : (c : Dev nD) → (b : Ref sig .tc) → Buf (Elt Ideal) ((c : Thread nD τ).loc b))

/-! # Region 3: the output array after the pass -/

theorem hz3 : (![0, 0] : Fin 2 → Nat) = fun _ => 0 := funext fun a => by fin_cases a <;> rfl

/-- What the output array ends holding, index by index: `(o - μ) · rsqrt (var + ε) · γ + β`, the row vectors read at the
    index's column. -/
def G3 (o : S100000x128.Idx → EReal) (mu var g b : S1x128.Idx → EReal) : S100000x128.Idx → EReal :=
  fun i => ((o i - mu (ix2 (0 : Fin 1) (i 1))) * Ideal.rsqrt (var (ix2 (0 : Fin 1) (i 1)) + Ideal.ofBits .f32 0x3727C5AC#32))
    * g (ix2 (0 : Fin 1) (i 1)) + b (ix2 (0 : Fin 1) (i 1))

theorem G3_apply (o : S100000x128.Idx → EReal) (mu var g b : S1x128.Idx → EReal) (r : Fin 100000) (j : Fin 128) :
    G3 o mu var g b (ix2 r j)
      = ((o (ix2 r j) - mu (ix2 (0 : Fin 1) j)) * Ideal.rsqrt (var (ix2 (0 : Fin 1) j) + Ideal.ofBits .f32 0x3727C5AC#32))
        * g (ix2 (0 : Fin 1) j) + b (ix2 (0 : Fin 1) j) := rfl

/-- One element of the body's block, once each loaded element it reads is known to be its array's: the block's element
    at `y` is the big array's at `i`, whose column is `y`'s, and each row vector's block is its whole array. -/
theorem point3 (var : Vec Ideal S1x128 .f32) (o : Vec Ideal S2000x128 .f32) (mu g b : Vec Ideal S1x128 .f32)
    (O : S100000x128.Idx → EReal) (MU VAR Gm B : S1x128.Idx → EReal) (y : S2000x128.Idx) (i : S100000x128.Idx)
    (hcol : (i 1).val = (y 1).val) (ho : o y = O i)
    (hmu : ∀ q : Fin 128, mu (ix2 (0 : Fin 1) q) = MU (ix2 (0 : Fin 1) q))
    (hvar : ∀ q : Fin 128, var (ix2 (0 : Fin 1) q) = VAR (ix2 (0 : Fin 1) q))
    (hg : ∀ q : Fin 128, g (ix2 (0 : Fin 1) q) = Gm (ix2 (0 : Fin 1) q))
    (hb : ∀ q : Fin 128, b (ix2 (0 : Fin 1) q) = B (ix2 (0 : Fin 1) q)) :
    k3_pay1 (F := Ideal) var o mu g b y = G3 O MU VAR Gm B i := by
  obtain ⟨p, q, rfl⟩ : ∃ p q, y = ix2 p q := ⟨y 0, y 1, eq_ix2 y⟩
  have hq : i 1 = q := Fin.ext hcol
  rw [k3_pay1_apply, ho, hmu, hvar, hg, hb]
  show _ = ((O i - MU (ix2 (0 : Fin 1) (i 1))) * Ideal.rsqrt (VAR (ix2 (0 : Fin 1) (i 1)) + Ideal.ofBits .f32 0x3727C5AC#32))
    * Gm (ix2 (0 : Fin 1) (i 1)) + B (ix2 (0 : Fin 1) (i 1))
  rw [hq]

/-- The printed index maps, decided over the grid: at point `t` the two row-blocked windows sit at row block `t`, column
    block `0`; the four row-vector windows at block `(0, 0)`, their whole array. -/
theorem idx_facts3 : ∀ t : Fin cfg3.N, win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- WHAT POINT `t` WRITES BACK is block `t` of `G3` of the arrays as the region finds them. -/
theorem flushed3_eq (c : Dev nD) (t : Fin cfg3.N) :
    (dat3 (F := Ideal) V c).flushed 5 t
      = ((cfg3.win 5).blk t).view.read (Elt Ideal) (G3 (V c main_v22) (V c main_v25) (V c main_v29) (V c main_v30) (V c main_v31)) := by
  show (cfg3.win 5).cut (grid3.coords t) ((dat3 (F := Ideal) V c).after 5 t) = _
  rw [after3_5]
  unfold out3_5
  rw [View.canon_unit_zero hz3]
  simp only [View.ld_unit_zero (S := S2000x128) hz3, View.ld_unit_zero (S := S1x128) hz3]
  obtain ⟨e00, e01, e50, e51, e10, e11, e20, e21, e30, e31, e40, e41⟩ := idx_facts3 t
  funext y
  show k3_pay1 (F := Ideal) (iblk3 V c 2 t) (iblk3 V c 0 t) (iblk3 V c 1 t) (iblk3 V c 3 t) (iblk3 V c 4 t) y
    = G3 (V c main_v22) (V c main_v25) (V c main_v29) (V c main_v30) (V c main_v31) (((cfg3.win 5).blk t).view.emb y)
  refine point3 _ _ _ _ _ _ _ _ _ _ y _ ?_ ?_ (fun q => ?_) (fun q => ?_) (fun q => ?_) (fun q => ?_)
  · show win3_5.index t (1 : Fin 2) * 128 + 1 * (y 1).val = (y 1).val
    omega
  · show V c main_v22 (((cfg3.win 0).blk t).view.emb y) = V c main_v22 (((cfg3.win 5).blk t).view.emb y)
    refine congrArg (V c main_v22) ?_
    funext a; apply Fin.ext
    match a with
    | ⟨0, _⟩ => show win3_0.index t (0 : Fin 2) * 2000 + 1 * (y 0).val = win3_5.index t (0 : Fin 2) * 2000 + 1 * (y 0).val; omega
    | ⟨1, _⟩ => show win3_0.index t (1 : Fin 2) * 128 + 1 * (y 1).val = win3_5.index t (1 : Fin 2) * 128 + 1 * (y 1).val; omega
  · show V c main_v25 (((cfg3.win 1).blk t).view.emb (ix2 (0 : Fin 1) q)) = V c main_v25 (ix2 (0 : Fin 1) q)
    refine congrArg (V c main_v25) ?_
    funext a; apply Fin.ext
    match a with
    | ⟨0, _⟩ => show win3_1.index t (0 : Fin 2) * 1 + 1 * 0 = 0; omega
    | ⟨1, _⟩ => show win3_1.index t (1 : Fin 2) * 128 + 1 * q.val = q.val; omega
  · show V c main_v29 (((cfg3.win 2).blk t).view.emb (ix2 (0 : Fin 1) q)) = V c main_v29 (ix2 (0 : Fin 1) q)
    refine congrArg (V c main_v29) ?_
    funext a; apply Fin.ext
    match a with
    | ⟨0, _⟩ => show win3_2.index t (0 : Fin 2) * 1 + 1 * 0 = 0; omega
    | ⟨1, _⟩ => show win3_2.index t (1 : Fin 2) * 128 + 1 * q.val = q.val; omega
  · show V c main_v30 (((cfg3.win 3).blk t).view.emb (ix2 (0 : Fin 1) q)) = V c main_v30 (ix2 (0 : Fin 1) q)
    refine congrArg (V c main_v30) ?_
    funext a; apply Fin.ext
    match a with
    | ⟨0, _⟩ => show win3_3.index t (0 : Fin 2) * 1 + 1 * 0 = 0; omega
    | ⟨1, _⟩ => show win3_3.index t (1 : Fin 2) * 128 + 1 * q.val = q.val; omega
  · show V c main_v31 (((cfg3.win 4).blk t).view.emb (ix2 (0 : Fin 1) q)) = V c main_v31 (ix2 (0 : Fin 1) q)
    refine congrArg (V c main_v31) ?_
    funext a; apply Fin.ext
    match a with
    | ⟨0, _⟩ => show win3_4.index t (0 : Fin 2) * 1 + 1 * 0 = 0; omega
    | ⟨1, _⟩ => show win3_4.index t (1 : Fin 2) * 128 + 1 * q.val = q.val; omega

/-- An index of the array is in point `t`'s block iff each coordinate is in the block's range on its axis. -/
theorem mem_blk3 (t : Fin cfg3.N) (i : S100000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v32).slice (win3_5.rect t)).set ↔ _
  rw [View.set_slice_whole, Rect.mem_set_unit]
  exact Iff.rfl

/-- Every index of the array is in some point's block: row `r` is in the block of point `r / 2000`. -/
theorem cover3 (i : S100000x128.Idx) : ∃ t : Fin cfg3.N, (cfg3.win 5).flush t = true ∧ i ∈ ((cfg3.win 5).blk t).view.set := by
  have hi0 : (i 0).val < 100000 := idx2_lt0 i
  have hi1 : (i 1).val < 128 := idx2_lt1 i
  have hN : cfg3.N = 50 := N_3
  have ht : (i 0).val / 2000 < cfg3.N := by rw [hN]; omega
  obtain ⟨e00, e01, e50, e51, -⟩ := idx_facts3 ⟨(i 0).val / 2000, ht⟩
  refine ⟨⟨(i 0).val / 2000, ht⟩, flush3_5 _, ?_⟩
  rw [mem_blk3]
  intro a
  match a with
  | ⟨0, _⟩ =>
    show win3_5.index ⟨(i 0).val / 2000, ht⟩ (0 : Fin 2) * 2000 ≤ (i 0).val ∧ (i 0).val < win3_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win3_5.index ⟨(i 0).val / 2000, ht⟩ (1 : Fin 2) * 128 ≤ (i 1).val ∧ (i 1).val < win3_5.index ⟨(i 0).val / 2000, ht⟩ (1 : Fin 2) * 128 + 128
    rw [e51]; omega

/-- THE ARRAY after the pass: `G3` of the arrays the region is entered from. -/
theorem final3 (c : Dev nD) :
    (dat3 (F := Ideal) V c).arrAt 5 cfg3.N = G3 (V c main_v22) (V c main_v25) (V c main_v29) (V c main_v30) (V c main_v31) :=
  (dat3 (F := Ideal) V c).arrAt_eq_of_cover 5 (G3 (V c main_v22) (V c main_v25) (V c main_v29) (V c main_v30) (V c main_v31))
    (fun t _ => flushed3_eq V c t) cover3

end Cert.KernelIdeal.HandVal

end
-- ==== Proof.IHost3.lean ====
import proofs.«160515_j66726611911291_1_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandHost

open Cert.KernelIdeal Cert.KernelIdeal.Gen Idealize.ShloMosaic Idealize.ShloMosaic.ValueIdx

/-! ## The host operations between the statistics and the normalization, read off any valuation

Ten operations: the two accumulated rows divided by the row count (the word `0x47C35000`, 100000 as a float), the
square of the first quotient, the difference of the second quotient and that square, and the scale and shift
vectors viewed as one-row blocks. Each result is first stated as the operations' composed term of the valuation's
contents, then read at column `j`. -/

/-- The first quotient: the first accumulated row over the splat of the row count. -/
theorem v25_eq (W : Valuation τ sig (Elt Ideal)) :
    (StableHlo.after (hostOps3 (F := Ideal)) W (Proc.devRef .tc main_v25) : S1x128.Idx → EReal)
      = Host.divf (F := Ideal) (W (Proc.devRef .tc main_v23_0))
          (broadcastInDim S1x128 ![] bcast_S_S1x128 (constant (F := Ideal) S_ .f32 0x47C35000#32)) := by
  after_results <;> rfl

/-- The difference: the second quotient less the square of the first. -/
theorem v29_eq (W : Valuation τ sig (Elt Ideal)) :
    (StableHlo.after (hostOps3 (F := Ideal)) W (Proc.devRef .tc main_v29) : S1x128.Idx → EReal)
      = subf (F := Ideal)
          (Host.divf (F := Ideal) (W (Proc.devRef .tc main_v23_1))
            (broadcastInDim S1x128 ![] bcast_S_S1x128 (constant (F := Ideal) S_ .f32 0x47C35000#32)))
          (mulf (F := Ideal)
            (Host.divf (F := Ideal) (W (Proc.devRef .tc main_v23_0))
              (broadcastInDim S1x128 ![] bcast_S_S1x128 (constant (F := Ideal) S_ .f32 0x47C35000#32)))
            (Host.divf (F := Ideal) (W (Proc.devRef .tc main_v23_0))
              (broadcastInDim S1x128 ![] bcast_S_S1x128 (constant (F := Ideal) S_ .f32 0x47C35000#32)))) := by
  after_results <;> rfl

/-- The scale vector viewed as a one-row block. -/
theorem v30_eq (W : Valuation τ sig (Elt Ideal)) :
    (StableHlo.after (hostOps3 (F := Ideal)) W (Proc.devRef .tc main_v30) : S1x128.Idx → EReal)
      = shapeCast S1x128 (W (Proc.devRef .tc main_arg5) : S128.Idx → EReal) shapeCasts_S128_S1x128 := by
  after_results <;> rfl

/-- The shift vector viewed as a one-row block. -/
theorem v31_eq (W : Valuation τ sig (Elt Ideal)) :
    (StableHlo.after (hostOps3 (F := Ideal)) W (Proc.devRef .tc main_v31) : S1x128.Idx → EReal)
      = shapeCast S1x128 (W (Proc.devRef .tc main_arg6) : S128.Idx → EReal) shapeCasts_S128_S1x128 := by
  after_results <;> rfl

/-- The mean row at column `j`: the first accumulated row there over the row count. -/
theorem mean_apply (W : Valuation τ sig (Elt Ideal)) (j : Fin 128) :
    (StableHlo.after (hostOps3 (F := Ideal)) W (Proc.devRef .tc main_v25) : S1x128.Idx → EReal) (ix2 (0 : Fin 1) j)
      = Ideal.div ((W (Proc.devRef .tc main_v23_0) : S1x128.Idx → EReal) (ix2 (0 : Fin 1) j)) (Ideal.ofBits .f32 0x47C35000#32) :=
  (congrFun (v25_eq W) (ix2 (0 : Fin 1) j)).trans rfl

/-- The variance row at column `j`: the second accumulated row there over the row count, less the square of the mean. -/
theorem var_apply (W : Valuation τ sig (Elt Ideal)) (j : Fin 128) :
    (StableHlo.after (hostOps3 (F := Ideal)) W (Proc.devRef .tc main_v29) : S1x128.Idx → EReal) (ix2 (0 : Fin 1) j)
      = Ideal.div ((W (Proc.devRef .tc main_v23_1) : S1x128.Idx → EReal) (ix2 (0 : Fin 1) j)) (Ideal.ofBits .f32 0x47C35000#32)
        - Ideal.div ((W (Proc.devRef .tc main_v23_0) : S1x128.Idx → EReal) (ix2 (0 : Fin 1) j)) (Ideal.ofBits .f32 0x47C35000#32)
          * Ideal.div ((W (Proc.devRef .tc main_v23_0) : S1x128.Idx → EReal) (ix2 (0 : Fin 1) j)) (Ideal.ofBits .f32 0x47C35000#32) :=
  (congrFun (v29_eq W) (ix2 (0 : Fin 1) j)).trans rfl

/-- The scale row at column `j` is the scale vector at `j`. -/
theorem gamma_apply (W : Valuation τ sig (Elt Ideal)) (j : Fin 128) :
    (StableHlo.after (hostOps3 (F := Ideal)) W (Proc.devRef .tc main_v30) : S1x128.Idx → EReal) (ix2 (0 : Fin 1) j)
      = (W (Proc.devRef .tc main_arg5) : S128.Idx → EReal) (ix1 j) :=
  (congrFun (v30_eq W) (ix2 (0 : Fin 1) j)).trans (shapeCast_a_1a_apply _ _ (0 : Fin 1) j)

/-- The shift row at column `j` is the shift vector at `j`. -/
theorem beta_apply (W : Valuation τ sig (Elt Ideal)) (j : Fin 128) :
    (StableHlo.after (hostOps3 (F := Ideal)) W (Proc.devRef .tc main_v31) : S1x128.Idx → EReal) (ix2 (0 : Fin 1) j)
      = (W (Proc.devRef .tc main_arg6) : S128.Idx → EReal) (ix1 j) :=
  (congrFun (v31_eq W) (ix2 (0 : Fin 1) j)).trans (shapeCast_a_1a_apply _ _ (0 : Fin 1) j)

/-- None of the ten operations writes the combined array, so it is what it was. -/
theorem out_kept (W : Valuation τ sig (Elt Ideal)) :
    StableHlo.after (hostOps3 (F := Ideal)) W (Proc.devRef .tc main_v22) = W (Proc.devRef .tc main_v22) := by
  after_results <;> rfl

end Cert.KernelIdeal.HandHost

end
-- ==== Proof.LibFinite.lean ====
/-
  Extended reals that are real numbers, and the operations that keep them so.
-/
import Idealize.ShloMosaic.PureOps.Ideal

noncomputable section

namespace Cert.LibFinite

open Idealize.ShloMosaic

/-- An extended real that is a real number (neither infinity). -/
def IsFin (x : EReal) : Prop := ∃ y : ℝ, x = (y : EReal)

theorem isFin_coe (y : ℝ) : IsFin (y : EReal) := ⟨y, rfl⟩

/-- Zero is the real number zero. -/
theorem isFin_zero : IsFin (0 : EReal) := ⟨0, rfl⟩

/-- The sum of two reals is the real sum: the coercion is additive. -/
theorem IsFin.add {x y : EReal} (hx : IsFin x) (hy : IsFin y) : IsFin (x + y) := by
  obtain ⟨a, rfl⟩ := hx
  obtain ⟨b, rfl⟩ := hy
  exact ⟨a + b, (EReal.coe_add a b).symm⟩

/-- The difference of two reals is the real difference. -/
theorem IsFin.sub {x y : EReal} (hx : IsFin x) (hy : IsFin y) : IsFin (x - y) := by
  obtain ⟨a, rfl⟩ := hx
  obtain ⟨b, rfl⟩ := hy
  exact ⟨a - b, (EReal.coe_sub a b).symm⟩

/-- The product of two reals is the real product. -/
theorem IsFin.mul {x y : EReal} (hx : IsFin x) (hy : IsFin y) : IsFin (x * y) := by
  obtain ⟨a, rfl⟩ := hx
  obtain ⟨b, rfl⟩ := hy
  exact ⟨a * b, (EReal.coe_mul a b).symm⟩

/-- The larger of two reals is one of them. -/
theorem IsFin.max {x y : EReal} (hx : IsFin x) (hy : IsFin y) : IsFin (max x y) := by
  rcases max_choice x y with h | h
  · rw [h]; exact hx
  · rw [h]; exact hy

/-- A real divided by a nonzero real is the real quotient: off zero the quotient is the product with the
    inverse, and the inverse of a real is the real inverse. -/
theorem IsFin.div {x y : EReal} (hx : IsFin x) (hy : IsFin y) (h0 : y ≠ 0) : IsFin (Ideal.div x y) := by
  obtain ⟨a, rfl⟩ := hx
  obtain ⟨b, rfl⟩ := hy
  refine ⟨a * b⁻¹, ?_⟩
  rw [Ideal.div, if_neg h0, ← EReal.coe_inv, ← EReal.coe_mul]

/-- A finite sum of reals is a real, by induction on the index set. -/
theorem IsFin.sum {ι : Type} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h a (Finset.mem_insert_self a s)).add (ih fun i hi => h i (Finset.mem_insert_of_mem hi))

/-- The pattern of `+0.0` denotes `0`. -/
theorem ofBits_zero : Ideal.ofBits .f32 0x00000000#32 = (0 : EReal) := by
  simp [Ideal.ofBits, Ideal.ieee]

/-- The pattern of `1.0` (exponent field `127`, zero fraction) denotes `2^23 · 2^(127 - 127 - 23) = 1`. -/
theorem ofBits_one : Ideal.ofBits .f32 0x3F800000#32 = ((1 : ℝ) : EReal) := by
  simp [Ideal.ofBits, Ideal.ieee, -EReal.coe_mul]; norm_num

/-- The pattern `0x47C35000` (exponent field `143`, fraction `0x435000`) denotes
    `(2^23 + 0x435000) · 2^(143 - 127 - 23) = 12800000 / 128 = 100000`. -/
theorem ofBits_1e5 : Ideal.ofBits .f32 0x47C35000#32 = ((100000 : ℝ) : EReal) := by
  simp [Ideal.ofBits, Ideal.ieee, -EReal.coe_mul]; norm_num

/-- The pattern `0x3727C5AC` has exponent field `110`, neither all ones nor zero: a normal number, a real. -/
theorem isFin_ofBits_eps : IsFin (Ideal.ofBits .f32 0x3727C5AC#32) := by
  simp [Ideal.ofBits, Ideal.ieee, -EReal.coe_mul]
  exact isFin_coe _

/-- A maximum against `1` is at least `1`, so it is not `0`. -/
theorem max_one_ne_zero (x : EReal) : max x (Ideal.ofBits .f32 0x3F800000#32) ≠ 0 := by
  rw [ofBits_one]
  have h : ((1 : ℝ) : EReal) ≤ max x ((1 : ℝ) : EReal) := le_max_right _ _
  have h0 : (0 : EReal) < ((1 : ℝ) : EReal) := by exact_mod_cast zero_lt_one
  exact (lt_of_lt_of_le h0 h).ne'

end Cert.LibFinite

end
-- ==== Proof.LibFiniteHost.lean ====
/-
  The host operations that move real numbers around, or add them up, keep them real.
-/
import Idealize.ShloMosaic.PureOps.Ideal
import proofs.«160515_j66726611911291_1_alg».proof.Proof.LibFinite

noncomputable section

namespace Cert.LibFiniteHost

open Idealize.ShloMosaic Cert.LibFinite

/-- A gather only copies: each result element IS an operand element, the one at the (clamped) operand
    index the dimension record computes from the start indices. Nothing is filled in, so if every operand
    element is a real number, every result element is. -/
theorem gather_isFin {s si t : Shape} {w : Nat} (d : GatherDims s si t) (x : s.Idx → EReal) (idx : IVec si w)
    (hx : ∀ i, IsFin (x i)) (j : t.Idx) : IsFin (Host.gather d x idx j) :=
  hx (d.operandIdx j idx)

/-- An accumulating scatter gives, at each operand index, the operand's element plus the finite sum of the
    update elements that land there: a real plus a finite sum of reals. -/
theorem scatterAdd_isFin {s si u : Shape} {w : Nat} {φ : FTy} (d : ScatterDims s si u) (x : FVec Ideal s φ)
    (idx : IVec si w) (upd : FVec Ideal u φ) (hx : ∀ i, IsFin (x i)) (hu : ∀ j, IsFin (upd j)) (i : s.Idx) :
    IsFin (Host.scatterAdd (F := Ideal) d x idx upd i) := by
  show IsFin (x i + ∑ j ∈ Finset.univ.filter (fun j => d.resultIdx? j idx = some i), upd j)
  exact (hx i).add (IsFin.sum _ _ fun j _ => hu j)

end Cert.LibFiniteHost

end
-- ==== Proof.RefFin.lean ====
/-
  Every entry of the reference's pre-normalisation value is a real number when every entry of its float
  arguments is.

  relu keeps reals real (a maximum against zero); the gather only copies entries of relu(x); the two scatter-adds
  start from zeros and add finitely many reals (copied entries, or ones); the count is divided only after the maximum
  with one, which is not zero; and the two matrix products, the bias and the final sum are finite sums and products
  of reals.
-/
import proofs.«160515_j66726611911291_1_alg».proof.Proof.RefForm
import proofs.«160515_j66726611911291_1_alg».proof.Proof.LibFinite
import proofs.«160515_j66726611911291_1_alg».proof.Proof.LibFiniteHost

noncomputable section

namespace Cert.RefSide

open Cert.ReferenceIdeal Cert.ReferenceIdeal.Read Idealize.ShloMosaic Idealize.ShloMosaic.ValueIdx Cert.LibFinite

/-- The f32 zero is a real number. -/
theorem isFin_ofBits_zero : IsFin (Ideal.ofBits .f32 0x00000000#32) := by
  rw [ofBits_zero]; exact isFin_zero

/-- The f32 one is a real number. -/
theorem isFin_ofBits_one : IsFin (Ideal.ofBits .f32 0x3F800000#32) := by
  rw [ofBits_one]; exact isFin_coe _

/-- relu of reals: each entry is the larger of a real and zero. -/
theorem relu_fin (x0 : (⟨S100000x128, .f32⟩ : BufTy).Contents (Elt Ideal)) (h0 : ∀ i, IsFin (x0 i)) :
    ∀ i, IsFin (val_main_v0 (F := Ideal) x0 i) := by
  intro i
  obtain ⟨r, k, rfl⟩ : ∃ (r : Fin 100000) (k : Fin 128), i = ix2 r k := ⟨_, _, eq_ix2 i⟩
  rw [relu_form]
  exact (h0 _).max isFin_ofBits_zero

/-- The aggregate: zeros plus finitely many copied entries of relu(x). -/
theorem agg_fin (x0 : (⟨S100000x128, .f32⟩ : BufTy).Contents (Elt Ideal)) (x7 : (⟨S2x640000, .i32⟩ : BufTy).Contents (Elt Ideal)) (h0 : ∀ i, IsFin (x0 i)) :
    ∀ i, IsFin (val_main_v14 (F := Ideal) x0 x7 i) := by
  intro i
  unfold val_main_v14
  refine Cert.LibFiniteHost.scatterAdd_isFin _ _ _ _ (fun i => ?_) (fun j => ?_) i
  · rw [val_main_v12_apply, val_main_cst_apply]
    exact isFin_ofBits_zero
  · unfold val_main_v11
    exact Cert.LibFiniteHost.gather_isFin _ _ _ (relu_fin x0 h0) j

/-- The count: zeros plus finitely many ones. -/
theorem cnt_fin (x7 : (⟨S2x640000, .i32⟩ : BufTy).Contents (Elt Ideal)) :
    ∀ i, IsFin (val_main_v18 (F := Ideal) x7 i) := by
  intro i
  unfold val_main_v18
  refine Cert.LibFiniteHost.scatterAdd_isFin _ _ _ _ (fun i => ?_) (fun j => ?_) i
  · rw [val_main_v16_apply, val_main_cst_2_apply]
    exact isFin_ofBits_zero
  · rw [val_main_v15_apply, val_main_cst_1_apply]
    exact isFin_ofBits_one

/-- Every entry of the pre-normalisation value is a real number. -/
theorem out_fin (x0 : (⟨S100000x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x7 : (⟨S2x640000, .i32⟩ : BufTy).Contents (Elt Ideal))
    (h0 : ∀ i, IsFin (x0 i)) (h2 : ∀ i, IsFin (x2 i)) (h3 : ∀ i, IsFin (x3 i)) (h4 : ∀ i, IsFin (x4 i)) :
    ∀ i, IsFin (val_main_v30 (F := Ideal) x0 x2 x3 x4 x7 i) := by
  intro i
  obtain ⟨r, j, rfl⟩ : ∃ (r : Fin 100000) (j : Fin 128), i = ix2 r j := ⟨_, _, eq_ix2 i⟩
  rw [out_form]
  refine ((IsFin.sum _ _ fun k _ => ?_).add (h3 _)).add (IsFin.sum _ _ fun k _ => ?_)
  · exact ((agg_fin x0 x7 h0 _).div ((cnt_fin x7 _).max isFin_ofBits_one) (max_one_ne_zero _)).mul (h2 _)
  · exact (relu_fin x0 h0 _).mul (h4 _)

end Cert.RefSide

end
-- ==== Proof.LibVariance.lean ====
/-
  The two forms of a variance agree on real numbers:
  the mean of the squared deviations from the mean is the mean of the squares minus the square of the mean.
-/
import Idealize.ShloMosaic.PureOps.Ideal
import proofs.«160515_j66726611911291_1_alg».proof.Proof.LibFinite

noncomputable section

namespace Cert.LibVariance

open Idealize.ShloMosaic Cert.LibFinite

/-- The coercion of the reals into the extended reals commutes with a finite sum (it is additive and sends
    `0` to `0`), by induction on the index set. -/
theorem coe_sum {ι : Type} (s : Finset ι) (y : ι → ℝ) :
    (∑ i ∈ s, ((y i : ℝ) : EReal)) = ((∑ i ∈ s, y i : ℝ) : EReal) := by
  classical
  induction s using Finset.induction_on with
  | empty => simp
  | insert a s ha ih => rw [Finset.sum_insert ha, Finset.sum_insert ha, ih, EReal.coe_add]

/-- Over the reals: with `m = (∑ y) / n`, `(∑ (y r - m)²) / n = (∑ y r²) / n - m²`. Expanding the square,
    `∑ (y r - m)² = ∑ y r² - 2 m ∑ y + n m²`, and `∑ y = n m`. -/
theorem real_variance_two_forms (n : ℕ) (hn : 0 < n) (y : Fin n → ℝ) :
    (∑ r, (y r - (∑ k, y k) * (1 / (n : ℝ))) * (y r - (∑ k, y k) * (1 / (n : ℝ)))) * (1 / (n : ℝ))
      = (∑ r, y r * y r) * (1 / (n : ℝ)) - (∑ k, y k) * (1 / (n : ℝ)) * ((∑ k, y k) * (1 / (n : ℝ))) := by
  have hn0 : (n : ℝ) ≠ 0 := by exact_mod_cast hn.ne'
  set S : ℝ := ∑ k, y k with hS
  set m : ℝ := S * (1 / (n : ℝ)) with hm
  have hexp : ∀ r, (y r - m) * (y r - m) = y r * y r - 2 * m * y r + m * m := fun r => by ring
  have hsum : (∑ r, (y r - m) * (y r - m)) = (∑ r, y r * y r) - 2 * m * S + (n : ℝ) * (m * m) := by
    simp only [hexp]
    rw [Finset.sum_add_distrib, Finset.sum_sub_distrib, ← Finset.mul_sum, Finset.sum_const, Finset.card_univ,
      Fintype.card_fin, nsmul_eq_mul]
  rw [hsum]
  have hSm : S = (n : ℝ) * m := by rw [hm]; field_simp
  rw [hSm]
  field_simp
  ring

/-- On extended reals that are all real numbers the two forms of the variance agree: write each element as a
    real, move the coercion out of the sums and out of the divisions by the nonzero real `n`, and it is the
    identity over the reals. (At an infinite element the two sides differ: `∞ - ∞` on the left is not the
    right's.) -/
theorem variance_two_forms (n : ℕ) (hn : 0 < n) (f : Fin n → EReal) (hf : ∀ r, Cert.LibFinite.IsFin (f r)) :
    Ideal.div (∑ r, (f r - Ideal.div (∑ k, f k) ((n : ℝ) : EReal)) * (f r - Ideal.div (∑ k, f k) ((n : ℝ) : EReal))) ((n : ℝ) : EReal)
      = Ideal.div (∑ r, f r * f r) ((n : ℝ) : EReal)
        - Ideal.div (∑ k, f k) ((n : ℝ) : EReal) * Ideal.div (∑ k, f k) ((n : ℝ) : EReal) := by
  have hn0 : (n : ℝ) ≠ 0 := by exact_mod_cast hn.ne'
  choose y hy using hf
  have hfy : f = fun r => ((y r : ℝ) : EReal) := funext hy
  subst hfy
  simp only [Ideal.div_coe hn0]
  rw [coe_sum]
  simp only [← EReal.coe_mul, ← EReal.coe_sub]
  rw [coe_sum, coe_sum]
  simp only [← EReal.coe_mul, ← EReal.coe_sub]
  exact congrArg _ (real_variance_two_forms n hn y)

/-- The same identity at `n = 100000`, the divisor spelled as the float pattern `0x47C35000` that denotes it. -/
theorem variance_two_forms_1e5 (f : Fin 100000 → EReal) (hf : ∀ r, Cert.LibFinite.IsFin (f r)) :
    Ideal.div (∑ r, (f r - Ideal.div (∑ k, f k) (Ideal.ofBits .f32 0x47C35000#32))
        * (f r - Ideal.div (∑ k, f k) (Ideal.ofBits .f32 0x47C35000#32))) (Ideal.ofBits .f32 0x47C35000#32)
      = Ideal.div (∑ r, f r * f r) (Ideal.ofBits .f32 0x47C35000#32)
        - Ideal.div (∑ k, f k) (Ideal.ofBits .f32 0x47C35000#32) * Ideal.div (∑ k, f k) (Ideal.ofBits .f32 0x47C35000#32) := by
  have h := variance_two_forms 100000 (by norm_num) f hf
  have hc : (((100000 : ℕ) : ℝ) : EReal) = Ideal.ofBits .f32 0x47C35000#32 := by
    rw [ofBits_1e5]; norm_num
  rw [hc] at h
  exact h

end Cert.LibVariance

end
-- ==== Proof.IBridge.lean ====
/-
  The closing algebra. A program that normalises the same pre-normalisation array down each column but computes the
  variance as the mean of the squares minus the square of the mean gives the reference's result: on real numbers
  the two forms of the variance agree, and every entry of the pre-normalisation array is a real number when the float
  arguments are. Also: a sum over 100000 rows is the sum over 50 blocks of 2000 consecutive rows.
-/
import proofs.«160515_j66726611911291_1_alg».proof.Proof.RefForm
import proofs.«160515_j66726611911291_1_alg».proof.Proof.RefFin
import proofs.«160515_j66726611911291_1_alg».proof.Proof.LibVariance
import proofs.«160515_j66726611911291_1_alg».proof.Proof.LibReindex

noncomputable section

namespace Cert.RefSide

open Cert.ReferenceIdeal Cert.ReferenceIdeal.Read Idealize.ShloMosaic Idealize.ShloMosaic.ValueIdx Cert.LibFinite

/-- The normalisation with the variance as (mean of squares) - (mean)^2 is the reference's result at (r, j). -/
theorem kernel_form_eq_ref (x0 : (⟨S100000x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 x6 : (⟨S128, .f32⟩ : BufTy).Contents (Elt Ideal))
    (x7 : (⟨S2x640000, .i32⟩ : BufTy).Contents (Elt Ideal))
    (h0 : ∀ i, IsFin (x0 i)) (h2 : ∀ i, IsFin (x2 i)) (h3 : ∀ i, IsFin (x3 i)) (h4 : ∀ i, IsFin (x4 i))
    (r : Fin 100000) (j : Fin 128) :
    ((val_main_v30 (F := Ideal) x0 x2 x3 x4 x7 (ix2 r j)
            - Ideal.div (∑ k : Fin 100000, val_main_v30 (F := Ideal) x0 x2 x3 x4 x7 (ix2 k j)) (Ideal.ofBits .f32 0x47C35000#32))
          * Ideal.rsqrt ((Ideal.div (∑ k : Fin 100000, val_main_v30 (F := Ideal) x0 x2 x3 x4 x7 (ix2 k j) * val_main_v30 (F := Ideal) x0 x2 x3 x4 x7 (ix2 k j)) (Ideal.ofBits .f32 0x47C35000#32)
              - Ideal.div (∑ k : Fin 100000, val_main_v30 (F := Ideal) x0 x2 x3 x4 x7 (ix2 k j)) (Ideal.ofBits .f32 0x47C35000#32)
                * Ideal.div (∑ k : Fin 100000, val_main_v30 (F := Ideal) x0 x2 x3 x4 x7 (ix2 k j)) (Ideal.ofBits .f32 0x47C35000#32))
            + Ideal.ofBits .f32 0x3727C5AC#32))
        * x5 (ix1 j) + x6 (ix1 j)
      = val_main_v55 (F := Ideal) x0 x2 x3 x4 x5 x6 x7 (ix2 r j) := by
  have hv := Cert.LibVariance.variance_two_forms_1e5
    (fun k : Fin 100000 => val_main_v30 (F := Ideal) x0 x2 x3 x4 x7 (ix2 k j))
    (fun k => out_fin x0 x2 x3 x4 x7 h0 h2 h3 h4 (ix2 k j))
  beta_reduce at hv
  rw [ref_form, hv]

/-- A sum over the 100000 rows is the sum over 50 blocks of 2000 consecutive rows. -/
theorem blocks_sum (f : Fin 100000 → EReal) :
    ∑ t : Fin 50, ∑ p : Fin 2000, f ⟨t.val * 2000 + p.val, by omega⟩ = ∑ k : Fin 100000, f k :=
  (Cert.LibReindex.sum_mul_add 50 2000 (by norm_num) f).symm

end Cert.RefSide

end
-- ==== Proof.IValFinal.lean ====
/-
  The last pass's array after the run, composed back to the program's arguments: its entries are the reference's result.
  The pre-normalisation array survives the third pass and the second stretch of host operations; the mean and variance rows are
  the third pass's two totals divided by the row count; with every entry of the pre-normalisation array a real number the two
  ways of writing the variance agree.
-/
import proofs.«160515_j66726611911291_1_alg».proof.Proof.IFrameSegs
import proofs.«160515_j66726611911291_1_alg».proof.Proof.IValR3
import proofs.«160515_j66726611911291_1_alg».proof.Proof.IHost3
import proofs.«160515_j66726611911291_1_alg».proof.Proof.IBridge

noncomputable section

open scoped BigOperators

namespace Cert.KernelIdeal.HandVal

open Cert.KernelIdeal Cert.KernelIdeal.Gen Cert.KernelIdeal.Hand Cert.KernelIdeal.HandHost
open Idealize.ShloMosaic Idealize.ShloMosaic.TcCoe Idealize.ShloMosaic.ValueIdx Idealize.SL.Sem
open Idealize.ShloMosaic.Pipeline (Dat)
open Cert.LibFinite

variable (m : (ℓ : Loc nD τ sig) → Buf (Elt Ideal) ℓ) (ρ : Dev nD → PrngReg)

/-- The pre-normalisation array as the last pass finds it is what the second pass left: the third pass only reads it, and no
    operation of the second stretch writes it. -/
theorem out_at_entry3 (c : Dev nD) :
    V5 (F := Ideal) m ρ c main_v22 = W3 (F := Ideal) m ρ c (Proc.devRef .tc main_v22) := by
  show StableHlo.after (hostOps3 (F := Ideal)) (W4 m ρ c) (Proc.devRef .tc main_v22) = _
  rw [out_kept]
  exact (W4_arr m ρ c 0).trans (((dat2 (V3 m ρ) c).arrAt_in 0 rfl _).trans (A_eq2 (V3 m ρ) c 0))

/-- The two totals as the second stretch finds them: what the third pass's write-backs left. -/
theorem sum_at_W4 (c : Dev nD) : W4 (F := Ideal) m ρ c (Proc.devRef .tc main_v23_0) = (dat2 (V3 m ρ) c).arrAt 1 cfg2.N := W4_arr m ρ c 1
theorem sumsq_at_W4 (c : Dev nD) : W4 (F := Ideal) m ρ c (Proc.devRef .tc main_v23_1) = (dat2 (V3 m ρ) c).arrAt 2 cfg2.N := W4_arr m ρ c 2

theorem arg5_at_W4 (c : Dev nD) : W4 (F := Ideal) m ρ c (Proc.devRef .tc main_arg5) = m ((c : Thread nD τ).loc main_arg5) :=
  calc W4 (F := Ideal) m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := StableHlo.after_of_writes_sub hostOps1 _ hostOps1_writes (by decide)
    _ = W0 m ρ c (Proc.devRef .tc main_arg5) := W1_of_ne m ρ c main_arg5 (by decide)
    _ = m ((c : Thread nD τ).loc main_arg5) := rfl

theorem arg6_at_W4 (c : Dev nD) : W4 (F := Ideal) m ρ c (Proc.devRef .tc main_arg6) = m ((c : Thread nD τ).loc main_arg6) :=
  calc W4 (F := Ideal) m ρ c (Proc.devRef .tc main_arg6)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := StableHlo.after_of_writes_sub hostOps1 _ hostOps1_writes (by decide)
    _ = W0 m ρ c (Proc.devRef .tc main_arg6) := W1_of_ne m ρ c main_arg6 (by decide)
    _ = m ((c : Thread nD τ).loc main_arg6) := rfl

/-- THE RESULT ARRAY. Given that the second pass's array is the reference's pre-normalisation array `O` (`hO`), that the third
    pass's two output rows are the column sums of `O` and of its squares (`hS`, `hQ`), and that the float arguments hold real
    numbers, the last pass's array after the run is the reference's result, index by index. -/
theorem result_arr (c : Dev nD)
    (x0 : (⟨Cert.ReferenceIdeal.S100000x128, .f32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal))
    (x5 x6 : (⟨Cert.ReferenceIdeal.S128, .f32⟩ : BufTy).Contents (Elt Ideal)) (x7 : (⟨Cert.ReferenceIdeal.S2x640000, .i32⟩ : BufTy).Contents (Elt Ideal))
    (hO : (W3 (F := Ideal) m ρ c (Proc.devRef .tc main_v22) : S100000x128.Idx → EReal) = Cert.ReferenceIdeal.Read.val_main_v30 (F := Ideal) x0 x2 x3 x4 x7)
    (hS : ∀ j : Fin 128, ((dat2 (F := Ideal) (V3 m ρ) c).arrAt 1 cfg2.N : S1x128.Idx → EReal) (ix2 (0 : Fin 1) j)
        = ∑ k : Fin 100000, Cert.ReferenceIdeal.Read.val_main_v30 (F := Ideal) x0 x2 x3 x4 x7 (ix2 k j))
    (hQ : ∀ j : Fin 128, ((dat2 (F := Ideal) (V3 m ρ) c).arrAt 2 cfg2.N : S1x128.Idx → EReal) (ix2 (0 : Fin 1) j)
        = ∑ k : Fin 100000, Cert.ReferenceIdeal.Read.val_main_v30 (F := Ideal) x0 x2 x3 x4 x7 (ix2 k j) * Cert.ReferenceIdeal.Read.val_main_v30 (F := Ideal) x0 x2 x3 x4 x7 (ix2 k j))
    (h5 : (m ((c : Thread nD τ).loc main_arg5) : S128.Idx → EReal) = x5) (h6 : (m ((c : Thread nD τ).loc main_arg6) : S128.Idx → EReal) = x6)
    (h0 : ∀ i, IsFin (x0 i)) (h2 : ∀ i, IsFin (x2 i)) (h3 : ∀ i, IsFin (x3 i)) (h4 : ∀ i, IsFin (x4 i)) :
    ((dat3 (F := Ideal) (V5 m ρ) c).arrAt 5 cfg3.N : S100000x128.Idx → EReal)
      = Cert.ReferenceIdeal.Read.val_main_v55 (F := Ideal) x0 x2 x3 x4 x5 x6 x7 := by
  rw [final3 (V5 m ρ) c]
  funext i
  obtain ⟨r, j, rfl⟩ : ∃ (r : Fin 100000) (j : Fin 128), i = ix2 r j := ⟨i 0, i 1, eq_ix2 i⟩
  rw [G3_apply]
  have e22 : (V5 (F := Ideal) m ρ c main_v22 : S100000x128.Idx → EReal) = Cert.ReferenceIdeal.Read.val_main_v30 (F := Ideal) x0 x2 x3 x4 x7 :=
    (out_at_entry3 m ρ c).trans hO
  have e25 : (V5 (F := Ideal) m ρ c main_v25 : S1x128.Idx → EReal) (ix2 (0 : Fin 1) j)
      = Ideal.div (∑ k : Fin 100000, Cert.ReferenceIdeal.Read.val_main_v30 (F := Ideal) x0 x2 x3 x4 x7 (ix2 k j)) (Ideal.ofBits .f32 0x47C35000#32) := by
    refine (mean_apply (W4 (F := Ideal) m ρ c) j).trans ?_
    rw [sum_at_W4 m ρ c, hS j]
  have e29 : (V5 (F := Ideal) m ρ c main_v29 : S1x128.Idx → EReal) (ix2 (0 : Fin 1) j)
      = Ideal.div (∑ k : Fin 100000, Cert.ReferenceIdeal.Read.val_main_v30 (F := Ideal) x0 x2 x3 x4 x7 (ix2 k j) * Cert.ReferenceIdeal.Read.val_main_v30 (F := Ideal) x0 x2 x3 x4 x7 (ix2 k j)) (Ideal.ofBits .f32 0x47C35000#32)
        - Ideal.div (∑ k : Fin 100000, Cert.ReferenceIdeal.Read.val_main_v30 (F := Ideal) x0 x2 x3 x4 x7 (ix2 k j)) (Ideal.ofBits .f32 0x47C35000#32)
          * Ideal.div (∑ k : Fin 100000, Cert.ReferenceIdeal.Read.val_main_v30 (F := Ideal) x0 x2 x3 x4 x7 (ix2 k j)) (Ideal.ofBits .f32 0x47C35000#32) := by
    refine (var_apply (W4 (F := Ideal) m ρ c) j).trans ?_
    rw [sum_at_W4 m ρ c, sumsq_at_W4 m ρ c, hS j, hQ j]
  have e30 : (V5 (F := Ideal) m ρ c main_v30 : S1x128.Idx → EReal) (ix2 (0 : Fin 1) j) = x5 (ix1 j) := by
    refine (gamma_apply (W4 (F := Ideal) m ρ c) j).trans ?_
    rw [arg5_at_W4 m ρ c, h5]
  have e31 : (V5 (F := Ideal) m ρ c main_v31 : S1x128.Idx → EReal) (ix2 (0 : Fin 1) j) = x6 (ix1 j) := by
    refine (beta_apply (W4 (F := Ideal) m ρ c) j).trans ?_
    rw [arg6_at_W4 m ρ c, h6]
  rw [e22, e25, e29, e30, e31]
  exact Cert.RefSide.kernel_form_eq_ref x0 x2 x3 x4 x5 x6 x7 h0 h2 h3 h4 r j

end Cert.KernelIdeal.HandVal

end
-- ==== Proof.PreFin.lean ====
/-
  The precondition "every float argument is finite", read back: each printed test |x| < +inf, taken over a whole
  array and joined by "and", says that every entry of that array is a real number.

  At the extended reals |x| is max x (-x), the word 0x7F800000 denotes the top element, and max x (-x) < top fails
  exactly at the two infinities.
-/
import proofs.«160515_j66726611911291_1_alg».proof.Pre_finite_inputs
import proofs.«160515_j66726611911291_1_alg».proof.Proof.LibFinite
import Idealize.ShloMosaic.Lib.ReduceAll
import Idealize.ShloMosaic.Lib.ValueIdx

noncomputable section

namespace Cert.RefSide

open Idealize.ShloMosaic Idealize.ShloMosaic.ValueIdx Cert.LibFinite

/-- The f32 word 0x7F800000 denotes +infinity. -/
theorem ofBits_inf : Ideal.ofBits .f32 0x7F800000#32 = (⊤ : EReal) := by
  simp [Ideal.ofBits, Ideal.ieee]

/-- An extended real whose absolute value is below +infinity is a real number. -/
theorem isFin_of_abs_lt (x : EReal)
    (h : Ideal.cmp .olt (max x (-x)) (Ideal.ofBits .f32 0x7F800000#32) = 1#1) : IsFin x := by
  rw [ofBits_inf] at h
  have h' : max x (-x) < ⊤ := by
    by_contra hc
    simp [Ideal.cmp, hc] at h
  induction x using EReal.rec with
  | bot => simp at h'
  | coe r => exact ⟨r, rfl⟩
  | top => simp at h'

/-- The scalar shape has one index. -/
instance : Subsingleton Cert.Pre_finite_inputs.S_.Idx := ⟨fun a b => funext fun d => d.elim0⟩

/-- From the printed precondition: every entry of each float argument the reference reads is a real number. -/
theorem pre_fin [Cert.Pre_finite_inputs.Facts]
    (x0 : FVec Ideal Cert.Pre_finite_inputs.S100000x128 .f32) (x1 : FVec Ideal Cert.Pre_finite_inputs.S640000 .f32)
    (x2 : FVec Ideal Cert.Pre_finite_inputs.S128x128 .f32) (x3 : FVec Ideal Cert.Pre_finite_inputs.S128 .f32)
    (x4 : FVec Ideal Cert.Pre_finite_inputs.S128x128 .f32) (x5 : FVec Ideal Cert.Pre_finite_inputs.S128 .f32)
    (x6 : FVec Ideal Cert.Pre_finite_inputs.S128 .f32) (x7 : IVec Cert.Pre_finite_inputs.S2x640000 32)
    (h : Cert.Pre_finite_inputs.fn (F := Ideal) x0 x1 x2 x3 x4 x5 x6 x7 = (fun _ => 1#1)) :
    (∀ i, IsFin (x0 i)) ∧ (∀ i, IsFin (x2 i)) ∧ (∀ i, IsFin (x3 i)) ∧ (∀ i, IsFin (x4 i)) ∧ (∀ i, IsFin (x5 i))
      ∧ (∀ i, IsFin (x6 i)) := by
  have e := congrFun h ix0
  dsimp only [Cert.Pre_finite_inputs.fn, Cert.Pre_finite_inputs.fn_part1] at e
  simp only [andi, IntOp.andi_eq_one] at e
  obtain ⟨⟨⟨⟨⟨⟨h0, -⟩, h2⟩, h3⟩, h4⟩, h5⟩, h6⟩ := e
  exact ⟨fun i => isFin_of_abs_lt _ (Host.reduce_andi_all _ _ _ _ _ h0 i),
    fun i => isFin_of_abs_lt _ (Host.reduce_andi_all _ _ _ _ _ h2 i),
    fun i => isFin_of_abs_lt _ (Host.reduce_andi_all _ _ _ _ _ h3 i),
    fun i => isFin_of_abs_lt _ (Host.reduce_andi_all _ _ _ _ _ h4 i),
    fun i => isFin_of_abs_lt _ (Host.reduce_andi_all _ _ _ _ _ h5 i),
    fun i => isFin_of_abs_lt _ (Host.reduce_andi_all _ _ _ _ _ h6 i)⟩

end Cert.RefSide

end
-- ==== Proof.lean ====
/-
  A GraphSAGE layer with batch normalisation, row-blocked into four passes, against its array-level reference.

  Both programs rectify the node features, gather them along the edges' sources and add them up at the edges' targets (with the
  number of incoming edges beside), divide by that count clamped below at one, apply two 128 × 128 matrices and a bias, and
  normalise every column by its batch mean and variance. Up to there the two are the same operations, differently tiled: the
  kernel's four passes each work on blocks of 2000 rows, its matrix products are sums over the contracted index on both sides,
  and its column totals are accumulated block by block where the reference sums all 100000 rows at once — a regrouping of a
  finite sum, valid for any extended reals. The one real difference is the variance: the kernel forms the mean of the squares
  minus the square of the mean, the reference the mean of the squared deviations. These agree for real numbers and not at the
  infinities, so the proof uses the precondition: with every float argument finite, every entry of the pre-normalisation array
  is a real number (a finite sum of finite products, divided by a count that is at least one), and the identity holds.

  The three frame claims: the kernel program, read at words and at extended reals, is run as six segments — a pass, a stretch
  of host operations, two passes, a stretch, a pass — over the launch memory; the third pass keeps its two running totals in
  scratch rows that its invariant carries from one grid point to the next, and hands its two outputs back untouched at every
  point but the last. The reference has no kernel; its frame is its run with the result dropped.
  The idealization rewrote no operation, so the preservation claim is the trivial one.
-/
import proofs.«160515_j66726611911291_1_alg».proof.Defs
import proofs.«160515_j66726611911291_1_alg».proof.Proof.Gen.Kernel
import proofs.«160515_j66726611911291_1_alg».proof.Proof.Gen.KernelIdeal
import proofs.«160515_j66726611911291_1_alg».proof.Proof.Gen.ReferenceIdeal
import proofs.«160515_j66726611911291_1_alg».proof.Proof.Gen.Pre_finite_inputs
import proofs.«160515_j66726611911291_1_alg».proof.Proof.Gen.ReferenceIdeal.Run
import proofs.«160515_j66726611911291_1_alg».proof.Proof.Gen.ReferenceIdeal.Read
import proofs.«160515_j66726611911291_1_alg».proof.Proof.BFrameRun
import proofs.«160515_j66726611911291_1_alg».proof.Proof.IFrameRun
import proofs.«160515_j66726611911291_1_alg».proof.Proof.IValOut
import proofs.«160515_j66726611911291_1_alg».proof.Proof.IValR2
import proofs.«160515_j66726611911291_1_alg».proof.Proof.IValFinal
import proofs.«160515_j66726611911291_1_alg».proof.Proof.PreFin
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Hand.frame m ρ

/-- So does the idealized one. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- On the extended reals, from memories agreeing on the arguments, the kernel program's result array — what its last pass's
    write-backs leave — is the reference's result: the second pass's array is the reference's pre-normalisation array, the
    third pass's two rows are its column sums and column sums of squares, and the float arguments are finite. -/
theorem algebraic : Cert.algebraic_KernelIdeal_ReferenceIdeal := by
  intro m ρ m' ρ' hpre hagree
  refine ⟨fun c => (Cert.KernelIdeal.Hand.dat3 (F := Ideal) (Cert.KernelIdeal.Hand.V5 m ρ) c).arrAt 5 Cert.KernelIdeal.cfg3.N,
    Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h2, h3, h4, -, -⟩ := Cert.RefSide.pre_fin _ _ _ _ _ _ _ _ (hpre c)
  rw [Cert.ReferenceIdeal.Read.val_main_v55_eq m' c,
    (hagree c).1, (hagree c).2.2.1, (hagree c).2.2.2.1, (hagree c).2.2.2.2.1, (hagree c).2.2.2.2.2.1,
    (hagree c).2.2.2.2.2.2.1, (hagree c).2.2.2.2.2.2.2]
  exact (Cert.KernelIdeal.HandVal.result_arr m ρ c _ _ _ _ _ _ _
    (Cert.KernelIdeal.HandVal.out_arr m ρ c)
    (fun j => Cert.KernelIdeal.HandVal.final2_sum (Cert.KernelIdeal.Hand.V3 m ρ) c _ (Cert.KernelIdeal.HandVal.out_arr m ρ c) j)
    (fun j => Cert.KernelIdeal.HandVal.final2_sumsq (Cert.KernelIdeal.Hand.V3 m ρ) c _ (Cert.KernelIdeal.HandVal.out_arr m ρ c) j)
    rfl rfl h0 h2 h3 h4).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
